-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x2048 : Shape := ⟨3, ![1, 2048, 2048]⟩
abbrev S1x2048x2 : Shape := ⟨3, ![1, 2048, 2]⟩
abbrev S8x2816x2048 : Shape := ⟨3, ![8, 2816, 2048]⟩
abbrev S8x2048x1408 : Shape := ⟨3, ![8, 2048, 1408]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S1x2048x2 : S_.BroadcastsInDim S1x2048x2 (![] : Fin 0 → Fin S1x2048x2.rank)
  reducesTo_S1x2048x2_S_d0_1_2 : S1x2048x2.ReducesTo [0, 1, 2] S_
  bcast_S_S8x2816x2048 : S_.BroadcastsInDim S8x2816x2048 (![] : Fin 0 → Fin S8x2816x2048.rank)
  reducesTo_S8x2816x2048_S_d0_1_2 : S8x2816x2048.ReducesTo [0, 1, 2] S_
  bcast_S_S8x2048x1408 : S_.BroadcastsInDim S8x2048x1408 (![] : Fin 0 → Fin S8x2048x1408.rank)
  reducesTo_S8x2048x1408_S_d0_1_2 : S8x2048x1408.ReducesTo [0, 1, 2] S_

variable [Facts]

def fn_part1 {F : FTy → Type} [FloatOps F] (main_v13 : IVec S_ 1) (main_v16 : IVec S8x2048x1408 1) : IVec S_ 1 :=
  let main_c_5 : IVec S_ 1 := constantI S_ 1 1#1
  let main_v17 : IVec S_ 1 := (fun x v => Host.reduce IntOp.andi x v reducesTo_S8x2048x1408_S_d0_1_2 h_S_) main_v16 main_c_5
  let main_v18 : IVec S_ 1 := andi main_v13 main_v17
  main_v18

def fn {F : FTy → Type} [FloatOps F] (main_arg0 : FVec F S1x2048x2048 .f32) (main_arg1 : IVec S1x2048x2 32) (main_arg2 : FVec F S1x2048x2 .f32) (main_arg3 : FVec F S8x2816x2048 .f32) (main_arg4 : FVec F S8x2048x1408 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S1x2048x2 .f32 := Host.absf main_arg2
  let main_cst_0 : FVec F S_ .f32 := constant S_ .f32 0x7F800000#32
  let main_v5 : FVec F S1x2048x2 .f32 := broadcastInDim S1x2048x2 ![] bcast_S_S1x2048x2 main_cst_0
  let main_v6 : IVec S1x2048x2 1 := cmpf .olt main_v4 main_v5
  let main_c_1 : IVec S_ 1 := constantI S_ 1 1#1
  let main_v7 : IVec S_ 1 := (fun x v => Host.reduce IntOp.andi x v reducesTo_S1x2048x2_S_d0_1_2 h_S_) main_v6 main_c_1
  let main_v8 : IVec S_ 1 := andi main_v3 main_v7
  let main_v9 : FVec F S8x2816x2048 .f32 := Host.absf main_arg3
  let main_cst_2 : FVec F S_ .f32 := constant S_ .f32 0x7F800000#32
  let main_v10 : FVec F S8x2816x2048 .f32 := broadcastInDim S8x2816x2048 ![] bcast_S_S8x2816x2048 main_cst_2
  let main_v11 : IVec S8x2816x2048 1 := cmpf .olt main_v9 main_v10
  let main_c_3 : IVec S_ 1 := constantI S_ 1 1#1
  let main_v12 : IVec S_ 1 := (fun x v => Host.reduce IntOp.andi x v reducesTo_S8x2816x2048_S_d0_1_2 h_S_) main_v11 main_c_3
  let main_v13 : IVec S_ 1 := andi main_v8 main_v12
  let main_v14 : FVec F S8x2048x1408 .f32 := Host.absf main_arg4
  let main_cst_4 : FVec F S_ .f32 := constant S_ .f32 0x7F800000#32
  let main_v15 : FVec F S8x2048x1408 .f32 := broadcastInDim S8x2048x1408 ![] bcast_S_S8x2048x1408 main_cst_4
  let main_v16 : IVec S8x2048x1408 1 := cmpf .olt main_v14 main_v15
  fn_part1 (F := F) main_v13 main_v16
-- ==== Kernel.lean ====
abbrev S1x2048x2048 : Shape := ⟨3, ![1, 2048, 2048]⟩
abbrev S1x2048x2 : Shape := ⟨3, ![1, 2048, 2]⟩
abbrev S8x2816x2048 : Shape := ⟨3, ![8, 2816, 2048]⟩
abbrev S8x2048x1408 : Shape := ⟨3, ![8, 2048, 1408]⟩
abbrev S2048x2048 : Shape := ⟨2, ![2048, 2048]⟩
abbrev S2048x2 : Shape := ⟨2, ![2048, 2]⟩
abbrev S8 : Shape := ⟨1, ![8]⟩
abbrev S2048x2x1 : Shape := ⟨3, ![2048, 2, 1]⟩
abbrev S1x1x8 : Shape := ⟨3, ![1, 1, 8]⟩
abbrev S2048x2x8 : Shape := ⟨3, ![2048, 2, 8]⟩
abbrev S_ : Shape := ⟨0, ![]⟩
abbrev S2048x8 : Shape := ⟨2, ![2048, 8]⟩
abbrev S1024x2048 : Shape := ⟨2, ![1024, 2048]⟩
abbrev S1x2816x2048 : Shape := ⟨3, ![1, 2816, 2048]⟩
abbrev S1x2048x1408 : Shape := ⟨3, ![1, 2048, 1408]⟩
abbrev S1024x8 : Shape := ⟨2, ![1024, 8]⟩
abbrev S2816x2048 : Shape := ⟨2, ![2816, 2048]⟩
abbrev S2048x1408 : Shape := ⟨2, ![2048, 1408]⟩
abbrev S128x2048 : Shape := ⟨2, ![128, 2048]⟩
abbrev S128x2816 : Shape := ⟨2, ![128, 2816]⟩
abbrev S128x1408 : Shape := ⟨2, ![128, 1408]⟩
abbrev S128x8 : Shape := ⟨2, ![128, 8]⟩
abbrev S128 : Shape := ⟨1, ![128]⟩
abbrev S128x1 : Shape := ⟨2, ![128, 1]⟩

abbrev nBuf : Space → Nat
  | .hbm => 25
  | .vmem => 5
  | .smem => 0
  | _ => 0

abbrev bufTy : (tb : Table) → Fin (tcTables nBuf tb) → BufTy
  | .hbm, ⟨0, _⟩ => ⟨S1x2048x2048, .f32⟩
  | .hbm, ⟨1, _⟩ => ⟨S1x2048x2, .i32⟩
  | .hbm, ⟨2, _⟩ => ⟨S1x2048x2, .f32⟩
  | .hbm, ⟨3, _⟩ => ⟨S8x2816x2048, .f32⟩
  | .hbm, ⟨4, _⟩ => ⟨S8x2048x1408, .f32⟩
  | .hbm, ⟨5, _⟩ => ⟨S2048x2048, .f32⟩
  | .hbm, ⟨6, _⟩ => ⟨S2048x2048, .bf16⟩
  | .hbm, ⟨7, _⟩ => ⟨S2048x2, .i32⟩
  | .hbm, ⟨8, _⟩ => ⟨S2048x2, .f32⟩
  | .hbm, ⟨9, _⟩ => ⟨S8, .i32⟩
  | .hbm, ⟨10, _⟩ => ⟨S2048x2x1, .i32⟩
  | .hbm, ⟨11, _⟩ => ⟨S1x1x8, .i32⟩
  | .hbm, ⟨12, _⟩ => ⟨S2048x2x8, .i32⟩
  | .hbm, ⟨13, _⟩ => ⟨S2048x2x8, .i32⟩
  | .hbm, ⟨14, _⟩ => ⟨S2048x2x8, .i1⟩
  | .hbm, ⟨15, _⟩ => ⟨S2048x2x8, .f32⟩
  | .hbm, ⟨16, _⟩ => ⟨S2048x2x1, .f32⟩
  | .hbm, ⟨17, _⟩ => ⟨S2048x2x8, .f32⟩
  | .hbm, ⟨18, _⟩ => ⟨S2048x2x8, .f32⟩
  | .hbm, ⟨19, _⟩ => ⟨S_, .f32⟩
  | .hbm, ⟨20, _⟩ => ⟨S2048x8, .f32⟩
  | .hbm, ⟨21, _⟩ => ⟨S8x2816x2048, .bf16⟩
  | .hbm, ⟨22, _⟩ => ⟨S8x2048x1408, .bf16⟩
  | .hbm, ⟨23, _⟩ => ⟨S2048x2048, .f32⟩
  | .hbm, ⟨24, _⟩ => ⟨S1x2048x2048, .f32⟩
  | .local _ .vmem, ⟨0, _⟩ => ⟨S1024x2048, .bf16⟩
  | .local _ .vmem, ⟨1, _⟩ => ⟨S1x2816x2048, .bf16⟩
  | .local _ .vmem, ⟨2, _⟩ => ⟨S1x2048x1408, .bf16⟩
  | .local _ .vmem, ⟨3, _⟩ => ⟨S1024x8, .f32⟩
  | .local _ .vmem, ⟨4, _⟩ => ⟨S1024x2048, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![2, 8], ![false, false]⟩

def k0_mult1 : BitVec 32 :=
  let c0_i32_6 : BitVec 32 := 0#32
  c0_i32_6
def k0_mult2 : BitVec 32 :=
  let c128_i32 : BitVec 32 := 128#32
  c128_i32
def k0_mult3 : BitVec 32 :=
  let c256_i32 : BitVec 32 := 256#32
  c256_i32
def k0_mult4 : BitVec 32 :=
  let c384_i32 : BitVec 32 := 384#32
  c384_i32
def k0_mult5 : BitVec 32 :=
  let c512_i32 : BitVec 32 := 512#32
  c512_i32
def k0_mult6 : BitVec 32 :=
  let c640_i32 : BitVec 32 := 640#32
  c640_i32
def k0_mult7 : BitVec 32 :=
  let c768_i32 : BitVec 32 := 768#32
  c768_i32
def k0_mult8 : BitVec 32 :=
  let c896_i32 : BitVec 32 := 896#32
  c896_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2816x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x2048x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S1024x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1024x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

class Facts₀ : Prop where
  shapeCasts_S1x2048x2048_S2048x2048 : S1x2048x2048.ShapeCasts S2048x2048
  bitsLt_bf16_f32 : FTy.bits .bf16 < FTy.bits .f32
  shapeCasts_S1x2048x2_S2048x2 : S1x2048x2.ShapeCasts S2048x2
  bcast_S2048x2_S2048x2x1_0_1 : S2048x2.BroadcastsInDim S2048x2x1 (![0, 1] : Fin 2 → Fin S2048x2x1.rank)
  bcast_S8_S1x1x8_2 : S8.BroadcastsInDim S1x1x8 (![2] : Fin 1 → Fin S1x1x8.rank)
  bcast_S2048x2x1_S2048x2x8_0_1_2 : S2048x2x1.BroadcastsInDim S2048x2x8 (![0, 1, 2] : Fin 3 → Fin S2048x2x8.rank)
  bcast_S1x1x8_S2048x2x8_0_1_2 : S1x1x8.BroadcastsInDim S2048x2x8 (![0, 1, 2] : Fin 3 → Fin S2048x2x8.rank)
  reducesTo_S2048x2x8_S2048x8_d1 : S2048x2x8.ReducesTo [1] S2048x8
  h_S_ : 0 < S_.numel
  inb_S1024x2048_S1024x2048_0_0 : ∀ a, (![0, 0] : Fin 2 → Nat) a + S1024x2048.size a ≤ S1024x2048.size a
  h_S1024x2048 : 0 < S1024x2048.numel
  inb_S1x2816x2048_S1x2816x2048_0_0_0 : ∀ a, (![0, 0, 0] : Fin 3 → Nat) a + S1x2816x2048.size a ≤ S1x2816x2048.size a
  h_S1x2816x2048 : 0 < S1x2816x2048.numel
  shapeCasts_S1x2816x2048_S2816x2048 : S1x2816x2048.ShapeCasts S2816x2048
  inb_S1x2048x1408_S1x2048x1408_0_0_0 : ∀ a, (![0, 0, 0] : Fin 3 → Nat) a + S1x2048x1408.size a ≤ S1x2048x1408.size a
  h_S1x2048x1408 : 0 < S1x2048x1408.numel
  shapeCasts_S1x2048x1408_S2048x1408 : S1x2048x1408.ShapeCasts S2048x1408
  inb_S1024x2048_S128x2048_0_0 : ∀ a, (![0, 0] : Fin 2 → Nat) a + S128x2048.size a ≤ S1024x2048.size a
  h_S128x2048 : 0 < S128x2048.numel
  shapeCasts_S128x2048_S128x2048 : S128x2048.ShapeCasts S128x2048
  slices_S128x2816_o0_0_S128x1408 : S128x2816.Slices ![0, 0] S128x1408
  slices_S128x2816_o0_1408_S128x1408 : S128x2816.Slices ![0, 1408] S128x1408
  inb_S1024x8_S128x8_0_0 : ∀ a, (![0, 0] : Fin 2 → Nat) a + S128x8.size a ≤ S1024x8.size a
  h_S128x8 : 0 < S128x8.numel
  shapeCasts_S128x8_S128x8 : S128x8.ShapeCasts S128x8
  iota_S128x8_d1_w32 : S128x8.Iotas .tc 32 [1]
  natLt_1_32 : 1 < 32
  reduces_S128x8_S128 : S128x8.Reduces [1] S128
  shapeCasts_S128_S128x1 : S128.ShapeCasts S128x1
  broadcasts_S128x1_S128x2048 : S128x1.Broadcasts S128x2048
  inb_S1024x2048_S128x2048_128_0 : ∀ a, (![128, 0] : Fin 2 → Nat) a + S128x2048.size a ≤ S1024x2048.size a
  inb_S1024x8_S128x8_128_0 : ∀ a, (![128, 0] : Fin 2 → Nat) a + S128x8.size a ≤ S1024x8.size a
  inb_S1024x2048_S128x2048_256_0 : ∀ a, (![256, 0] : Fin 2 → Nat) a + S128x2048.size a ≤ S1024x2048.size a
  inb_S1024x8_S128x8_256_0 : ∀ a, (![256, 0] : Fin 2 → Nat) a + S128x8.size a ≤ S1024x8.size a
  inb_S1024x2048_S128x2048_384_0 : ∀ a, (![384, 0] : Fin 2 → Nat) a + S128x2048.size a ≤ S1024x2048.size a
  inb_S1024x8_S128x8_384_0 : ∀ a, (![384, 0] : Fin 2 → Nat) a + S128x8.size a ≤ S1024x8.size a
  inb_S1024x2048_S128x2048_512_0 : ∀ a, (![512, 0] : Fin 2 → Nat) a + S128x2048.size a ≤ S1024x2048.size a
  inb_S1024x8_S128x8_512_0 : ∀ a, (![512, 0] : Fin 2 → Nat) a + S128x8.size a ≤ S1024x8.size a
  inb_S1024x2048_S128x2048_640_0 : ∀ a, (![640, 0] : Fin 2 → Nat) a + S128x2048.size a ≤ S1024x2048.size a
  inb_S1024x8_S128x8_640_0 : ∀ a, (![640, 0] : Fin 2 → Nat) a + S128x8.size a ≤ S1024x8.size a
  inb_S1024x2048_S128x2048_768_0 : ∀ a, (![768, 0] : Fin 2 → Nat) a + S128x2048.size a ≤ S1024x2048.size a
  inb_S1024x8_S128x8_768_0 : ∀ a, (![768, 0] : Fin 2 → Nat) a + S128x8.size a ≤ S1024x8.size a
  inb_S1024x2048_S128x2048_896_0 : ∀ a, (![896, 0] : Fin 2 → Nat) a + S128x2048.size a ≤ S1024x2048.size a
  inb_S1024x8_S128x8_896_0 : ∀ a, (![896, 0] : Fin 2 → Nat) a + S128x8.size a ≤ S1024x8.size a
  shapeCasts_S2048x2048_S1x2048x2048 : S2048x2048.ShapeCasts S1x2048x2048
  dot_S128x2048_S2816x2048_S128x2816_1_1_0_0_n_n_wf : DotDims.WF S128x2048 S2816x2048 S128x2816 [1] [1] [0] [0] [] []
  dot_S128x1408_S2048x1408_S128x2048_1_1_0_0_n_n_wf : DotDims.WF S128x1408 S2048x1408 S128x2048 [1] [1] [0] [0] [] []
  hrank0 : 0 < grid0.rank
  k0_mult1_dvd : 128 ∣ k0_mult1.toNat
  k0_mult2_dvd : 128 ∣ k0_mult2.toNat
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S2048x2048.size a
  hwx0_0 : ∀ i : grid0.Coords, EltTy.bits .bf16 = 32 ∨ (Rect.block (s := S2048x2048) S1024x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2816x2048.size a ≤ S8x2816x2048.size a
  hwx0_1 : ∀ i : grid0.Coords, EltTy.bits .bf16 = 32 ∨ (Rect.block (s := S8x2816x2048) S1x2816x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048x1408.size a ≤ S8x2048x1408.size a
  hwx0_2 : ∀ i : grid0.Coords, EltTy.bits .bf16 = 32 ∨ (Rect.block (s := S8x2048x1408) S1x2048x1408.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x8.size a ≤ S2048x8.size a
  hwx0_3 : ∀ i : grid0.Coords, EltTy.bits .f32 = 32 ∨ (Rect.block (s := S2048x8) S1024x8.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S2048x2048.size a
  hwx0_4 : ∀ i : grid0.Coords, EltTy.bits .f32 = 32 ∨ (Rect.block (s := S2048x2048) S1024x2048.size (cc0_transform_4 i) (hinb0_4 i)).WholeWords (EltTy.packing .f32)

variable [Facts₀]

def dot_S128x2048_S2816x2048_S128x2816_1_1_0_0_n_n : DotDims S128x2048 S2816x2048 S128x2816 where
  lhsContracting := [1]
  rhsContracting := [1]
  lhsNonContracting := [0]
  rhsNonContracting := [0]
  lhsBatch := []
  rhsBatch := []
  wf := dot_S128x2048_S2816x2048_S128x2816_1_1_0_0_n_n_wf
def dot_S128x1408_S2048x1408_S128x2048_1_1_0_0_n_n : DotDims S128x1408 S2048x1408 S128x2048 where
  lhsContracting := [1]
  rhsContracting := [1]
  lhsNonContracting := [0]
  rhsNonContracting := [0]
  lhsBatch := []
  rhsBatch := []
  wf := dot_S128x1408_S2048x1408_S128x2048_1_1_0_0_n_n_wf

abbrev win0_0 : Pipeline.Window sig grid0 :=
  Pipeline.Window.ofSpec (Memref.whole main_v1) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1x2816x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x2048x1408.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1024x2048.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1x2048x2048 : Shape := ⟨3, ![1, 2048, 2048]⟩
abbrev S1x2048x2 : Shape := ⟨3, ![1, 2048, 2]⟩
abbrev S8x2816x2048 : Shape := ⟨3, ![8, 2816, 2048]⟩
abbrev S8x2048x1408 : Shape := ⟨3, ![8, 2048, 1408]⟩
abbrev S2048x2048 : Shape := ⟨2, ![2048, 2048]⟩
abbrev S2048x2 : Shape := ⟨2, ![2048, 2]⟩
abbrev S_ : Shape := ⟨0, ![]⟩
abbrev S2048 : Shape := ⟨1, ![2048]⟩
abbrev S1x2816x2048 : Shape := ⟨3, ![1, 2816, 2048]⟩
abbrev S2816x2048 : Shape := ⟨2, ![2816, 2048]⟩
abbrev S2048x2816 : Shape := ⟨2, ![2048, 2816]⟩
abbrev S2048x1408 : Shape := ⟨2, ![2048, 1408]⟩
abbrev S1x2048x1408 : Shape := ⟨3, ![1, 2048, 1408]⟩
abbrev S1408x2048 : Shape := ⟨2, ![1408, 2048]⟩
abbrev S2048x1 : Shape := ⟨2, ![2048, 1]⟩

abbrev nBuf : Space → Nat
  | .hbm => 259
  | .vmem => 0
  | .smem => 0
  | _ => 0

abbrev hbmTy0_0 (i : Nat) : BufTy := match i % 128 with
  | 0 => ⟨S1x2048x2048, .f32⟩
  | 1 => ⟨S1x2048x2, .i32⟩
  | 2 => ⟨S1x2048x2, .f32⟩
  | 3 => ⟨S8x2816x2048, .f32⟩
  | 4 => ⟨S8x2048x1408, .f32⟩
  | 5 => ⟨S2048x2048, .f32⟩
  | 6 => ⟨S2048x2, .i32⟩
  | 7 => ⟨S2048x2, .f32⟩
  | 8 => ⟨S_, .f32⟩
  | 9 => ⟨S2048x2048, .f32⟩
  | 10 => ⟨S_, .i32⟩
  | 11 => ⟨S2048x2, .i32⟩
  | 12 => ⟨S2048x2, .i1⟩
  | 13 => ⟨S2048x2, .f32⟩
  | 14 => ⟨S2048x2, .f32⟩
  | 15 => ⟨S_, .f32⟩
  | 16 => ⟨S2048, .f32⟩
  | 17 => ⟨S1x2816x2048, .f32⟩
  | 18 => ⟨S2816x2048, .f32⟩
  | 19 => ⟨S2048x2816, .f32⟩
  | 20 => ⟨S2048x2816, .f32⟩
  | 21 => ⟨S2048x1408, .f32⟩
  | 22 => ⟨S2048x1408, .f32⟩
  | 23 => ⟨S2048x1408, .f32⟩
  | 24 => ⟨S2048x1408, .f32⟩
  | 25 => ⟨S_, .f32⟩
  | 26 => ⟨S2048x1408, .f32⟩
  | 27 => ⟨S2048x1408, .f32⟩
  | 28 => ⟨S_, .f32⟩
  | 29 => ⟨S2048x1408, .f32⟩
  | 30 => ⟨S2048x1408, .f32⟩
  | 31 => ⟨S2048x1408, .f32⟩
  | 32 => ⟨S2048x1408, .f32⟩
  | 33 => ⟨S1x2048x1408, .f32⟩
  | 34 => ⟨S2048x1408, .f32⟩
  | 35 => ⟨S1408x2048, .f32⟩
  | 36 => ⟨S2048x2048, .f32⟩
  | 37 => ⟨S2048x1, .f32⟩
  | 38 => ⟨S2048x2048, .f32⟩
  | 39 => ⟨S2048x2048, .f32⟩
  | 40 => ⟨S2048x2048, .f32⟩
  | 41 => ⟨S_, .i32⟩
  | 42 => ⟨S2048x2, .i32⟩
  | 43 => ⟨S2048x2, .i1⟩
  | 44 => ⟨S2048x2, .f32⟩
  | 45 => ⟨S2048x2, .f32⟩
  | 46 => ⟨S_, .f32⟩
  | 47 => ⟨S2048, .f32⟩
  | 48 => ⟨S1x2816x2048, .f32⟩
  | 49 => ⟨S2816x2048, .f32⟩
  | 50 => ⟨S2048x2816, .f32⟩
  | 51 => ⟨S2048x2816, .f32⟩
  | 52 => ⟨S2048x1408, .f32⟩
  | 53 => ⟨S2048x1408, .f32⟩
  | 54 => ⟨S2048x1408, .f32⟩
  | 55 => ⟨S2048x1408, .f32⟩
  | 56 => ⟨S_, .f32⟩
  | 57 => ⟨S2048x1408, .f32⟩
  | 58 => ⟨S2048x1408, .f32⟩
  | 59 => ⟨S_, .f32⟩
  | 60 => ⟨S2048x1408, .f32⟩
  | 61 => ⟨S2048x1408, .f32⟩
  | 62 => ⟨S2048x1408, .f32⟩
  | 63 => ⟨S2048x1408, .f32⟩
  | 64 => ⟨S1x2048x1408, .f32⟩
  | 65 => ⟨S2048x1408, .f32⟩
  | 66 => ⟨S1408x2048, .f32⟩
  | 67 => ⟨S2048x2048, .f32⟩
  | 68 => ⟨S2048x1, .f32⟩
  | 69 => ⟨S2048x2048, .f32⟩
  | 70 => ⟨S2048x2048, .f32⟩
  | 71 => ⟨S2048x2048, .f32⟩
  | 72 => ⟨S_, .i32⟩
  | 73 => ⟨S2048x2, .i32⟩
  | 74 => ⟨S2048x2, .i1⟩
  | 75 => ⟨S2048x2, .f32⟩
  | 76 => ⟨S2048x2, .f32⟩
  | 77 => ⟨S_, .f32⟩
  | 78 => ⟨S2048, .f32⟩
  | 79 => ⟨S1x2816x2048, .f32⟩
  | 80 => ⟨S2816x2048, .f32⟩
  | 81 => ⟨S2048x2816, .f32⟩
  | 82 => ⟨S2048x2816, .f32⟩
  | 83 => ⟨S2048x1408, .f32⟩
  | 84 => ⟨S2048x1408, .f32⟩
  | 85 => ⟨S2048x1408, .f32⟩
  | 86 => ⟨S2048x1408, .f32⟩
  | 87 => ⟨S_, .f32⟩
  | 88 => ⟨S2048x1408, .f32⟩
  | 89 => ⟨S2048x1408, .f32⟩
  | 90 => ⟨S_, .f32⟩
  | 91 => ⟨S2048x1408, .f32⟩
  | 92 => ⟨S2048x1408, .f32⟩
  | 93 => ⟨S2048x1408, .f32⟩
  | 94 => ⟨S2048x1408, .f32⟩
  | 95 => ⟨S1x2048x1408, .f32⟩
  | 96 => ⟨S2048x1408, .f32⟩
  | 97 => ⟨S1408x2048, .f32⟩
  | 98 => ⟨S2048x2048, .f32⟩
  | 99 => ⟨S2048x1, .f32⟩
  | 100 => ⟨S2048x2048, .f32⟩
  | 101 => ⟨S2048x2048, .f32⟩
  | 102 => ⟨S2048x2048, .f32⟩
  | 103 => ⟨S_, .i32⟩
  | 104 => ⟨S2048x2, .i32⟩
  | 105 => ⟨S2048x2, .i1⟩
  | 106 => ⟨S2048x2, .f32⟩
  | 107 => ⟨S2048x2, .f32⟩
  | 108 => ⟨S_, .f32⟩
  | 109 => ⟨S2048, .f32⟩
  | 110 => ⟨S1x2816x2048, .f32⟩
  | 111 => ⟨S2816x2048, .f32⟩
  | 112 => ⟨S2048x2816, .f32⟩
  | 113 => ⟨S2048x2816, .f32⟩
  | 114 => ⟨S2048x1408, .f32⟩
  | 115 => ⟨S2048x1408, .f32⟩
  | 116 => ⟨S2048x1408, .f32⟩
  | 117 => ⟨S2048x1408, .f32⟩
  | 118 => ⟨S_, .f32⟩
  | 119 => ⟨S2048x1408, .f32⟩
  | 120 => ⟨S2048x1408, .f32⟩
  | 121 => ⟨S_, .f32⟩
  | 122 => ⟨S2048x1408, .f32⟩
  | 123 => ⟨S2048x1408, .f32⟩
  | 124 => ⟨S2048x1408, .f32⟩
  | 125 => ⟨S2048x1408, .f32⟩
  | 126 => ⟨S1x2048x1408, .f32⟩
  | 127 => ⟨S2048x1408, .f32⟩
  | _ => ⟨S1x2048x2048, .f32⟩

abbrev hbmTy0_1 (i : Nat) : BufTy := match i % 128 with
  | 0 => ⟨S1408x2048, .f32⟩
  | 1 => ⟨S2048x2048, .f32⟩
  | 2 => ⟨S2048x1, .f32⟩
  | 3 => ⟨S2048x2048, .f32⟩
  | 4 => ⟨S2048x2048, .f32⟩
  | 5 => ⟨S2048x2048, .f32⟩
  | 6 => ⟨S_, .i32⟩
  | 7 => ⟨S2048x2, .i32⟩
  | 8 => ⟨S2048x2, .i1⟩
  | 9 => ⟨S2048x2, .f32⟩
  | 10 => ⟨S2048x2, .f32⟩
  | 11 => ⟨S_, .f32⟩
  | 12 => ⟨S2048, .f32⟩
  | 13 => ⟨S1x2816x2048, .f32⟩
  | 14 => ⟨S2816x2048, .f32⟩
  | 15 => ⟨S2048x2816, .f32⟩
  | 16 => ⟨S2048x2816, .f32⟩
  | 17 => ⟨S2048x1408, .f32⟩
  | 18 => ⟨S2048x1408, .f32⟩
  | 19 => ⟨S2048x1408, .f32⟩
  | 20 => ⟨S2048x1408, .f32⟩
  | 21 => ⟨S_, .f32⟩
  | 22 => ⟨S2048x1408, .f32⟩
  | 23 => ⟨S2048x1408, .f32⟩
  | 24 => ⟨S_, .f32⟩
  | 25 => ⟨S2048x1408, .f32⟩
  | 26 => ⟨S2048x1408, .f32⟩
  | 27 => ⟨S2048x1408, .f32⟩
  | 28 => ⟨S2048x1408, .f32⟩
  | 29 => ⟨S1x2048x1408, .f32⟩
  | 30 => ⟨S2048x1408, .f32⟩
  | 31 => ⟨S1408x2048, .f32⟩
  | 32 => ⟨S2048x2048, .f32⟩
  | 33 => ⟨S2048x1, .f32⟩
  | 34 => ⟨S2048x2048, .f32⟩
  | 35 => ⟨S2048x2048, .f32⟩
  | 36 => ⟨S2048x2048, .f32⟩
  | 37 => ⟨S_, .i32⟩
  | 38 => ⟨S2048x2, .i32⟩
  | 39 => ⟨S2048x2, .i1⟩
  | 40 => ⟨S2048x2, .f32⟩
  | 41 => ⟨S2048x2, .f32⟩
  | 42 => ⟨S_, .f32⟩
  | 43 => ⟨S2048, .f32⟩
  | 44 => ⟨S1x2816x2048, .f32⟩
  | 45 => ⟨S2816x2048, .f32⟩
  | 46 => ⟨S2048x2816, .f32⟩
  | 47 => ⟨S2048x2816, .f32⟩
  | 48 => ⟨S2048x1408, .f32⟩
  | 49 => ⟨S2048x1408, .f32⟩
  | 50 => ⟨S2048x1408, .f32⟩
  | 51 => ⟨S2048x1408, .f32⟩
  | 52 => ⟨S_, .f32⟩
  | 53 => ⟨S2048x1408, .f32⟩
  | 54 => ⟨S2048x1408, .f32⟩
  | 55 => ⟨S_, .f32⟩
  | 56 => ⟨S2048x1408, .f32⟩
  | 57 => ⟨S2048x1408, .f32⟩
  | 58 => ⟨S2048x1408, .f32⟩
  | 59 => ⟨S2048x1408, .f32⟩
  | 60 => ⟨S1x2048x1408, .f32⟩
  | 61 => ⟨S2048x1408, .f32⟩
  | 62 => ⟨S1408x2048, .f32⟩
  | 63 => ⟨S2048x2048, .f32⟩
  | 64 => ⟨S2048x1, .f32⟩
  | 65 => ⟨S2048x2048, .f32⟩
  | 66 => ⟨S2048x2048, .f32⟩
  | 67 => ⟨S2048x2048, .f32⟩
  | 68 => ⟨S_, .i32⟩
  | 69 => ⟨S2048x2, .i32⟩
  | 70 => ⟨S2048x2, .i1⟩
  | 71 => ⟨S2048x2, .f32⟩
  | 72 => ⟨S2048x2, .f32⟩
  | 73 => ⟨S_, .f32⟩
  | 74 => ⟨S2048, .f32⟩
  | 75 => ⟨S1x2816x2048, .f32⟩
  | 76 => ⟨S2816x2048, .f32⟩
  | 77 => ⟨S2048x2816, .f32⟩
  | 78 => ⟨S2048x2816, .f32⟩
  | 79 => ⟨S2048x1408, .f32⟩
  | 80 => ⟨S2048x1408, .f32⟩
  | 81 => ⟨S2048x1408, .f32⟩
  | 82 => ⟨S2048x1408, .f32⟩
  | 83 => ⟨S_, .f32⟩
  | 84 => ⟨S2048x1408, .f32⟩
  | 85 => ⟨S2048x1408, .f32⟩
  | 86 => ⟨S_, .f32⟩
  | 87 => ⟨S2048x1408, .f32⟩
  | 88 => ⟨S2048x1408, .f32⟩
  | 89 => ⟨S2048x1408, .f32⟩
  | 90 => ⟨S2048x1408, .f32⟩
  | 91 => ⟨S1x2048x1408, .f32⟩
  | 92 => ⟨S2048x1408, .f32⟩
  | 93 => ⟨S1408x2048, .f32⟩
  | 94 => ⟨S2048x2048, .f32⟩
  | 95 => ⟨S2048x1, .f32⟩
  | 96 => ⟨S2048x2048, .f32⟩
  | 97 => ⟨S2048x2048, .f32⟩
  | 98 => ⟨S2048x2048, .f32⟩
  | 99 => ⟨S_, .i32⟩
  | 100 => ⟨S2048x2, .i32⟩
  | 101 => ⟨S2048x2, .i1⟩
  | 102 => ⟨S2048x2, .f32⟩
  | 103 => ⟨S2048x2, .f32⟩
  | 104 => ⟨S_, .f32⟩
  | 105 => ⟨S2048, .f32⟩
  | 106 => ⟨S1x2816x2048, .f32⟩
  | 107 => ⟨S2816x2048, .f32⟩
  | 108 => ⟨S2048x2816, .f32⟩
  | 109 => ⟨S2048x2816, .f32⟩
  | 110 => ⟨S2048x1408, .f32⟩
  | 111 => ⟨S2048x1408, .f32⟩
  | 112 => ⟨S2048x1408, .f32⟩
  | 113 => ⟨S2048x1408, .f32⟩
  | 114 => ⟨S_, .f32⟩
  | 115 => ⟨S2048x1408, .f32⟩
  | 116 => ⟨S2048x1408, .f32⟩
  | 117 => ⟨S_, .f32⟩
  | 118 => ⟨S2048x1408, .f32⟩
  | 119 => ⟨S2048x1408, .f32⟩
  | 120 => ⟨S2048x1408, .f32⟩
  | 121 => ⟨S2048x1408, .f32⟩
  | 122 => ⟨S1x2048x1408, .f32⟩
  | 123 => ⟨S2048x1408, .f32⟩
  | 124 => ⟨S1408x2048, .f32⟩
  | 125 => ⟨S2048x2048, .f32⟩
  | 126 => ⟨S2048x1, .f32⟩
  | 127 => ⟨S2048x2048, .f32⟩
  | _ => ⟨S1x2048x2048, .f32⟩

abbrev hbmTy0_2 (i : Nat) : BufTy := match i % 128 with
  | 0 => ⟨S2048x2048, .f32⟩
  | 1 => ⟨S2048x2048, .f32⟩
  | 2 => ⟨S1x2048x2048, .f32⟩
  | _ => ⟨S1x2048x2048, .f32⟩

abbrev hbmTy (i : Nat) : BufTy := match i / 128 with
  | 0 => hbmTy0_0 i
  | 1 => hbmTy0_1 i
  | 2 => hbmTy0_2 i
  | _ => ⟨S1x2048x2048, .f32⟩

abbrev bufTy : (tb : Table) → Fin (tcTables nBuf tb) → BufTy
  | .hbm, ⟨i, _⟩ => hbmTy i
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_call1_v5 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_3 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_4 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_call2_v0 : Ref sig .tc := ⟨.hbm, 85, rfl⟩
abbrev main_call2_v1 : Ref sig .tc := ⟨.hbm, 86, rfl⟩
abbrev main_call2_cst : Ref sig .tc := ⟨.hbm, 87, rfl⟩
abbrev main_call2_v2 : Ref sig .tc := ⟨.hbm, 88, rfl⟩
abbrev main_call2_v3 : Ref sig .tc := ⟨.hbm, 89, rfl⟩
abbrev main_call2_cst_0 : Ref sig .tc := ⟨.hbm, 90, rfl⟩
abbrev main_call2_v4 : Ref sig .tc := ⟨.hbm, 91, rfl⟩
abbrev main_call2_v5 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_5 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_6 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_call3_v0 : Ref sig .tc := ⟨.hbm, 116, rfl⟩
abbrev main_call3_v1 : Ref sig .tc := ⟨.hbm, 117, rfl⟩
abbrev main_call3_cst : Ref sig .tc := ⟨.hbm, 118, rfl⟩
abbrev main_call3_v2 : Ref sig .tc := ⟨.hbm, 119, rfl⟩
abbrev main_call3_v3 : Ref sig .tc := ⟨.hbm, 120, rfl⟩
abbrev main_call3_cst_0 : Ref sig .tc := ⟨.hbm, 121, rfl⟩
abbrev main_call3_v4 : Ref sig .tc := ⟨.hbm, 122, rfl⟩
abbrev main_call3_v5 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_c_7 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_cst_8 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_call4_v0 : Ref sig .tc := ⟨.hbm, 147, rfl⟩
abbrev main_call4_v1 : Ref sig .tc := ⟨.hbm, 148, rfl⟩
abbrev main_call4_cst : Ref sig .tc := ⟨.hbm, 149, rfl⟩
abbrev main_call4_v2 : Ref sig .tc := ⟨.hbm, 150, rfl⟩
abbrev main_call4_v3 : Ref sig .tc := ⟨.hbm, 151, rfl⟩
abbrev main_call4_cst_0 : Ref sig .tc := ⟨.hbm, 152, rfl⟩
abbrev main_call4_v4 : Ref sig .tc := ⟨.hbm, 153, rfl⟩
abbrev main_call4_v5 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_c_9 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_cst_10 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_call5_v0 : Ref sig .tc := ⟨.hbm, 178, rfl⟩
abbrev main_call5_v1 : Ref sig .tc := ⟨.hbm, 179, rfl⟩
abbrev main_call5_cst : Ref sig .tc := ⟨.hbm, 180, rfl⟩
abbrev main_call5_v2 : Ref sig .tc := ⟨.hbm, 181, rfl⟩
abbrev main_call5_v3 : Ref sig .tc := ⟨.hbm, 182, rfl⟩
abbrev main_call5_cst_0 : Ref sig .tc := ⟨.hbm, 183, rfl⟩
abbrev main_call5_v4 : Ref sig .tc := ⟨.hbm, 184, rfl⟩
abbrev main_call5_v5 : Ref sig .tc := ⟨.hbm, 185, rfl⟩
abbrev main_v120 : Ref sig .tc := ⟨.hbm, 186, rfl⟩
abbrev main_v121 : Ref sig .tc := ⟨.hbm, 187, rfl⟩
abbrev main_v122 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_v129 : Ref sig .tc := ⟨.hbm, 195, rfl⟩
abbrev main_c_11 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_cst_12 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_call6_v0 : Ref sig .tc := ⟨.hbm, 209, rfl⟩
abbrev main_call6_v1 : Ref sig .tc := ⟨.hbm, 210, rfl⟩
abbrev main_call6_cst : Ref sig .tc := ⟨.hbm, 211, rfl⟩
abbrev main_call6_v2 : Ref sig .tc := ⟨.hbm, 212, rfl⟩
abbrev main_call6_v3 : Ref sig .tc := ⟨.hbm, 213, rfl⟩
abbrev main_call6_cst_0 : Ref sig .tc := ⟨.hbm, 214, rfl⟩
abbrev main_call6_v4 : Ref sig .tc := ⟨.hbm, 215, rfl⟩
abbrev main_call6_v5 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_c_13 : Ref sig .tc := ⟨.hbm, 227, rfl⟩
abbrev main_v151 : Ref sig .tc := ⟨.hbm, 228, rfl⟩
abbrev main_v152 : Ref sig .tc := ⟨.hbm, 229, rfl⟩
abbrev main_v153 : Ref sig .tc := ⟨.hbm, 230, rfl⟩
abbrev main_v154 : Ref sig .tc := ⟨.hbm, 231, rfl⟩
abbrev main_cst_14 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_v159 : Ref sig .tc := ⟨.hbm, 237, rfl⟩
abbrev main_v160 : Ref sig .tc := ⟨.hbm, 238, rfl⟩
abbrev main_v161 : Ref sig .tc := ⟨.hbm, 239, rfl⟩
abbrev main_call7_v0 : Ref sig .tc := ⟨.hbm, 240, rfl⟩
abbrev main_call7_v1 : Ref sig .tc := ⟨.hbm, 241, rfl⟩
abbrev main_call7_cst : Ref sig .tc := ⟨.hbm, 242, rfl⟩
abbrev main_call7_v2 : Ref sig .tc := ⟨.hbm, 243, rfl⟩
abbrev main_call7_v3 : Ref sig .tc := ⟨.hbm, 244, rfl⟩
abbrev main_call7_cst_0 : Ref sig .tc := ⟨.hbm, 245, rfl⟩
abbrev main_call7_v4 : Ref sig .tc := ⟨.hbm, 246, rfl⟩
abbrev main_call7_v5 : Ref sig .tc := ⟨.hbm, 247, rfl⟩
abbrev main_v162 : Ref sig .tc := ⟨.hbm, 248, rfl⟩
abbrev main_v163 : Ref sig .tc := ⟨.hbm, 249, rfl⟩
abbrev main_v164 : Ref sig .tc := ⟨.hbm, 250, rfl⟩
abbrev main_v165 : Ref sig .tc := ⟨.hbm, 251, rfl⟩
abbrev main_v166 : Ref sig .tc := ⟨.hbm, 252, rfl⟩
abbrev main_v167 : Ref sig .tc := ⟨.hbm, 253, rfl⟩
abbrev main_v168 : Ref sig .tc := ⟨.hbm, 254, rfl⟩
abbrev main_v169 : Ref sig .tc := ⟨.hbm, 255, rfl⟩
abbrev main_v170 : Ref sig .tc := ⟨.hbm, 256, rfl⟩
abbrev main_v171 : Ref sig .tc := ⟨.hbm, 257, rfl⟩
abbrev main_v172 : Ref sig .tc := ⟨.hbm, 258, rfl⟩

abbrev nD : Nat := 1
abbrev τ : Topo := Topo.v7x

variable {F : FTy → Type} [FloatOps F]

class Facts₀ : Prop where
  shapeCasts_S1x2048x2048_S2048x2048 : S1x2048x2048.ShapeCasts S2048x2048
  shapeCasts_S1x2048x2_S2048x2 : S1x2048x2.ShapeCasts S2048x2
  bcast_S_S2048x2048 : S_.BroadcastsInDim S2048x2048 (![] : Fin 0 → Fin S2048x2048.rank)
  bcast_S_S2048x2 : S_.BroadcastsInDim S2048x2 (![] : Fin 0 → Fin S2048x2.rank)
  reducesTo_S2048x2_S2048_d1 : S2048x2.ReducesTo [1] S2048
  h_S_ : 0 < S_.numel
  slices_S8x2816x2048_S1x2816x2048_0_0_0 : S8x2816x2048.Slices ![0, 0, 0] S1x2816x2048
  shapeCasts_S1x2816x2048_S2816x2048 : S1x2816x2048.ShapeCasts S2816x2048
  transposes_S2816x2048_S2048x2816_1_0 : S2816x2048.Transposes [1, 0] S2048x2816
  slices_S2048x2816_S2048x1408_0_0 : S2048x2816.Slices ![0, 0] S2048x1408
  slices_S2048x2816_S2048x1408_0_1408 : S2048x2816.Slices ![0, 1408] S2048x1408
  bcast_S_S2048x1408 : S_.BroadcastsInDim S2048x1408 (![] : Fin 0 → Fin S2048x1408.rank)
  slices_S8x2048x1408_S1x2048x1408_0_0_0 : S8x2048x1408.Slices ![0, 0, 0] S1x2048x1408
  shapeCasts_S1x2048x1408_S2048x1408 : S1x2048x1408.ShapeCasts S2048x1408
  transposes_S2048x1408_S1408x2048_1_0 : S2048x1408.Transposes [1, 0] S1408x2048
  bcast_S2048_S2048x1_0 : S2048.BroadcastsInDim S2048x1 (![0] : Fin 1 → Fin S2048x1.rank)
  bcast_S2048x1_S2048x2048_0_1 : S2048x1.BroadcastsInDim S2048x2048 (![0, 1] : Fin 2 → Fin S2048x2048.rank)
  slices_S8x2816x2048_S1x2816x2048_1_0_0 : S8x2816x2048.Slices ![1, 0, 0] S1x2816x2048
  slices_S8x2048x1408_S1x2048x1408_1_0_0 : S8x2048x1408.Slices ![1, 0, 0] S1x2048x1408
  slices_S8x2816x2048_S1x2816x2048_2_0_0 : S8x2816x2048.Slices ![2, 0, 0] S1x2816x2048
  slices_S8x2048x1408_S1x2048x1408_2_0_0 : S8x2048x1408.Slices ![2, 0, 0] S1x2048x1408
  slices_S8x2816x2048_S1x2816x2048_3_0_0 : S8x2816x2048.Slices ![3, 0, 0] S1x2816x2048
  slices_S8x2048x1408_S1x2048x1408_3_0_0 : S8x2048x1408.Slices ![3, 0, 0] S1x2048x1408
  slices_S8x2816x2048_S1x2816x2048_4_0_0 : S8x2816x2048.Slices ![4, 0, 0] S1x2816x2048
  slices_S8x2048x1408_S1x2048x1408_4_0_0 : S8x2048x1408.Slices ![4, 0, 0] S1x2048x1408
  slices_S8x2816x2048_S1x2816x2048_5_0_0 : S8x2816x2048.Slices ![5, 0, 0] S1x2816x2048
  slices_S8x2048x1408_S1x2048x1408_5_0_0 : S8x2048x1408.Slices ![5, 0, 0] S1x2048x1408
  slices_S8x2816x2048_S1x2816x2048_6_0_0 : S8x2816x2048.Slices ![6, 0, 0] S1x2816x2048
  slices_S8x2048x1408_S1x2048x1408_6_0_0 : S8x2048x1408.Slices ![6, 0, 0] S1x2048x1408
  slices_S8x2816x2048_S1x2816x2048_7_0_0 : S8x2816x2048.Slices ![7, 0, 0] S1x2816x2048
  slices_S8x2048x1408_S1x2048x1408_7_0_0 : S8x2048x1408.Slices ![7, 0, 0] S1x2048x1408
  shapeCasts_S2048x2048_S1x2048x2048 : S2048x2048.ShapeCasts S1x2048x2048
  dot_S2048x2048_S2048x2816_S2048x2816_1_0_0_1_n_n_wf : DotDims.WF S2048x2048 S2048x2816 S2048x2816 [1] [0] [0] [1] [] []
  dot_S2048x1408_S1408x2048_S2048x2048_1_0_0_1_n_n_wf : DotDims.WF S2048x1408 S1408x2048 S2048x2048 [1] [0] [0] [1] [] []

variable [Facts₀]

def dot_S2048x2048_S2048x2816_S2048x2816_1_0_0_1_n_n : DotDims S2048x2048 S2048x2816 S2048x2816 where
  lhsContracting := [1]
  rhsContracting := [0]
  lhsNonContracting := [0]
  rhsNonContracting := [1]
  lhsBatch := []
  rhsBatch := []
  wf := dot_S2048x2048_S2048x2816_S2048x2816_1_0_0_1_n_n_wf
def dot_S2048x1408_S1408x2048_S2048x2048_1_0_0_1_n_n : DotDims S2048x1408 S1408x2048 S2048x2048 where
  lhsContracting := [1]
  rhsContracting := [0]
  lhsNonContracting := [0]
  rhsNonContracting := [1]
  lhsBatch := []
  rhsBatch := []
  wf := dot_S2048x1408_S1408x2048_S2048x2048_1_0_0_1_n_n_wf

class Facts : Prop extends Facts₀ where

variable [Facts]
-- ==== Proof.MoeSpec.lean ====
/-
  A mixture-of-experts feed-forward layer with eight SwiGLU experts, as one function of its argument arrays on the
  extended reals.

  For a token with feature row x, expert e first projects x onto the 2816 rows of its gate/up matrix; rows i and
  1408 + i of the projection are the gate and the up value of hidden unit i, which are combined as
  (g * logistic g) * u; the 1408 hidden units are then projected onto the output feature by a row of the expert's
  down matrix. The token's routing weight for expert e is the sum, over its two routing slots, of the slot's weight where
  the slot names expert e. The layer's output is the sum over the experts, taken in the order 0, 1, ..., 7 from zero, of
  routing weight times expert output.
-/
import Idealize.ShloMosaic.PureOps.Ideal
import Idealize.ShloMosaic.Lib.ValueIdx

noncomputable section

namespace Cert.Moe

open Idealize.ShloMosaic Idealize.ShloMosaic.ValueIdx

/-- One hidden unit: the gate value through x * logistic x, times the up value. -/
def act (g u : EReal) : EReal := (g * Ideal.logistic g) * u

/-- Row j of the gate/up matrix against the token's features. -/
def proj (x : Fin 2048 → EReal) (gu : Fin 2816 → Fin 2048 → EReal) (j : Fin 2816) : EReal :=
  ∑ k : Fin 2048, x k * gu j k

/-- Hidden unit i's gate row and up row in the stacked gate/up matrix. -/
def gateRow (i : Fin 1408) : Fin 2816 := ⟨i.val, by have := i.isLt; omega⟩
def upRow (i : Fin 1408) : Fin 2816 := ⟨1408 + i.val, by have := i.isLt; omega⟩

/-- One expert's output at one output feature: the hidden units against that feature's row dn of the down matrix. -/
def expert (x : Fin 2048 → EReal) (gu : Fin 2816 → Fin 2048 → EReal) (dn : Fin 1408 → EReal) : EReal :=
  ∑ i : Fin 1408, act (proj x gu (gateRow i)) (proj x gu (upRow i)) * dn i

/-- 1 where the routing slot b names the expert c, 0 elsewhere. -/
def hot (b c : BitVec 32) : EReal := (((IntOp.cmpi .eq b c).toNat : ℝ) : EReal)

/-- The token's routing weight for the expert c: its two slots' weights where they name c, summed from zero. -/
def route (w : Fin 2 → EReal) (idx : Fin 2 → BitVec 32) (c : BitVec 32) : EReal :=
  0 + ∑ k : Fin 2, w k * hot (idx k) c

/-- The first n experts' weighted outputs, summed in order from zero. -/
def mix (x : Fin 2048 → EReal) (w : Fin 2 → EReal) (idx : Fin 2 → BitVec 32)
    (gu : Fin 8 → Fin 2816 → Fin 2048 → EReal) (dn : Fin 8 → Fin 1408 → EReal) : (n : ℕ) → n ≤ 8 → EReal
  | 0, _ => 0
  | n + 1, h => mix x w idx gu dn n (Nat.le_of_succ_le h)
      + route w idx (BitVec.ofNat 32 n) * expert x (gu ⟨n, h⟩) (dn ⟨n, h⟩)

/-- The layer: entry (0, t, f) of the result from token t's features, routing slots and weights, and every expert's
    matrices. -/
def layer (X : (⟨3, ![1, 2048, 2048]⟩ : Shape).Idx → EReal) (I : (⟨3, ![1, 2048, 2]⟩ : Shape).Idx → BitVec 32)
    (W : (⟨3, ![1, 2048, 2]⟩ : Shape).Idx → EReal) (GU : (⟨3, ![8, 2816, 2048]⟩ : Shape).Idx → EReal)
    (DN : (⟨3, ![8, 2048, 1408]⟩ : Shape).Idx → EReal) : (⟨3, ![1, 2048, 2048]⟩ : Shape).Idx → EReal :=
  fun j => mix (fun k => X (ix3 (0 : Fin 1) (j 1) k)) (fun k => W (ix3 (0 : Fin 1) (j 1) k))
    (fun k => I (ix3 (0 : Fin 1) (j 1) k)) (fun e r k => GU (ix3 e r k)) (fun e i => DN (ix3 e (j 2) i)) 8 le_rfl

end Cert.Moe

end
-- ==== Proof.LibAxisReductions.lean ====
/-
  Reductions along one axis and a column spread across lanes, read at an index given by coordinates, on the extended reals.

  A sum or a maximum along one axis of a matrix, at a kept coordinate, is the sum or the running maximum of the matrix's
  entries along that axis; a column [a, 1] spread to [a, b] reads, at (i, j), the column's entry i; and the host's
  reduction by a maximum along the last axis of a rank-3 array, at (p, q), is the running maximum, from the initial
  value, of the entries (p, q, k).
-/
import Idealize.ShloMosaic.Lib.ValueIdx
import Idealize.ShloMosaic.Lib.Pipeline.Value
import Idealize.ShloMosaic.PureOps.Ideal.Laws

namespace Cert.Lib.AxisReductions

open Idealize.ShloMosaic Idealize.ShloMosaic.ValueIdx

/-! ## The reduced index with the dropped coordinate put back -/

/-- Over column t of a matrix, putting row k back gives the index (k, t). -/
theorem lift_rows {m n : ℕ} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- Over row i of a matrix, putting column k back gives the index (i, k). -/
theorem lift_cols {m n : ℕ} (h : (⟨2, ![m, n]⟩ : Shape).Reduces [1] (⟨1, ![m]⟩ : Shape)) (i : Fin m)
    (k : Fin ((⟨2, ![m, n]⟩ : Shape).size 1)) : h.lift (ix1 i) k = ix2 i (⟨k.val, k.isLt⟩ : Fin n) := by
  funext c; apply Fin.ext
  fin_cases c <;> rfl

/-- Over the pair (p, q) of a rank-3 array reduced along its last axis, putting k back gives (p, q, k). -/
theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums and maxima along one axis of a matrix -/

/-- The sum down the rows of a matrix, at column t: the sum over the rows k of the entry (k, t). -/
theorem sum_rows_apply {m n : ℕ} (src : FVec Ideal ⟨2, ![m, n]⟩ .f32) (acc : BitVec 32)
    (h : (⟨2, ![m, n]⟩ : Shape).Reduces [0] (⟨1, ![n]⟩ : Shape)) (hφ : FKind.Formats .f32)
    (hacc : acc = FKind.add.neutral .f32 hφ) (t : Fin n) :
    multiReduction .add [0] ⟨1, ![n]⟩ src acc h hφ hacc (ix1 t) = ∑ k : Fin m, src (ix2 k t) := by
  refine (Ideal.multiReduction_add_single src acc h hφ hacc (ix1 t)).trans ?_
  exact Finset.sum_congr rfl fun k _ => congrArg src (lift_rows h t k)

/-- The sum along the columns of a matrix, at row i: the sum over the columns k of the entry (i, k). -/
theorem sum_cols_apply {m n : ℕ} (src : FVec Ideal ⟨2, ![m, n]⟩ .f32) (acc : BitVec 32)
    (h : (⟨2, ![m, n]⟩ : Shape).Reduces [1] (⟨1, ![m]⟩ : Shape)) (hφ : FKind.Formats .f32)
    (hacc : acc = FKind.add.neutral .f32 hφ) (i : Fin m) :
    multiReduction .add [1] ⟨1, ![m]⟩ src acc h hφ hacc (ix1 i) = ∑ k : Fin n, src (ix2 i k) := by
  refine (Ideal.multiReduction_add_single src acc h hφ hacc (ix1 i)).trans ?_
  exact Finset.sum_congr rfl fun k _ => congrArg src (lift_cols h i k)

/-- The maximum down the rows of a matrix, at column t: the running maximum, from the accumulator's value, of the
    entries (k, t). -/
theorem max_rows_apply {m n : ℕ} (src : FVec Ideal ⟨2, ![m, n]⟩ .f32) (acc : BitVec 32)
    (h : (⟨2, ![m, n]⟩ : Shape).Reduces [0] (⟨1, ![n]⟩ : Shape)) (hφ : FKind.Formats .f32)
    (hacc : acc = FKind.maximumf.neutral .f32 hφ) (t : Fin n) :
    multiReduction .maximumf [0] ⟨1, ![n]⟩ src acc h hφ hacc (ix1 t)
      = (Finset.univ : Finset (Fin m)).fold max (Ideal.ofBits .f32 acc) (fun k => src (ix2 k t)) := by
  refine (Ideal.multiReduction_maximumf_single src acc h hφ hacc (ix1 t)).trans ?_
  exact congrArg (fun f => Finset.fold max (Ideal.ofBits .f32 acc) f (Finset.univ : Finset (Fin m)))
    (funext fun k => congrArg src (lift_rows h t k))

/-! ## A column spread across lanes -/

/-- A column [a, 1] broadcast to [a, b] reads, at (i, j), the column's entry i. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The host's maximum along the last axis of a rank-3 array -/

/-- The host's reduction by a maximum along the last axis of an [a, b, c] array, at (p, q): the running maximum, from the
    initial value, of the entries (p, q, k). -/
theorem hostMax_last3_apply {a b c : ℕ} {u : Shape} (x : FVec Ideal ⟨3, ![a, b, c]⟩ .f32) (init : u.Idx → Ideal .f32)
    (h' : (⟨3, ![a, b, c]⟩ : Shape).ReducesTo [2] (⟨2, ![a, b]⟩ : Shape))
    (h : (⟨3, ![a, b, c]⟩ : Shape).Reduces [2] (⟨2, ![a, b]⟩ : Shape)) (hu : 0 < u.numel) (p : Fin a) (q : Fin b) :
    Host.reduce FloatOps.maximumf x init h' hu (ix2 p q)
      = (Finset.univ : Finset (Fin c)).fold max (init (Shape.Idx.first hu)) (fun k => x (ix3 p q k)) := by
  refine (Host.reduce_eq_fold_single FloatOps.maximumf x init h' h hu (ix2 p q)).trans ?_
  exact congrArg (fun f => Finset.fold max (init (Shape.Idx.first hu)) f (Finset.univ : Finset (Fin c)))
    (funext fun k => congrArg x (lift_last3 h p q k))

/-- Minus infinity, as the binary32 word of it, is neutral for the maximum of extended reals. -/
theorem max_negInf (y : EReal) : max (Ideal.ofBits .f32 0xFF800000#32) y = y := by
  simp [Ideal.ofBits, Ideal.ieee]

end Cert.Lib.AxisReductions
-- ==== Proof.LibColumnCast.lean ====
/-
  A vector of length a cast to a column of shape [a, 1] (what a sum over the last axis that keeps that axis produces),
  read at an index given by coordinates.
-/
import Idealize.ShloMosaic.Lib.ValueIdx
import Idealize.ShloMosaic.Lib.Pipeline.Value

namespace Cert.Lib.ColumnCast

open Idealize.ShloMosaic Idealize.ShloMosaic.ValueIdx

/-- A vector of length a cast to a column [a, 1] reads, at (i, u), the vector at i, whatever the unit coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

end Cert.Lib.ColumnCast
-- ==== Proof.MoeChunk.lean ====
/-
  One 128-token chunk of one expert's update, read at an entry.

  The kernel body handles a tile of 1024 tokens in eight chunks of 128. For a chunk with token rows xc, the expert's
  gate/up matrix gu (2816 rows) and down matrix dn (2048 rows of 1408), the tile's routing table rows wc (one column per
  expert) and the running output rows oc, the chunk's new output at (p, q) is

      oc (p, q) + (sum over experts e' of wc (p, e') where e' is this grid point's expert) * expert-output (p, q)

  with the expert's output the specification's: project row p of xc on every gate/up row, pair rows i and 1408 + i into the
  hidden unit i, and project the hidden units on row q of the down matrix.
-/
import proofs.«100520_j25288767439422_1_alg».proof.Proof.Gen.KernelIdeal.Skeleton
import proofs.«100520_j25288767439422_1_alg».proof.Proof.MoeSpec
import proofs.«100520_j25288767439422_1_alg».proof.Proof.LibAxisReductions
import proofs.«100520_j25288767439422_1_alg».proof.Proof.LibColumnCast
import Idealize.ShloMosaic.Lib.ValueIdx
import Idealize.ShloMosaic.Lib.Pipeline.Value
import Idealize.ShloMosaic.PureOps.Ideal.Laws

noncomputable section

namespace Cert.KernelIdeal.MoeChunk

open Idealize.ShloMosaic Idealize.ShloMosaic.ValueIdx Cert.KernelIdeal Cert.KernelIdeal.Gen

/-- 1 where the expert e' is the one the word c names, 0 elsewhere: the in-kernel mask's entry, a comparison of 32-bit
    words widened to 32 bits and read as a signed integer. -/
def pick (e' : Fin 8) (c : BitVec 32) : EReal :=
  ((((IntOp.cmpi .eq (BitVec.ofNat 32 e'.val) c).setWidth 32).toInt : ℝ) : EReal)

/-- The routing table's row p against the mask: the sum over the experts of the table's entry times the mask's. -/
theorem select_apply (c : BitVec 32) (wc : Vec Ideal S128x8 .f32) (p : Fin 128) :
    multiReduction (F := Ideal) .add [1] S128
        (mulf (shapeCast S128x8 wc shapeCasts_S128x8_S128x8)
          (sitofp .f32 (extui 32 (cmpi .eq (iota .tc S128x8 32 [1] iota_S128x8_d1_w32) (broadcast S128x8 c)) natLt_1_32)))
        0x00000000#32 reduces_S128x8_S128 (.inl rfl) rfl (ix1 p)
      = ∑ e' : Fin 8, wc (ix2 p e') * pick e' c := by
  refine (Cert.Lib.AxisReductions.sum_cols_apply _ _ reduces_S128x8_S128 (.inl rfl) rfl p).trans ?_
  refine Finset.sum_congr rfl fun e' _ => ?_
  show shapeCast S128x8 wc shapeCasts_S128x8_S128x8 (ix2 p e')
      * FloatOps.sitofp (F := Ideal) .f32 ((IntOp.cmpi .eq (iota .tc S128x8 32 [1] iota_S128x8_d1_w32 (ix2 p e')) c).setWidth 32) = _
  rw [shapeCast_self, iota_single_apply]
  rfl

/-- A vector of 128 entries made a column and spread over 2048 lanes reads, at (p, q), its entry p. -/
theorem column_apply (v : FVec Ideal S128 .f32) (p : Fin 128) (q : Fin 2048) :
    broadcastTo S128x2048 (shapeCast S128x1 v shapeCasts_S128_S128x1) broadcasts_S128x1_S128x2048 (ix2 p q) = v (ix1 p) :=
  (Cert.Lib.AxisReductions.broadcastTo_a1_ab_apply _ broadcasts_S128x1_S128x2048 p q).trans
    (Cert.Lib.ColumnCast.shapeCast_a_a1_apply v shapeCasts_S128_S128x1 p 0)

/-! The two matrix products' operand indices: the output's row names the left operand's row, the output's column the right
    operand's row (both operands are contracted along their second axis). -/

theorem gu_lhs0 (i : S128x2816.Idx) (q : dot_S128x2048_S2816x2048_S128x2816_1_1_0_0_n_n.contr.Idx) : (dot_S128x2048_S2816x2048_S128x2816_1_1_0_0_n_n.lhsIdx i q 0).val = (i 0).val := by
  unfold DotDims.lhsIdx
  rw [dif_neg (show ¬(0 : Fin S128x2048.rank) ∈ dot_S128x2048_S2816x2048_S128x2816_1_1_0_0_n_n.lhsBatch by decide), dif_pos (show (0 : Fin S128x2048.rank) ∈ dot_S128x2048_S2816x2048_S128x2816_1_1_0_0_n_n.lhsNonContracting by decide)]
  rfl
theorem gu_rhs0 (i : S128x2816.Idx) (q : dot_S128x2048_S2816x2048_S128x2816_1_1_0_0_n_n.contr.Idx) : (dot_S128x2048_S2816x2048_S128x2816_1_1_0_0_n_n.rhsIdx i q 0).val = (i 1).val := by
  unfold DotDims.rhsIdx
  rw [dif_neg (show ¬(0 : Fin S2816x2048.rank) ∈ dot_S128x2048_S2816x2048_S128x2816_1_1_0_0_n_n.rhsBatch by decide), dif_pos (show (0 : Fin S2816x2048.rank) ∈ dot_S128x2048_S2816x2048_S128x2816_1_1_0_0_n_n.rhsNonContracting by decide)]
  rfl

theorem dn_lhs0 (i : S128x2048.Idx) (q : dot_S128x1408_S2048x1408_S128x2048_1_1_0_0_n_n.contr.Idx) : (dot_S128x1408_S2048x1408_S128x2048_1_1_0_0_n_n.lhsIdx i q 0).val = (i 0).val := by
  unfold DotDims.lhsIdx
  rw [dif_neg (show ¬(0 : Fin S128x1408.rank) ∈ dot_S128x1408_S2048x1408_S128x2048_1_1_0_0_n_n.lhsBatch by decide), dif_pos (show (0 : Fin S128x1408.rank) ∈ dot_S128x1408_S2048x1408_S128x2048_1_1_0_0_n_n.lhsNonContracting by decide)]
  rfl
theorem dn_rhs0 (i : S128x2048.Idx) (q : dot_S128x1408_S2048x1408_S128x2048_1_1_0_0_n_n.contr.Idx) : (dot_S128x1408_S2048x1408_S128x2048_1_1_0_0_n_n.rhsIdx i q 0).val = (i 1).val := by
  unfold DotDims.rhsIdx
  rw [dif_neg (show ¬(0 : Fin S2048x1408.rank) ∈ dot_S128x1408_S2048x1408_S128x2048_1_1_0_0_n_n.rhsBatch by decide), dif_pos (show (0 : Fin S2048x1408.rank) ∈ dot_S128x1408_S2048x1408_S128x2048_1_1_0_0_n_n.rhsNonContracting by decide)]
  rfl

/-- The chunk's tokens against every gate/up row: entry (p, j) is the sum over the 2048 features. -/
theorem gateup_apply (xc : FVec Ideal S128x2048 .bf16) (gu : FVec Ideal S2816x2048 .bf16) (p : Fin 128) (j : Fin 2816) :
    matmul dot_S128x2048_S2816x2048_S128x2816_1_1_0_0_n_n none xc gu (constant S128x2816 .f32 0x00000000#32) (ix2 p j)
      = ∑ k : Fin 2048, xc (ix2 p k) * gu (ix2 j k) := by
  simp only [matmul]
  rw [Ideal.matmul_constant_zero_apply, ← Equiv.sum_comp (contrEquiv1 dot_S128x2048_S2816x2048_S128x2816_1_1_0_0_n_n 2048 rfl rfl).symm]
  refine Finset.sum_congr rfl fun k _ => ?_
  have hk := contrEquiv1_symm_val dot_S128x2048_S2816x2048_S128x2816_1_1_0_0_n_n 2048 rfl rfl k
  have el : dot_S128x2048_S2816x2048_S128x2816_1_1_0_0_n_n.lhsIdx (ix2 p j) ((contrEquiv1 dot_S128x2048_S2816x2048_S128x2816_1_1_0_0_n_n 2048 rfl rfl).symm k) = ix2 p k :=
    funext fun a => Fin.ext (by
      match a with
      | ⟨0, _⟩ => exact gu_lhs0 _ _
      | ⟨1, _⟩ => exact (dot_S128x2048_S2816x2048_S128x2816_1_1_0_0_n_n.lhsIdx_val_of_single rfl _ _).trans hk)
  have er : dot_S128x2048_S2816x2048_S128x2816_1_1_0_0_n_n.rhsIdx (ix2 p j) ((contrEquiv1 dot_S128x2048_S2816x2048_S128x2816_1_1_0_0_n_n 2048 rfl rfl).symm k) = ix2 j k :=
    funext fun a => Fin.ext (by
      match a with
      | ⟨0, _⟩ => exact gu_rhs0 _ _
      | ⟨1, _⟩ => exact (dot_S128x2048_S2816x2048_S128x2816_1_1_0_0_n_n.rhsIdx_val_of_single rfl _ _).trans hk)
  rw [el, er]

/-- The hidden units against every down row: entry (p, q) is the sum over the 1408 hidden units. -/
theorem down_apply (h : FVec Ideal S128x1408 .bf16) (dn : FVec Ideal S2048x1408 .bf16) (p : Fin 128) (q : Fin 2048) :
    matmul dot_S128x1408_S2048x1408_S128x2048_1_1_0_0_n_n none h dn (constant S128x2048 .f32 0x00000000#32) (ix2 p q)
      = ∑ i : Fin 1408, h (ix2 p i) * dn (ix2 q i) := by
  simp only [matmul]
  rw [Ideal.matmul_constant_zero_apply, ← Equiv.sum_comp (contrEquiv1 dot_S128x1408_S2048x1408_S128x2048_1_1_0_0_n_n 1408 rfl rfl).symm]
  refine Finset.sum_congr rfl fun k _ => ?_
  have hk := contrEquiv1_symm_val dot_S128x1408_S2048x1408_S128x2048_1_1_0_0_n_n 1408 rfl rfl k
  have el : dot_S128x1408_S2048x1408_S128x2048_1_1_0_0_n_n.lhsIdx (ix2 p q) ((contrEquiv1 dot_S128x1408_S2048x1408_S128x2048_1_1_0_0_n_n 1408 rfl rfl).symm k) = ix2 p k :=
    funext fun a => Fin.ext (by
      match a with
      | ⟨0, _⟩ => exact dn_lhs0 _ _
      | ⟨1, _⟩ => exact (dot_S128x1408_S2048x1408_S128x2048_1_1_0_0_n_n.lhsIdx_val_of_single rfl _ _).trans hk)
  have er : dot_S128x1408_S2048x1408_S128x2048_1_1_0_0_n_n.rhsIdx (ix2 p q) ((contrEquiv1 dot_S128x1408_S2048x1408_S128x2048_1_1_0_0_n_n 1408 rfl rfl).symm k) = ix2 q k :=
    funext fun a => Fin.ext (by
      match a with
      | ⟨0, _⟩ => exact dn_rhs0 _ _
      | ⟨1, _⟩ => exact (dot_S128x1408_S2048x1408_S128x2048_1_1_0_0_n_n.rhsIdx_val_of_single rfl _ _).trans hk)
  rw [el, er]

/-- Hidden unit i of token p: the projection's columns i and 1408 + i, combined. -/
theorem hidden_apply (G : FVec Ideal S128x2816 .f32) (p : Fin 128) (i : Fin 1408) :
    (truncf .bf16 (mulf (mulf (extractStridedSlice S128x1408 ![0, 0] G slices_S128x2816_o0_0_S128x1408)
        (logistic (extractStridedSlice S128x1408 ![0, 0] G slices_S128x2816_o0_0_S128x1408)))
        (extractStridedSlice S128x1408 ![0, 1408] G slices_S128x2816_o0_1408_S128x1408)) bitsLt_bf16_f32
      : FVec Ideal S128x1408 .bf16) (ix2 p i)
      = Cert.Moe.act (G (ix2 p (Cert.Moe.gateRow i))) (G (ix2 p (Cert.Moe.upRow i))) := by
  have e1 : extractStridedSlice S128x1408 ![0, 0] G slices_S128x2816_o0_0_S128x1408 (ix2 p i) = G (ix2 p (Cert.Moe.gateRow i)) :=
    extractStridedSlice_apply _ G _ _ _ fun a => by
      match a with
      | ⟨0, _⟩ => show p.val = 0 + p.val; omega
      | ⟨1, _⟩ => show i.val = 0 + i.val; omega
  have e2 : extractStridedSlice S128x1408 ![0, 1408] G slices_S128x2816_o0_1408_S128x1408 (ix2 p i) = G (ix2 p (Cert.Moe.upRow i)) :=
    extractStridedSlice_apply _ G _ _ _ fun a => by
      match a with
      | ⟨0, _⟩ => show p.val = 0 + p.val; omega
      | ⟨1, _⟩ => show 1408 + i.val = 1408 + i.val; rfl
  show (extractStridedSlice S128x1408 ![0, 0] G slices_S128x2816_o0_0_S128x1408 (ix2 p i)
      * Ideal.logistic (extractStridedSlice S128x1408 ![0, 0] G slices_S128x2816_o0_0_S128x1408 (ix2 p i)))
      * extractStridedSlice S128x1408 ![0, 1408] G slices_S128x2816_o0_1408_S128x1408 (ix2 p i) = _
  rw [e1, e2]
  rfl

/-- The chunk's update read at (p, q). -/
theorem pay_apply (c : BitVec 32) (gu : FVec Ideal S2816x2048 .bf16) (dn : FVec Ideal S2048x1408 .bf16)
    (xc : Vec Ideal S128x2048 .bf16) (wc : Vec Ideal S128x8 .f32) (oc : Vec Ideal S128x2048 .f32) (p : Fin 128) (q : Fin 2048) :
    k0_pay1 (F := Ideal) c gu dn xc wc oc (ix2 p q)
      = oc (ix2 p q) + (∑ e' : Fin 8, wc (ix2 p e') * pick e' c)
          * Cert.Moe.expert (fun k => xc (ix2 p k)) (fun r k => gu (ix2 r k)) (fun i => dn (ix2 q i)) := by
  unfold k0_pay1
  refine congrArg₂ (· + ·) (congrFun (shapeCast_self oc shapeCasts_S128x2048_S128x2048) (ix2 p q)) (congrArg₂ (· * ·) ?_ ?_)
  · exact (column_apply _ p q).trans (select_apply c wc p)
  · refine (down_apply _ dn p q).trans ?_
    unfold Cert.Moe.expert
    refine Finset.sum_congr rfl fun i _ => congrArg (· * dn (ix2 q i)) ?_
    refine (hidden_apply _ p i).trans ?_
    unfold Cert.Moe.proj
    rw [gateup_apply, gateup_apply, shapeCast_self]

end Cert.KernelIdeal.MoeChunk

end
-- ==== Proof.MoeTile.lean ====
/-
  What one grid point leaves in the 1024-token output tile.

  The body writes the tile in eight bands of 128 rows. Band b (rows 128 b … 128 b + 127) is stored once, with the chunk
  update of the rows it loaded from the same band of the token tile, of the routing table and of the running output; at
  the first expert the body first stores zeros over the whole tile, and each band's running output is then read back
  from that store (the bands stored before it lie elsewhere). So the tile ends as ONE function of the point's blocks:
  at (r, f): previous (r, f) + (routing row r against the expert mask) * expert output (r, f), with previous = 0 at the
  first expert.
-/
import proofs.«100520_j25288767439422_1_alg».proof.Proof.Gen.KernelIdeal.Frame
import proofs.«100520_j25288767439422_1_alg».proof.Proof.MoeChunk
import Idealize.ShloMosaic.Lib.Pipeline.Value
import Idealize.ShloMosaic.Lib.Tactic

set_option maxRecDepth 16384

noncomputable section

namespace Cert.KernelIdeal.MoeTile

open Idealize.ShloMosaic Idealize.ShloMosaic.TcCoe Idealize.ShloMosaic.Tactic Idealize.ShloMosaic.ValueIdx Idealize.SL.Sem
open Cert.KernelIdeal Cert.KernelIdeal.Gen Cert.KernelIdeal.MoeChunk

/-- The tile after one grid point: c is the point's expert as a 32-bit word, x0 the token tile, x1 and x2 the expert's
    gate/up and down matrices (as [1, rows, columns] blocks), x3 the tile's routing table, xo the tile before the point. -/
def tileStep (c : BitVec 32) (x0 : S1024x2048.Idx → EReal) (x1 : S1x2816x2048.Idx → EReal) (x2 : S1x2048x1408.Idx → EReal)
    (x3 : S1024x8.Idx → EReal) (xo : S1024x2048.Idx → EReal) : S1024x2048.Idx → EReal :=
  fun y => xo y + (∑ e' : Fin 8, x3 (ix2 (⟨(y 0).val, (y 0).isLt⟩ : Fin 1024) e') * pick e' c)
    * Cert.Moe.expert (fun k => x0 (ix2 (⟨(y 0).val, (y 0).isLt⟩ : Fin 1024) k)) (fun r k => x1 (ix3 (0 : Fin 1) r k))
        (fun i => x2 (ix3 (0 : Fin 1) (⟨(y 1).val, (y 1).isLt⟩ : Fin 2048) i))

theorem hz2 : (![0, 0] : Fin 2 → Nat) = fun _ => 0 := funext fun a => by fin_cases a <;> rfl
theorem hz3 : (![0, 0, 0] : Fin 3 → Nat) = fun _ => 0 := funext fun a => by fin_cases a <;> rfl

/-! ## Where a band's entry sits in the tile -/

/-- Entry (p, k) of the band that starts at row off is the tile's entry (off + p, k). -/
theorem band_idx {n : ℕ} (off : ℕ) (hoff : off + 128 ≤ 1024)
    (inb : ∀ a, (![off, 0] : Fin 2 → ℕ) a + (![128, n] : Fin 2 → ℕ) a ≤ (⟨2, ![1024, n]⟩ : Shape).size a) (p : Fin 128) (k : Fin n) :
    (Rect.unit (s := ⟨2, ![1024, n]⟩) ![off, 0] ![128, n] inb).toLoadRect.idx (ix2 p k)
      = ix2 (⟨off + p.val, by have := p.isLt; omega⟩ : Fin 1024) k := by
  funext a; apply Fin.ext
  match a with
  | ⟨0, _⟩ => show off + 1 * p.val = off + p.val; omega
  | ⟨1, _⟩ => show 0 + 1 * k.val = k.val; omega

/-- A load of a band from a whole buffer holding X reads X at the band's entries. -/
theorem band_read {n : ℕ} {e : EltTy} {F : FTy → Type} [FloatOps F] (arg : Memref sig .tc .vmem ⟨2, ![1024, n]⟩ e) (harg : arg.IsWhole)
    (X : Vec F ⟨2, ![1024, n]⟩ e) (off : ℕ) (hoff : off + 128 ≤ 1024)
    (inb : ∀ a, (![off, 0] : Fin 2 → ℕ) a + (![128, n] : Fin 2 → ℕ) a ≤ (⟨2, ![1024, n]⟩ : Shape).size a) (p : Fin 128) (k : Fin n) :
    View.readAt (Elt F) arg.view (Rect.unit (s := ⟨2, ![1024, n]⟩) ![off, 0] ![128, n] inb).toLoadRect (harg.unread X) (ix2 p k)
      = X (ix2 (⟨off + p.val, by have := p.isLt; omega⟩ : Fin 1024) k) := by
  rw [View.readAt_eq_ld, harg.read_unread]
  exact congrArg X (band_idx off hoff inb p k)

/-- The expert's gate/up block, loaded whole and viewed as a matrix, reads the block at (0, r, k). -/
theorem gu_read (arg3 : Memref sig .tc .vmem S1x2816x2048 .bf16) (harg3 : arg3.IsWhole) (x1 : Vec Ideal S1x2816x2048 .bf16)
    (inb : ∀ a, (![0, 0, 0] : Fin 3 → ℕ) a + S1x2816x2048.size a ≤ S1x2816x2048.size a) (r : Fin 2816) (k : Fin 2048) :
    k0_pay3 (F := Ideal) (View.readAt (Elt Ideal) arg3.view (Rect.unit (s := S1x2816x2048) ![0, 0, 0] S1x2816x2048.size inb).toLoadRect (harg3.unread x1)) (ix2 r k)
      = x1 (ix3 (0 : Fin 1) r k) := by
  unfold k0_pay3
  rw [View.readAt_eq_ld, harg3.read_unread, View.ld_unit_zero (S := S1x2816x2048) hz3]
  refine (shapeCast_dropUnit_apply ![2816, 2048] x1 shapeCasts_S1x2816x2048_S2816x2048 (ix2 r k)).trans ?_
  exact congrArg x1 (funext fun a => by match a with | ⟨0, _⟩ => rfl | ⟨1, _⟩ => rfl | ⟨2, _⟩ => rfl)

/-- The expert's down block likewise. -/
theorem dn_read (arg4 : Memref sig .tc .vmem S1x2048x1408 .bf16) (harg4 : arg4.IsWhole) (x2 : Vec Ideal S1x2048x1408 .bf16)
    (inb : ∀ a, (![0, 0, 0] : Fin 3 → ℕ) a + S1x2048x1408.size a ≤ S1x2048x1408.size a) (q : Fin 2048) (i : Fin 1408) :
    k0_pay4 (F := Ideal) (View.readAt (Elt Ideal) arg4.view (Rect.unit (s := S1x2048x1408) ![0, 0, 0] S1x2048x1408.size inb).toLoadRect (harg4.unread x2)) (ix2 q i)
      = x2 (ix3 (0 : Fin 1) q i) := by
  unfold k0_pay4
  rw [View.readAt_eq_ld, harg4.read_unread, View.ld_unit_zero (S := S1x2048x1408) hz3]
  refine (shapeCast_dropUnit_apply ![2048, 1408] x2 shapeCasts_S1x2048x1408_S2048x1408 (ix2 q i)).trans ?_
  exact congrArg x2 (funext fun a => by match a with | ⟨0, _⟩ => rfl | ⟨1, _⟩ => rfl | ⟨2, _⟩ => rfl)

/-! ## One band's store is the tile function on that band -/

/-- A band's stored rows are the tile function's rows there, given what its loads read. -/
theorem band_piece (off : ℕ) (hoff : off + 128 ≤ 1024)
    (inb : ∀ a, (![off, 0] : Fin 2 → ℕ) a + (![128, 2048] : Fin 2 → ℕ) a ≤ S1024x2048.size a)
    (c : BitVec 32) (x0 : S1024x2048.Idx → EReal) (x1 : S1x2816x2048.Idx → EReal) (x2 : S1x2048x1408.Idx → EReal)
    (x3 : S1024x8.Idx → EReal) (xo : S1024x2048.Idx → EReal)
    (f : S128x2048.Idx → EReal)
    (gu : FVec Ideal S2816x2048 .bf16) (dn : FVec Ideal S2048x1408 .bf16) (xc : Vec Ideal S128x2048 .bf16)
    (wc : Vec Ideal S128x8 .f32) (oc : Vec Ideal S128x2048 .f32)
    (hf : f = k0_pay1 (F := Ideal) c gu dn xc wc oc)
    (hgu : ∀ r k, gu (ix2 r k) = x1 (ix3 (0 : Fin 1) r k)) (hdn : ∀ q i, dn (ix2 q i) = x2 (ix3 (0 : Fin 1) q i))
    (hxc : ∀ (p : Fin 128) (k : Fin 2048), xc (ix2 p k) = x0 (ix2 (⟨off + p.val, by have := p.isLt; omega⟩ : Fin 1024) k))
    (hwc : ∀ (p : Fin 128) (e : Fin 8), wc (ix2 p e) = x3 (ix2 (⟨off + p.val, by have := p.isLt; omega⟩ : Fin 1024) e))
    (hoc : ∀ (p : Fin 128) (q : Fin 2048), oc (ix2 p q) = xo (ix2 (⟨off + p.val, by have := p.isLt; omega⟩ : Fin 1024) q))
    (x : (Rect.unit (s := S1024x2048) ![off, 0] ![128, 2048] inb).shape.Idx) :
    f x = tileStep c x0 x1 x2 x3 xo ((Rect.unit (s := S1024x2048) ![off, 0] ![128, 2048] inb).emb x) := by
  subst hf
  obtain ⟨p, q, rfl⟩ : ∃ (p : Fin 128) (q : Fin 2048), x = ix2 p q := ⟨x 0, x 1, eq_ix2 x⟩
  have he : (Rect.unit (s := S1024x2048) ![off, 0] ![128, 2048] inb).emb (ix2 p q)
      = ix2 (⟨off + p.val, by have := p.isLt; omega⟩ : Fin 1024) q := band_idx off hoff inb p q
  rw [he]
  refine (pay_apply c gu dn xc wc oc p q).trans ?_
  show _ = xo (ix2 (⟨off + p.val, _⟩ : Fin 1024) q) + (∑ e' : Fin 8, x3 (ix2 (⟨off + p.val, _⟩ : Fin 1024) e') * pick e' c)
    * Cert.Moe.expert (fun k => x0 (ix2 (⟨off + p.val, _⟩ : Fin 1024) k)) (fun r k => x1 (ix3 (0 : Fin 1) r k))
        (fun i => x2 (ix3 (0 : Fin 1) q i))
  rw [hoc]
  simp only [hwc, hxc, hgu, hdn]

/-- The contents a list of stores leaves, one store at a time: where the last store's payload is the function G on its
    rectangle, the contents are G at an index as soon as they are G there under the earlier stores alone. -/
theorem canon_cons_fn {S : Shape} {e : EltTy} {Val : EltTy → Type} [∀ e, Nonempty (Val e)] (G : S.Idx → Val e)
    (r : Rect S) (w : r.shape.Idx → Val e) (L : List (View.Piece Val S e)) (y : S.Idx)
    (hp : ∀ x : r.shape.Idx, w x = G (r.emb x)) (hrest : y ∉ r.set → View.canon L y = G y) :
    View.canon ((⟨r, w⟩ : View.Piece Val S e) :: L) y = G y := by
  by_cases hm : y ∈ r.set
  · obtain ⟨x, rfl⟩ := r.exists_idx_of_mem hm
    rw [show r.idx x = r.emb x from rfl, View.canon_cons_emb]
    exact hp x
  · rw [View.canon_cons_of_not_mem _ _ hm]
    exact hrest hm

/-- An index of the tile outside the band that starts at row off has its row outside that band's rows. -/
theorem not_band {off : ℕ} {inb : ∀ a, (![off, 0] : Fin 2 → ℕ) a + (![128, 2048] : Fin 2 → ℕ) a ≤ S1024x2048.size a}
    {y : S1024x2048.Idx} (h : y ∉ (Rect.unit (s := S1024x2048) ![off, 0] ![128, 2048] inb).set) :
    ¬(off ≤ (y 0).val ∧ (y 0).val < off + 128) := fun hc => h (Rect.mem_set_unit.mpr fun a => by
  match a with
  | ⟨0, _⟩ => exact hc
  | ⟨1, _⟩ => exact ⟨Nat.zero_le _, by have h1 : (y 1).val < 2048 := (y 1).isLt; show (y 1).val < 0 + 2048; omega⟩)

/-- The eight bands are all of the tile. -/
theorem bands_exhaust (y : S1024x2048.Idx)
    (h0 : ¬(0 ≤ (y 0).val ∧ (y 0).val < 0 + 128)) (h1 : ¬(128 ≤ (y 0).val ∧ (y 0).val < 128 + 128))
    (h2 : ¬(256 ≤ (y 0).val ∧ (y 0).val < 256 + 128)) (h3 : ¬(384 ≤ (y 0).val ∧ (y 0).val < 384 + 128))
    (h4 : ¬(512 ≤ (y 0).val ∧ (y 0).val < 512 + 128)) (h5 : ¬(640 ≤ (y 0).val ∧ (y 0).val < 640 + 128))
    (h6 : ¬(768 ≤ (y 0).val ∧ (y 0).val < 768 + 128)) (h7 : ¬(896 ≤ (y 0).val ∧ (y 0).val < 896 + 128)) : False := by
  have := (y 0).isLt
  have : (y 0).val < 1024 := this
  omega

end Cert.KernelIdeal.MoeTile

end
-- ==== Proof.MoeCases.lean ====
/-
  The two cases of the kernel body, as the tile function.

  At an expert other than the first the body adds the chunk updates, band by band, to the tile the previous grid point left;
  at the first expert it stores zeros first and adds to those. Either way the tile the body leaves is the tile function of
  the point's input blocks and of what the tile held: the running output before, or zero.
-/
import proofs.«100520_j25288767439422_1_alg».proof.Proof.MoeTile

set_option maxRecDepth 16384

noncomputable section

namespace Cert.KernelIdeal.MoeTile

open Idealize.ShloMosaic Idealize.ShloMosaic.TcCoe Idealize.ShloMosaic.Tactic Idealize.ShloMosaic.ValueIdx Idealize.SL.Sem
open Cert.KernelIdeal Cert.KernelIdeal.Gen Cert.KernelIdeal.MoeChunk

/-- A load of a band of rows reads past a store to a band of rows above it (lower row numbers). -/
theorem readCov_skip {κ : Kind} {sp : Space} (v : View sig κ sp S1024x2048 .f32) (off off' : ℕ)
    (inb : ∀ a, (![off, 0] : Fin 2 → ℕ) a + (![128, 2048] : Fin 2 → ℕ) a ≤ S1024x2048.size a)
    (inb' : ∀ a, (![off', 0] : Fin 2 → ℕ) a + (![128, 2048] : Fin 2 → ℕ) a ≤ S1024x2048.size a)
    (w : (Rect.unit (s := S1024x2048) ![off, 0] ![128, 2048] inb).shape.Idx → Elt Ideal .f32)
    (L : List (View.Piece (Elt Ideal) S1024x2048 .f32)) (h : off + 128 ≤ off') :
    v.readCov ((⟨Rect.unit (s := S1024x2048) ![off, 0] ![128, 2048] inb, w⟩ : View.Piece (Elt Ideal) S1024x2048 .f32) :: L)
        (Rect.unit (s := S1024x2048) ![off', 0] ![128, 2048] inb').toLoadRect
      = v.readCov L (Rect.unit (s := S1024x2048) ![off', 0] ![128, 2048] inb').toLoadRect :=
  View.readCov_cons_of_disjoint _ _ _ _ (Rect.unit_disjoint (inb := inb) (inb' := inb') 0 (Or.inl (by show off + 128 ≤ off'; exact h)))

/-- A load of a band of rows after one store over the whole tile reads that store's payload on the band. -/
theorem readCov_fill {κ : Kind} {sp : Space} (v : View sig κ sp S1024x2048 .f32) (off' : ℕ)
    (inb' : ∀ a, (![off', 0] : Fin 2 → ℕ) a + (![128, 2048] : Fin 2 → ℕ) a ≤ S1024x2048.size a)
    (inbz : ∀ a, (![0, 0] : Fin 2 → ℕ) a + S1024x2048.size a ≤ S1024x2048.size a)
    (w : S1024x2048.Idx → Elt Ideal .f32) :
    v.readCov [(⟨Rect.unit (s := S1024x2048) ![0, 0] S1024x2048.size inbz, w⟩ : View.Piece (Elt Ideal) S1024x2048 .f32)]
        (Rect.unit (s := S1024x2048) ![off', 0] ![128, 2048] inb').toLoadRect
      = fun j => w ((Rect.unit (s := S1024x2048) ![off', 0] ![128, 2048] inb').toLoadRect.idx j) := by
  rw [View.readCov_eq_canon', View.canon_unit_zero hz2]

/-- A band's store when every load reads the buffers as the body found them (an expert other than the first). -/
theorem band_B (off : ℕ) (hoff : off + 128 ≤ 1024)
    (inb2 : ∀ a, (![off, 0] : Fin 2 → ℕ) a + (![128, 2048] : Fin 2 → ℕ) a ≤ S1024x2048.size a)
    (inb8 : ∀ a, (![off, 0] : Fin 2 → ℕ) a + (![128, 8] : Fin 2 → ℕ) a ≤ S1024x8.size a)
    (inbg : ∀ a, (![0, 0, 0] : Fin 3 → ℕ) a + S1x2816x2048.size a ≤ S1x2816x2048.size a)
    (inbd : ∀ a, (![0, 0, 0] : Fin 3 → ℕ) a + S1x2048x1408.size a ≤ S1x2048x1408.size a)
    (c : BitVec 32) (arg2 : Memref sig .tc .vmem S1024x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1024x8 .f32) (harg5 : arg5.IsWhole) (arg6 : Memref sig .tc .vmem S1024x2048 .f32) (harg6 : arg6.IsWhole)
    (x0 : Vec Ideal S1024x2048 .bf16) (x1 : Vec Ideal S1x2816x2048 .bf16) (x2 : Vec Ideal S1x2048x1408 .bf16) (x3 : Vec Ideal S1024x8 .f32) (xo4 : Vec Ideal S1024x2048 .f32) (f : S128x2048.Idx → EReal)
    (hf : f = k0_pay1 (F := Ideal) c (k0_pay3 (F := Ideal) (View.readAt (Elt Ideal) arg3.view (Rect.unit (s := S1x2816x2048) ![0, 0, 0] S1x2816x2048.size inbg).toLoadRect (harg3.unread x1))) (k0_pay4 (F := Ideal) (View.readAt (Elt Ideal) arg4.view (Rect.unit (s := S1x2048x1408) ![0, 0, 0] S1x2048x1408.size inbd).toLoadRect (harg4.unread x2)))
        (View.readAt (Elt Ideal) arg2.view (Rect.unit (s := S1024x2048) ![off, 0] ![128, 2048] inb2).toLoadRect (harg2.unread x0)) (View.readAt (Elt Ideal) arg5.view (Rect.unit (s := S1024x8) ![off, 0] ![128, 8] inb8).toLoadRect (harg5.unread x3))
        (View.readAt (Elt Ideal) arg6.view (Rect.unit (s := S1024x2048) ![off, 0] ![128, 2048] inb2).toLoadRect (harg6.unread xo4)))
    (x : (Rect.unit (s := S1024x2048) ![off, 0] ![128, 2048] inb2).shape.Idx) :
    f x = tileStep c x0 x1 x2 x3 xo4 ((Rect.unit (s := S1024x2048) ![off, 0] ![128, 2048] inb2).emb x) :=
  band_piece off hoff inb2 c x0 x1 x2 x3 xo4 f _ _ _ _ _ hf (gu_read arg3 harg3 x1 inbg) (dn_read arg4 harg4 x2 inbd)
    (band_read arg2 harg2 x0 off hoff inb2) (band_read arg5 harg5 x3 off hoff inb8) (band_read arg6 harg6 xo4 off hoff inb2) x

/-- A band's store when its running output reads zero (the first expert, after the zero fill). -/
theorem band_A (off : ℕ) (hoff : off + 128 ≤ 1024)
    (inb2 : ∀ a, (![off, 0] : Fin 2 → ℕ) a + (![128, 2048] : Fin 2 → ℕ) a ≤ S1024x2048.size a)
    (inb8 : ∀ a, (![off, 0] : Fin 2 → ℕ) a + (![128, 8] : Fin 2 → ℕ) a ≤ S1024x8.size a)
    (inbg : ∀ a, (![0, 0, 0] : Fin 3 → ℕ) a + S1x2816x2048.size a ≤ S1x2816x2048.size a)
    (inbd : ∀ a, (![0, 0, 0] : Fin 3 → ℕ) a + S1x2048x1408.size a ≤ S1x2048x1408.size a)
    (c : BitVec 32) (arg2 : Memref sig .tc .vmem S1024x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1024x8 .f32) (harg5 : arg5.IsWhole) (arg6 : Memref sig .tc .vmem S1024x2048 .f32) (harg6 : arg6.IsWhole)
    (x0 : Vec Ideal S1024x2048 .bf16) (x1 : Vec Ideal S1x2816x2048 .bf16) (x2 : Vec Ideal S1x2048x1408 .bf16) (x3 : Vec Ideal S1024x8 .f32) (oc : Vec Ideal S128x2048 .f32) (f : S128x2048.Idx → EReal)
    (hf : f = k0_pay1 (F := Ideal) c (k0_pay3 (F := Ideal) (View.readAt (Elt Ideal) arg3.view (Rect.unit (s := S1x2816x2048) ![0, 0, 0] S1x2816x2048.size inbg).toLoadRect (harg3.unread x1))) (k0_pay4 (F := Ideal) (View.readAt (Elt Ideal) arg4.view (Rect.unit (s := S1x2048x1408) ![0, 0, 0] S1x2048x1408.size inbd).toLoadRect (harg4.unread x2)))
        (View.readAt (Elt Ideal) arg2.view (Rect.unit (s := S1024x2048) ![off, 0] ![128, 2048] inb2).toLoadRect (harg2.unread x0)) (View.readAt (Elt Ideal) arg5.view (Rect.unit (s := S1024x8) ![off, 0] ![128, 8] inb8).toLoadRect (harg5.unread x3)) oc)
    (hoc : ∀ (p : Fin 128) (q : Fin 2048), oc (ix2 p q) = 0)
    (x : (Rect.unit (s := S1024x2048) ![off, 0] ![128, 2048] inb2).shape.Idx) :
    f x = tileStep c x0 x1 x2 x3 (fun _ => 0) ((Rect.unit (s := S1024x2048) ![off, 0] ![128, 2048] inb2).emb x) :=
  band_piece off hoff inb2 c x0 x1 x2 x3 (fun _ => 0) f _ _ _ _ oc hf (gu_read arg3 harg3 x1 inbg) (dn_read arg4 harg4 x2 inbd)
    (band_read arg2 harg2 x0 off hoff inb2) (band_read arg5 harg5 x3 off hoff inb8) hoc x

/-- An expert other than the first: the tile the body leaves over the running output xo4. -/
theorem out_B (c : Dev nD) (i : grid0.Coords) (arg2 : Memref sig .tc .vmem S1024x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1024x8 .f32) (harg5 : arg5.IsWhole) (arg6 : Memref sig .tc .vmem S1024x2048 .f32) (harg6 : arg6.IsWhole) (hc0 : ¬cond0_0 i)
    (x0 : Vec Ideal S1024x2048 .bf16) (x1 : Vec Ideal S1x2816x2048 .bf16) (x2 : Vec Ideal S1x2048x1408 .bf16) (x3 : Vec Ideal S1024x8 .f32) (xo4 : Vec Ideal S1024x2048 .f32) :
    out0_B_4 (F := Ideal) c i arg2 harg2 arg3 harg3 arg4 harg4 arg5 harg5 arg6 harg6 hc0 x0 x1 x2 x3 xo4 = tileStep (BitVec.ofNat 32 (i 1).val) x0 x1 x2 x3 xo4 := by
  unfold out0_B_4
  rw [View.read_writes_junk_eq_canon]
  funext y
  unfold kernelRun0_B
  dsimp only
  sl_unfold_words
  refine canon_cons_fn _ _ _ _ y (band_B 896 (by omega) _ _ _ _ (BitVec.ofNat 32 (i 1).val) arg2 harg2 arg3 harg3 arg4 harg4 arg5 harg5 arg6 harg6 x0 x1 x2 x3 xo4 _ rfl) fun h7 => ?_
  refine canon_cons_fn _ _ _ _ y (band_B 768 (by omega) _ _ _ _ (BitVec.ofNat 32 (i 1).val) arg2 harg2 arg3 harg3 arg4 harg4 arg5 harg5 arg6 harg6 x0 x1 x2 x3 xo4 _ rfl) fun h6 => ?_
  refine canon_cons_fn _ _ _ _ y (band_B 640 (by omega) _ _ _ _ (BitVec.ofNat 32 (i 1).val) arg2 harg2 arg3 harg3 arg4 harg4 arg5 harg5 arg6 harg6 x0 x1 x2 x3 xo4 _ rfl) fun h5 => ?_
  refine canon_cons_fn _ _ _ _ y (band_B 512 (by omega) _ _ _ _ (BitVec.ofNat 32 (i 1).val) arg2 harg2 arg3 harg3 arg4 harg4 arg5 harg5 arg6 harg6 x0 x1 x2 x3 xo4 _ rfl) fun h4 => ?_
  refine canon_cons_fn _ _ _ _ y (band_B 384 (by omega) _ _ _ _ (BitVec.ofNat 32 (i 1).val) arg2 harg2 arg3 harg3 arg4 harg4 arg5 harg5 arg6 harg6 x0 x1 x2 x3 xo4 _ rfl) fun h3 => ?_
  refine canon_cons_fn _ _ _ _ y (band_B 256 (by omega) _ _ _ _ (BitVec.ofNat 32 (i 1).val) arg2 harg2 arg3 harg3 arg4 harg4 arg5 harg5 arg6 harg6 x0 x1 x2 x3 xo4 _ rfl) fun h2 => ?_
  refine canon_cons_fn _ _ _ _ y (band_B 128 (by omega) _ _ _ _ (BitVec.ofNat 32 (i 1).val) arg2 harg2 arg3 harg3 arg4 harg4 arg5 harg5 arg6 harg6 x0 x1 x2 x3 xo4 _ rfl) fun h1 => ?_
  refine canon_cons_fn _ _ _ _ y (band_B 0 (by omega) _ _ _ _ (BitVec.ofNat 32 (i 1).val) arg2 harg2 arg3 harg3 arg4 harg4 arg5 harg5 arg6 harg6 x0 x1 x2 x3 xo4 _ rfl) fun h0 => ?_
  exact (bands_exhaust y (not_band h0) (not_band h1) (not_band h2) (not_band h3) (not_band h4) (not_band h5) (not_band h6) (not_band h7)).elim

set_option maxHeartbeats 1000000 in
/-- The first expert: the tile the body leaves over zeros. -/
theorem out_A (c : Dev nD) (i : grid0.Coords) (arg2 : Memref sig .tc .vmem S1024x2048 .bf16) (harg2 : arg2.IsWhole) (arg3 : Memref sig .tc .vmem S1x2816x2048 .bf16) (harg3 : arg3.IsWhole) (arg4 : Memref sig .tc .vmem S1x2048x1408 .bf16) (harg4 : arg4.IsWhole) (arg5 : Memref sig .tc .vmem S1024x8 .f32) (harg5 : arg5.IsWhole) (arg6 : Memref sig .tc .vmem S1024x2048 .f32) (harg6 : arg6.IsWhole) (hc0 : cond0_0 i)
    (x0 : Vec Ideal S1024x2048 .bf16) (x1 : Vec Ideal S1x2816x2048 .bf16) (x2 : Vec Ideal S1x2048x1408 .bf16) (x3 : Vec Ideal S1024x8 .f32) :
    out0_A_4 (F := Ideal) c i arg2 harg2 arg3 harg3 arg4 harg4 arg5 harg5 arg6 harg6 hc0 x0 x1 x2 x3 = tileStep (BitVec.ofNat 32 (i 1).val) x0 x1 x2 x3 (fun _ => 0) := by
  unfold out0_A_4
  rw [View.read_writes_junk_eq_canon]
  funext y
  unfold kernelRun0_A
  dsimp only
  sl_unfold_words
  refine canon_cons_fn _ _ _ _ y (band_A 896 (by omega) _ _ _ _ (BitVec.ofNat 32 (i 1).val) arg2 harg2 arg3 harg3 arg4 harg4 arg5 harg5 arg6 harg6 x0 x1 x2 x3 _ _ rfl ?_) fun h7 => ?_
  · intro p q
    exact (congrFun ((readCov_skip _ 768 896 _ _ _ _ (by omega)).trans ((readCov_skip _ 640 896 _ _ _ _ (by omega)).trans ((readCov_skip _ 512 896 _ _ _ _ (by omega)).trans ((readCov_skip _ 384 896 _ _ _ _ (by omega)).trans ((readCov_skip _ 256 896 _ _ _ _ (by omega)).trans ((readCov_skip _ 128 896 _ _ _ _ (by omega)).trans ((readCov_skip _ 0 896 _ _ _ _ (by omega)).trans (readCov_fill _ 896 _ _ _)))))))) (ix2 p q)).trans Ideal.ofBits_zero_f32
  refine canon_cons_fn _ _ _ _ y (band_A 768 (by omega) _ _ _ _ (BitVec.ofNat 32 (i 1).val) arg2 harg2 arg3 harg3 arg4 harg4 arg5 harg5 arg6 harg6 x0 x1 x2 x3 _ _ rfl ?_) fun h6 => ?_
  · intro p q
    exact (congrFun ((readCov_skip _ 640 768 _ _ _ _ (by omega)).trans ((readCov_skip _ 512 768 _ _ _ _ (by omega)).trans ((readCov_skip _ 384 768 _ _ _ _ (by omega)).trans ((readCov_skip _ 256 768 _ _ _ _ (by omega)).trans ((readCov_skip _ 128 768 _ _ _ _ (by omega)).trans ((readCov_skip _ 0 768 _ _ _ _ (by omega)).trans (readCov_fill _ 768 _ _ _))))))) (ix2 p q)).trans Ideal.ofBits_zero_f32
  refine canon_cons_fn _ _ _ _ y (band_A 640 (by omega) _ _ _ _ (BitVec.ofNat 32 (i 1).val) arg2 harg2 arg3 harg3 arg4 harg4 arg5 harg5 arg6 harg6 x0 x1 x2 x3 _ _ rfl ?_) fun h5 => ?_
  · intro p q
    exact (congrFun ((readCov_skip _ 512 640 _ _ _ _ (by omega)).trans ((readCov_skip _ 384 640 _ _ _ _ (by omega)).trans ((readCov_skip _ 256 640 _ _ _ _ (by omega)).trans ((readCov_skip _ 128 640 _ _ _ _ (by omega)).trans ((readCov_skip _ 0 640 _ _ _ _ (by omega)).trans (readCov_fill _ 640 _ _ _)))))) (ix2 p q)).trans Ideal.ofBits_zero_f32
  refine canon_cons_fn _ _ _ _ y (band_A 512 (by omega) _ _ _ _ (BitVec.ofNat 32 (i 1).val) arg2 harg2 arg3 harg3 arg4 harg4 arg5 harg5 arg6 harg6 x0 x1 x2 x3 _ _ rfl ?_) fun h4 => ?_
  · intro p q
    exact (congrFun ((readCov_skip _ 384 512 _ _ _ _ (by omega)).trans ((readCov_skip _ 256 512 _ _ _ _ (by omega)).trans ((readCov_skip _ 128 512 _ _ _ _ (by omega)).trans ((readCov_skip _ 0 512 _ _ _ _ (by omega)).trans (readCov_fill _ 512 _ _ _))))) (ix2 p q)).trans Ideal.ofBits_zero_f32
  refine canon_cons_fn _ _ _ _ y (band_A 384 (by omega) _ _ _ _ (BitVec.ofNat 32 (i 1).val) arg2 harg2 arg3 harg3 arg4 harg4 arg5 harg5 arg6 harg6 x0 x1 x2 x3 _ _ rfl ?_) fun h3 => ?_
  · intro p q
    exact (congrFun ((readCov_skip _ 256 384 _ _ _ _ (by omega)).trans ((readCov_skip _ 128 384 _ _ _ _ (by omega)).trans ((readCov_skip _ 0 384 _ _ _ _ (by omega)).trans (readCov_fill _ 384 _ _ _)))) (ix2 p q)).trans Ideal.ofBits_zero_f32
  refine canon_cons_fn _ _ _ _ y (band_A 256 (by omega) _ _ _ _ (BitVec.ofNat 32 (i 1).val) arg2 harg2 arg3 harg3 arg4 harg4 arg5 harg5 arg6 harg6 x0 x1 x2 x3 _ _ rfl ?_) fun h2 => ?_
  · intro p q
    exact (congrFun ((readCov_skip _ 128 256 _ _ _ _ (by omega)).trans ((readCov_skip _ 0 256 _ _ _ _ (by omega)).trans (readCov_fill _ 256 _ _ _))) (ix2 p q)).trans Ideal.ofBits_zero_f32
  refine canon_cons_fn _ _ _ _ y (band_A 128 (by omega) _ _ _ _ (BitVec.ofNat 32 (i 1).val) arg2 harg2 arg3 harg3 arg4 harg4 arg5 harg5 arg6 harg6 x0 x1 x2 x3 _ _ rfl ?_) fun h1 => ?_
  · intro p q
    exact (congrFun ((readCov_skip _ 0 128 _ _ _ _ (by omega)).trans (readCov_fill _ 128 _ _ _)) (ix2 p q)).trans Ideal.ofBits_zero_f32
  refine canon_cons_fn _ _ _ _ y (band_A 0 (by omega) _ _ _ _ (BitVec.ofNat 32 (i 1).val) arg2 harg2 arg3 harg3 arg4 harg4 arg5 harg5 arg6 harg6 x0 x1 x2 x3 _ _ rfl ?_) fun h0 => ?_
  · intro p q
    exact (congrFun (readCov_fill _ 0 _ _ _) (ix2 p q)).trans Ideal.ofBits_zero_f32
  exact (bands_exhaust y (not_band h0) (not_band h1) (not_band h2) (not_band h3) (not_band h4) (not_band h5) (not_band h6) (not_band h7)).elim

end Cert.KernelIdeal.MoeTile

end
-- ==== Proof.MoeMask.lean ====
/-
  The expert mask picks one column of the routing table.

  Inside the body the routing table's row is multiplied by a 0/1 mask that is 1 at the grid point's expert, and summed over
  the eight experts: the sum is the row's entry at that expert.
-/
import proofs.«100520_j25288767439422_1_alg».proof.Proof.MoeChunk

noncomputable section

namespace Cert.KernelIdeal.MoeChunk

open Idealize.ShloMosaic

/-- The mask's entry, as an integer: 1 at the expert the word names, 0 elsewhere. -/
theorem pick_int : ∀ a b : Fin 8,
    ((IntOp.cmpi .eq (BitVec.ofNat 32 a.val) (BitVec.ofNat 32 b.val)).setWidth 32).toInt = if a = b then 1 else 0 := by
  decide

theorem pick_eq (a b : Fin 8) : pick a (BitVec.ofNat 32 b.val) = if a = b then 1 else 0 := by
  unfold pick
  rw [pick_int a b]
  split <;> simp

/-- Summed against the mask, a row of eight entries gives its entry at the masked expert. -/
theorem pick_sum (A : Fin 8 → EReal) (e : Fin 8) : ∑ e' : Fin 8, A e' * pick e' (BitVec.ofNat 32 e.val) = A e := by
  simp only [pick_eq, mul_ite, mul_one, mul_zero]
  rw [Finset.sum_ite_eq' Finset.univ e A]
  simp

end Cert.KernelIdeal.MoeChunk

end
-- ==== Proof.MoeHost.lean ====
/-
  What the kernel program's host operations before the kernel leave in the four arrays the kernel reads, at an index.

  Three of them are copies of arguments: the token features are the [1, 2048, 2048] argument flattened to [2048, 2048]
  (entry (r, k) is entry (0, r, k)); the stacked gate/up and down matrices are the arguments themselves; a change of
  float format is the identity on the extended reals.

  The fourth is the routing table, one row per token and one column per expert: the token's two slot indices,
  flattened to [2048, 2] and broadcast along a new last axis of extent 8, are compared with the expert numbers
  0, ..., 7 (an iota broadcast along the first two axes); the comparison, as 0 or 1, multiplies the slot weights
  broadcast the same way; and the product is summed over the slot axis from the zero constant. Entry (r, e) is therefore
  the sum over the two slots k of weight (0, r, k) times (index (0, r, k) = e), from zero: Cert.Moe.route at expert e.
-/
import proofs.«100520_j25288767439422_1_alg».proof.Proof.Gen.KernelIdeal.Frame
import proofs.«100520_j25288767439422_1_alg».proof.Proof.MoeSpec
import Idealize.ShloMosaic.Lib.Pipeline.Value
import Idealize.ShloMosaic.Lib.ValueIdx
import Idealize.ShloMosaic.Lib.StableHlo.Run
import Idealize.ShloMosaic.Lib.Tactic
import Idealize.ShloMosaic.PureOps.Ideal.Laws

noncomputable section

namespace Cert.KernelIdeal.MoeHost

open Idealize.ShloMosaic Idealize.ShloMosaic.TcCoe Idealize.ShloMosaic.Tactic Idealize.ShloMosaic.ValueIdx Idealize.SL.Sem
  Cert.KernelIdeal Cert.KernelIdeal.Gen

/-! ### Layout operations at coordinates -/

/-- Entry (r, k) of a [1, 2048, 2] array flattened to [2048, 2] is its entry (0, r, k). -/
theorem flatten_slots {α : Type} (x : S1x2048x2.Idx → α) (r : Fin 2048) (k : Fin 2) :
    shapeCast S2048x2 x shapeCasts_S1x2048x2_S2048x2 (ix2 r k) = x (ix3 (0 : Fin 1) r k) :=
  shapeCast_apply x shapeCasts_S1x2048x2_S2048x2 (ix2 r k) (ix3 (0 : Fin 1) r k)
    (by rewrite [Shape.rowMajor_val_three, Shape.rowMajor_val_two]
        show (0 * 2048 + r.val) * 2 + k.val = r.val * 2 + k.val
        omega)

/-- Entry (r, k) of a [1, 2048, 2048] array flattened to [2048, 2048] is its entry (0, r, k). -/
theorem flatten_tokens {α : Type} (x : S1x2048x2048.Idx → α) (r k : Fin 2048) :
    shapeCast S2048x2048 x shapeCasts_S1x2048x2048_S2048x2048 (ix2 r k) = x (ix3 (0 : Fin 1) r k) :=
  shapeCast_apply x shapeCasts_S1x2048x2048_S2048x2048 (ix2 r k) (ix3 (0 : Fin 1) r k)
    (by rewrite [Shape.rowMajor_val_three, Shape.rowMajor_val_two]
        show (0 * 2048 + r.val) * 2048 + k.val = r.val * 2048 + k.val
        omega)

/-- A [2048, 2] array given a unit last axis and broadcast along it to extent 8: entry (r, k, e) is entry (r, k). -/
theorem along_experts {α : Type} (x : S2048x2.Idx → α) (r : Fin 2048) (k : Fin 2) (e : Fin 8) :
    broadcastInDim S2048x2x8 ![0, 1, 2] bcast_S2048x2x1_S2048x2x8_0_1_2
        (broadcastInDim S2048x2x1 ![0, 1] bcast_S2048x2_S2048x2x1_0_1 x) (ix3 r k e) = x (ix2 r k) := by
  rw [broadcastInDim_apply _ bcast_S2048x2x1_S2048x2x8_0_1_2 _ (ix3 r k e) (ix3 r k (0 : Fin 1)) (fun a => match a with
    | ⟨0, _⟩ => by show r.val = if (2048 : Nat) = 1 then 0 else r.val; rw [if_neg (by decide)]
    | ⟨1, _⟩ => by show k.val = if (2 : Nat) = 1 then 0 else k.val; rw [if_neg (by decide)]
    | ⟨2, _⟩ => by show 0 = if (1 : Nat) = 1 then 0 else e.val; rw [if_pos rfl])]
  exact broadcastInDim_apply _ bcast_S2048x2_S2048x2x1_0_1 x (ix3 r k (0 : Fin 1)) (ix2 r k) (fun a => match a with
    | ⟨0, _⟩ => by show r.val = if (2048 : Nat) = 1 then 0 else r.val; rw [if_neg (by decide)]
    | ⟨1, _⟩ => by show k.val = if (2 : Nat) = 1 then 0 else k.val; rw [if_neg (by decide)])

/-- The expert numbers 0, ..., 7 broadcast along the token and slot axes: entry (r, k, e) is the word of e. -/
theorem expert_numbers (r : Fin 2048) (k : Fin 2) (e : Fin 8) :
    broadcastInDim S2048x2x8 ![0, 1, 2] bcast_S1x1x8_S2048x2x8_0_1_2
        (broadcastInDim S1x1x8 ![2] bcast_S8_S1x1x8_2 (iotaInDim S8 32 0)) (ix3 r k e) = BitVec.ofNat 32 e.val := by
  rw [broadcastInDim_apply _ bcast_S1x1x8_S2048x2x8_0_1_2 _ (ix3 r k e) (ix3 (0 : Fin 1) (0 : Fin 1) e) (fun a => match a with
    | ⟨0, _⟩ => by show 0 = if (1 : Nat) = 1 then 0 else r.val; rw [if_pos rfl]
    | ⟨1, _⟩ => by show 0 = if (1 : Nat) = 1 then 0 else k.val; rw [if_pos rfl]
    | ⟨2, _⟩ => by show e.val = if (8 : Nat) = 1 then 0 else e.val; rw [if_neg (by decide)])]
  rw [broadcastInDim_apply _ bcast_S8_S1x1x8_2 _ (ix3 (0 : Fin 1) (0 : Fin 1) e) (ix1 e) (fun a => match a with
    | ⟨0, _⟩ => by show e.val = if (8 : Nat) = 1 then 0 else e.val; rw [if_neg (by decide)])]
  rfl

/-- The host's sum over the slot axis of a [2048, 2, 8] array, at (r, e): the initial value plus the two slots' entries. -/
theorem sum_slots (y : (⟨S2048x2x8, .f32⟩ : BufTy).Contents (Elt Ideal)) (z : (⟨S_, .f32⟩ : BufTy).Contents (Elt Ideal))
    (r : Fin 2048) (e : Fin 8) :
    Host.reduceAdd (F := Ideal) (φ := .f32) y z reducesTo_S2048x2x8_S2048x8_d1 h_S_ (ix2 r e)
      = z (Shape.Idx.first h_S_) + ∑ k : Fin 2, y (ix3 r k e) := by
  have hR : S2048x2x8.Reduces [1] S2048x8 := by decide
  simp only [Host.reduceAdd, Ideal.hostReduceAdd_def]
  rw [Ideal.hostReduceAdd_single reducesTo_S2048x2x8_S2048x8_d1 hR]
  refine congrArg (_ + ·) (Finset.sum_congr rfl fun k _ => ?_)
  exact congrArg y (funext fun a => Fin.ext (by
    match a with
    | ⟨0, _⟩ => rfl
    | ⟨1, _⟩ => rfl
    | ⟨2, _⟩ => rfl))

/-! ### The routing table -/

/-- The routing table as the host operations compute it from the slot indices a1 and the slot weights a2. -/
def table (a1 : (⟨S1x2048x2, .i32⟩ : BufTy).Contents (Elt Ideal)) (a2 : (⟨S1x2048x2, .f32⟩ : BufTy).Contents (Elt Ideal)) :
    (⟨S2048x8, .f32⟩ : BufTy).Contents (Elt Ideal) :=
  Host.reduceAdd (F := Ideal)
    (mulf
      (broadcastInDim S2048x2x8 ![0, 1, 2] bcast_S2048x2x1_S2048x2x8_0_1_2
        (broadcastInDim S2048x2x1 ![0, 1] bcast_S2048x2_S2048x2x1_0_1
          (shapeCast S2048x2 a2 shapeCasts_S1x2048x2_S2048x2)))
      (uitofp .f32
        (cmpi .eq
          (broadcastInDim S2048x2x8 ![0, 1, 2] bcast_S2048x2x1_S2048x2x8_0_1_2
            (broadcastInDim S2048x2x1 ![0, 1] bcast_S2048x2_S2048x2x1_0_1
              (shapeCast S2048x2 a1 shapeCasts_S1x2048x2_S2048x2)))
          (broadcastInDim S2048x2x8 ![0, 1, 2] bcast_S1x1x8_S2048x2x8_0_1_2
            (broadcastInDim S1x1x8 ![2] bcast_S8_S1x1x8_2 (iotaInDim S8 32 0))))))
    (constant (F := Ideal) S_ .f32 0x00000000#32) reducesTo_S2048x2x8_S2048x8_d1 h_S_

/-- Entry (r, e) of the table is token r's routing weight for expert e. -/
theorem table_apply (a1 : (⟨S1x2048x2, .i32⟩ : BufTy).Contents (Elt Ideal)) (a2 : (⟨S1x2048x2, .f32⟩ : BufTy).Contents (Elt Ideal))
    (r : Fin 2048) (e : Fin 8) :
    table a1 a2 (ix2 r e)
      = Cert.Moe.route (fun k => a2 (ix3 (0 : Fin 1) r k)) (fun k => a1 (ix3 (0 : Fin 1) r k)) (BitVec.ofNat 32 e.val) := by
  unfold table
  rw [sum_slots]
  unfold Cert.Moe.route Cert.Moe.hot
  refine congrArg₂ (· + ·) Ideal.ofBits_zero_f32 (Finset.sum_congr rfl fun k _ => ?_)
  -- the product and the comparison are entry by entry
  show broadcastInDim S2048x2x8 ![0, 1, 2] bcast_S2048x2x1_S2048x2x8_0_1_2
        (broadcastInDim S2048x2x1 ![0, 1] bcast_S2048x2_S2048x2x1_0_1
          (shapeCast S2048x2 a2 shapeCasts_S1x2048x2_S2048x2)) (ix3 r k e)
      * (((IntOp.cmpi .eq
            (broadcastInDim S2048x2x8 ![0, 1, 2] bcast_S2048x2x1_S2048x2x8_0_1_2
              (broadcastInDim S2048x2x1 ![0, 1] bcast_S2048x2_S2048x2x1_0_1
                (shapeCast S2048x2 a1 shapeCasts_S1x2048x2_S2048x2)) (ix3 r k e))
            (broadcastInDim S2048x2x8 ![0, 1, 2] bcast_S1x1x8_S2048x2x8_0_1_2
              (broadcastInDim S1x1x8 ![2] bcast_S8_S1x1x8_2 (iotaInDim S8 32 0)) (ix3 r k e))).toNat : ℝ) : EReal)
      = _
  rw [along_experts, along_experts, expert_numbers, flatten_slots, flatten_slots]

/-! ### The four arrays -/

variable (m : (ℓ : Loc nD τ sig) → Buf (Elt Ideal) ℓ)

/-- The token features the kernel reads: entry (r, k) is the argument's entry (0, r, k). -/
theorem V_tokens (c : Dev nD) (r : Fin 2048) (k : Fin 2048) :
    (V m c main_v1 : S2048x2048.Idx → EReal) (ix2 r k)
      = (m ((c : Thread nD τ).loc main_arg0) : S1x2048x2048.Idx → EReal) (ix3 (0 : Fin 1) r k) := by
  have e1 : (V m c main_v1 : S2048x2048.Idx → EReal)
      = shapeCast S2048x2048 (m ((c : Thread nD τ).loc main_arg0) : S1x2048x2048.Idx → EReal)
          shapeCasts_S1x2048x2048_S2048x2048 := by
    show StableHlo.after hostOps0 (fun b => m (c, b)) (Proc.devRef .tc main_v1) = _
    after_results
    rfl
  rw [e1]
  exact flatten_tokens _ r k

/-- The stacked gate/up matrices the kernel reads are the argument's. -/
theorem V_gu (c : Dev nD) (e : Fin 8) (r : Fin 2816) (k : Fin 2048) :
    (V m c main_v15 : S8x2816x2048.Idx → EReal) (ix3 e r k)
      = (m ((c : Thread nD τ).loc main_arg3) : S8x2816x2048.Idx → EReal) (ix3 e r k) := by
  have e15 : (V m c main_v15 : S8x2816x2048.Idx → EReal)
      = (m ((c : Thread nD τ).loc main_arg3) : S8x2816x2048.Idx → EReal) := by
    show StableHlo.after hostOps0 (fun b => m (c, b)) (Proc.devRef .tc main_v15) = _
    after_results
    rfl
  rw [e15]

/-- The stacked down matrices the kernel reads are the argument's. -/
theorem V_dn (c : Dev nD) (e : Fin 8) (q : Fin 2048) (i : Fin 1408) :
    (V m c main_v16 : S8x2048x1408.Idx → EReal) (ix3 e q i)
      = (m ((c : Thread nD τ).loc main_arg4) : S8x2048x1408.Idx → EReal) (ix3 e q i) := by
  have e16 : (V m c main_v16 : S8x2048x1408.Idx → EReal)
      = (m ((c : Thread nD τ).loc main_arg4) : S8x2048x1408.Idx → EReal) := by
    show StableHlo.after hostOps0 (fun b => m (c, b)) (Proc.devRef .tc main_v16) = _
    after_results
    rfl
  rw [e16]

/-- The routing table the kernel reads: entry (r, e) is token r's routing weight for expert e. -/
theorem V_table (c : Dev nD) (r : Fin 2048) (e : Fin 8) :
    (V m c main_v14 : S2048x8.Idx → EReal) (ix2 r e)
      = Cert.Moe.route (fun k => (m ((c : Thread nD τ).loc main_arg2) : S1x2048x2.Idx → EReal) (ix3 (0 : Fin 1) r k))
          (fun k => (m ((c : Thread nD τ).loc main_arg1) : S1x2048x2.Idx → BitVec 32) (ix3 (0 : Fin 1) r k))
          (BitVec.ofNat 32 e.val) := by
  have e14 : (V m c main_v14 : S2048x8.Idx → EReal)
      = table (m ((c : Thread nD τ).loc main_arg1)) (m ((c : Thread nD τ).loc main_arg2)) := by
    show StableHlo.after hostOps0 (fun b => m (c, b)) (Proc.devRef .tc main_v14) = _
    after_results
    rfl
  rw [e14]
  exact table_apply _ _ r e

end Cert.KernelIdeal.MoeHost

end
-- ==== Proof.MoeRun.lean ====
/-
  The kernel's result array: the layer, token by token.

  The grid is (tile of 1024 tokens, expert), experts innermost. At grid point t = 8 T + e the windows show the body tile T of
  the tokens and of the routing table, and expert e's two matrices; the output tile T stays in place over the eight experts
  and is written back after the last. So after point t the output tile holds, at (p, f), the first e + 1 experts' weighted
  outputs for token 1024 T + p and feature f, summed in order from zero (by induction over the points, from the two cases of
  the body); the tile written back after expert 7 is the layer's rows 1024 T … 1024 T + 1023, and the two tiles cover the
  result.
-/
import proofs.«100520_j25288767439422_1_alg».proof.Proof.MoeCases
import proofs.«100520_j25288767439422_1_alg».proof.Proof.MoeMask
import proofs.«100520_j25288767439422_1_alg».proof.Proof.MoeHost
import Idealize.ShloMosaic.Lib.Pipeline.Value
import Idealize.ShloMosaic.Lib.StableHlo.Run
import Idealize.ShloMosaic.Lib.Tactic

set_option maxRecDepth 16384

noncomputable section

namespace Cert.KernelIdeal.MoeRun

open Idealize.ShloMosaic Idealize.ShloMosaic.TcCoe Idealize.ShloMosaic.Tactic Idealize.ShloMosaic.ValueIdx Idealize.SL.Sem
open Idealize.ShloMosaic.Pipeline (Dat)
open Cert.KernelIdeal Cert.KernelIdeal.Gen Cert.KernelIdeal.MoeChunk Cert.KernelIdeal.MoeTile Cert.KernelIdeal.MoeHost

variable (m : (ℓ : Loc nD τ sig) → Buf (Elt Ideal) ℓ) (ρ : Dev nD → PrngReg)

/-- The printed index maps and the expert coordinate, decided over the sixteen grid points: the token tile, the routing
    table's tile and the output tile are tile t / 8; the two weight blocks are expert t % 8; every other block index is 0. -/
theorem idx_facts : ∀ t : Fin cfg0.N,
    win0_0.index t (0 : Fin 2) = t.val / 8 ∧ win0_0.index t (1 : Fin 2) = 0
    ∧ win0_1.index t (0 : Fin 3) = t.val % 8 ∧ win0_1.index t (1 : Fin 3) = 0 ∧ win0_1.index t (2 : Fin 3) = 0
    ∧ win0_2.index t (0 : Fin 3) = t.val % 8 ∧ win0_2.index t (1 : Fin 3) = 0 ∧ win0_2.index t (2 : Fin 3) = 0
    ∧ win0_3.index t (0 : Fin 2) = t.val / 8 ∧ win0_3.index t (1 : Fin 2) = 0
    ∧ win0_4.index t (0 : Fin 2) = t.val / 8 ∧ win0_4.index t (1 : Fin 2) = 0
    ∧ ((grid0.coords t) 1).val = t.val % 8 :=
  (by decide +kernel : ∀ t : Fin grid0.N, _)

/-- The token that row p of the tile at point t is. -/
def tok (t : Fin cfg0.N) (p : Fin 1024) : Fin 2048 :=
  ⟨t.val / 8 * 1024 + p.val, by have h1 := t.isLt; have h2 : cfg0.N = 16 := N_0; have := p.isLt; omega⟩

/-- The expert of point t. -/
def ex (t : Fin cfg0.N) : Fin 8 := ⟨t.val % 8, Nat.mod_lt _ (by decide)⟩

/-! ## The windows' blocks at a point, read off the arrays the region finds -/

theorem iblk0_apply (c : Dev nD) (t : Fin cfg0.N) (p : Fin 1024) (k : Fin 2048) :
    (iblk m c 0 t : S1024x2048.Idx → EReal) (ix2 p k) = (V m c main_v1 : S2048x2048.Idx → EReal) (ix2 (tok t p) k) := by
  obtain ⟨e0, e1, -⟩ := idx_facts t
  show (V m c main_v1 : S2048x2048.Idx → EReal) (((cfg0.win 0).blk t).view.emb (ix2 p k)) = _
  refine congrArg _ (funext fun a => Fin.ext ?_)
  match a with
  | ⟨0, _⟩ => show win0_0.index t (0 : Fin 2) * 1024 + 1 * p.val = t.val / 8 * 1024 + p.val; rw [e0]; omega
  | ⟨1, _⟩ => show win0_0.index t (1 : Fin 2) * 2048 + 1 * k.val = k.val; rw [e1]; omega

theorem iblk1_apply (c : Dev nD) (t : Fin cfg0.N) (r : Fin 2816) (k : Fin 2048) :
    (iblk m c 1 t : S1x2816x2048.Idx → EReal) (ix3 (0 : Fin 1) r k) = (V m c main_v15 : S8x2816x2048.Idx → EReal) (ix3 (ex t) r k) := by
  obtain ⟨-, -, e0, e1, e2, -⟩ := idx_facts t
  show (V m c main_v15 : S8x2816x2048.Idx → EReal) (((cfg0.win 1).blk t).view.emb (ix3 (0 : Fin 1) r k)) = _
  refine congrArg _ (funext fun a => Fin.ext ?_)
  match a with
  | ⟨0, _⟩ => show win0_1.index t (0 : Fin 3) * 1 + 1 * 0 = t.val % 8; rw [e0]; omega
  | ⟨1, _⟩ => show win0_1.index t (1 : Fin 3) * 2816 + 1 * r.val = r.val; rw [e1]; omega
  | ⟨2, _⟩ => show win0_1.index t (2 : Fin 3) * 2048 + 1 * k.val = k.val; rw [e2]; omega

theorem iblk2_apply (c : Dev nD) (t : Fin cfg0.N) (q : Fin 2048) (i : Fin 1408) :
    (iblk m c 2 t : S1x2048x1408.Idx → EReal) (ix3 (0 : Fin 1) q i) = (V m c main_v16 : S8x2048x1408.Idx → EReal) (ix3 (ex t) q i) := by
  obtain ⟨-, -, -, -, -, e0, e1, e2, -⟩ := idx_facts t
  show (V m c main_v16 : S8x2048x1408.Idx → EReal) (((cfg0.win 2).blk t).view.emb (ix3 (0 : Fin 1) q i)) = _
  refine congrArg _ (funext fun a => Fin.ext ?_)
  match a with
  | ⟨0, _⟩ => show win0_2.index t (0 : Fin 3) * 1 + 1 * 0 = t.val % 8; rw [e0]; omega
  | ⟨1, _⟩ => show win0_2.index t (1 : Fin 3) * 2048 + 1 * q.val = q.val; rw [e1]; omega
  | ⟨2, _⟩ => show win0_2.index t (2 : Fin 3) * 1408 + 1 * i.val = i.val; rw [e2]; omega

theorem iblk3_apply (c : Dev nD) (t : Fin cfg0.N) (p : Fin 1024) (e : Fin 8) :
    (iblk m c 3 t : S1024x8.Idx → EReal) (ix2 p e) = (V m c main_v14 : S2048x8.Idx → EReal) (ix2 (tok t p) e) := by
  obtain ⟨-, -, -, -, -, -, -, -, e0, e1, -⟩ := idx_facts t
  show (V m c main_v14 : S2048x8.Idx → EReal) (((cfg0.win 3).blk t).view.emb (ix2 p e)) = _
  refine congrArg _ (funext fun a => Fin.ext ?_)
  match a with
  | ⟨0, _⟩ => show win0_3.index t (0 : Fin 2) * 1024 + 1 * p.val = t.val / 8 * 1024 + p.val; rw [e0]; omega
  | ⟨1, _⟩ => show win0_3.index t (1 : Fin 2) * 8 + 1 * e.val = e.val; rw [e1]; omega

/-! ## The running sum over the experts -/

/-- Token r's and feature f's first n experts, weighted and summed in order from zero, from the argument arrays. -/
def part (c : Dev nD) (n : ℕ) (hn : n ≤ 8) (r : Fin 2048) (f : Fin 2048) : EReal :=
  Cert.Moe.mix (fun k => ((m ((c : Thread nD τ).loc main_arg0)) : S1x2048x2048.Idx → EReal) (ix3 (0 : Fin 1) r k))
    (fun k => ((m ((c : Thread nD τ).loc main_arg2)) : S1x2048x2.Idx → EReal) (ix3 (0 : Fin 1) r k))
    (fun k => ((m ((c : Thread nD τ).loc main_arg1)) : S1x2048x2.Idx → BitVec 32) (ix3 (0 : Fin 1) r k))
    (fun e r' k => ((m ((c : Thread nD τ).loc main_arg3)) : S8x2816x2048.Idx → EReal) (ix3 e r' k))
    (fun e i => ((m ((c : Thread nD τ).loc main_arg4)) : S8x2048x1408.Idx → EReal) (ix3 e f i)) n hn

theorem part_zero (c : Dev nD) (h : 0 ≤ 8) (r f : Fin 2048) : part m c 0 h r f = 0 := rfl

/-- One grid point adds its expert's weighted output: over blocks that read the arrays at token r and expert k, the tile
    function takes the running sum of the first k experts to the running sum of the first k + 1. -/
theorem point_step (c : Dev nD) (k : ℕ) (hk : k + 1 ≤ 8) (r : Fin 2048) (cw : BitVec 32) (hcw : cw = BitVec.ofNat 32 k)
    (x0 : S1024x2048.Idx → EReal) (x1 : S1x2816x2048.Idx → EReal) (x2 : S1x2048x1408.Idx → EReal) (x3 : S1024x8.Idx → EReal)
    (xo : S1024x2048.Idx → EReal) (p : Fin 1024) (f : Fin 2048)
    (h0 : ∀ kk : Fin 2048, x0 (ix2 p kk) = ((m ((c : Thread nD τ).loc main_arg0)) : S1x2048x2048.Idx → EReal) (ix3 (0 : Fin 1) r kk))
    (h1 : ∀ (r' : Fin 2816) (kk : Fin 2048), x1 (ix3 (0 : Fin 1) r' kk) = ((m ((c : Thread nD τ).loc main_arg3)) : S8x2816x2048.Idx → EReal) (ix3 (⟨k, hk⟩ : Fin 8) r' kk))
    (h2 : ∀ i : Fin 1408, x2 (ix3 (0 : Fin 1) f i) = ((m ((c : Thread nD τ).loc main_arg4)) : S8x2048x1408.Idx → EReal) (ix3 (⟨k, hk⟩ : Fin 8) f i))
    (h3 : ∀ e' : Fin 8, x3 (ix2 p e') = Cert.Moe.route (fun k => ((m ((c : Thread nD τ).loc main_arg2)) : S1x2048x2.Idx → EReal) (ix3 (0 : Fin 1) r k)) (fun k => ((m ((c : Thread nD τ).loc main_arg1)) : S1x2048x2.Idx → BitVec 32) (ix3 (0 : Fin 1) r k)) (BitVec.ofNat 32 e'.val))
    (hxo : xo (ix2 p f) = part m c k (Nat.le_of_succ_le hk) r f) :
    tileStep cw x0 x1 x2 x3 xo (ix2 p f) = part m c (k + 1) hk r f := by
  subst hcw
  show xo (ix2 p f) + (∑ e' : Fin 8, x3 (ix2 p e') * pick e' (BitVec.ofNat 32 k))
      * Cert.Moe.expert (fun kk => x0 (ix2 p kk)) (fun r' kk => x1 (ix3 (0 : Fin 1) r' kk)) (fun i => x2 (ix3 (0 : Fin 1) f i))
    = part m c k (Nat.le_of_succ_le hk) r f
      + Cert.Moe.route (fun k => ((m ((c : Thread nD τ).loc main_arg2)) : S1x2048x2.Idx → EReal) (ix3 (0 : Fin 1) r k)) (fun k => ((m ((c : Thread nD τ).loc main_arg1)) : S1x2048x2.Idx → BitVec 32) (ix3 (0 : Fin 1) r k)) (BitVec.ofNat 32 k)
        * Cert.Moe.expert (fun k => ((m ((c : Thread nD τ).loc main_arg0)) : S1x2048x2048.Idx → EReal) (ix3 (0 : Fin 1) r k))
            (fun r' kk => ((m ((c : Thread nD τ).loc main_arg3)) : S8x2816x2048.Idx → EReal) (ix3 (⟨k, hk⟩ : Fin 8) r' kk))
            (fun i => ((m ((c : Thread nD τ).loc main_arg4)) : S8x2048x1408.Idx → EReal) (ix3 (⟨k, hk⟩ : Fin 8) f i))
  refine congrArg₂ (· + ·) hxo (congrArg₂ (· * ·) ?_ ?_)
  · simp only [h3]
    exact pick_sum (fun e' : Fin 8 => Cert.Moe.route (fun k => ((m ((c : Thread nD τ).loc main_arg2)) : S1x2048x2.Idx → EReal) (ix3 (0 : Fin 1) r k)) (fun k => ((m ((c : Thread nD τ).loc main_arg1)) : S1x2048x2.Idx → BitVec 32) (ix3 (0 : Fin 1) r k)) (BitVec.ofNat 32 e'.val)) (⟨k, hk⟩ : Fin 8)
  · simp only [h0, h1, h2]

/-- The running sum with plain numbers for the count, the token and the feature (zero outside their ranges). -/
def partR (c : Dev nD) (k r f : ℕ) : EReal :=
  if h : k ≤ 8 ∧ r < 2048 ∧ f < 2048 then part m c k h.1 ⟨r, h.2.1⟩ ⟨f, h.2.2⟩ else 0

theorem partR_eq (c : Dev nD) (k : ℕ) (hk : k ≤ 8) (r f : Fin 2048) : partR m c k r.val f.val = part m c k hk r f := by
  unfold partR; rw [dif_pos ⟨hk, r.isLt, f.isLt⟩]

theorem partR_zero (c : Dev nD) (r f : ℕ) : partR m c 0 r f = 0 := by
  unfold partR; split <;> rfl

/-- The tile after point t, from the tile before it: the running sums grow by the point's expert. -/
theorem tile_after (c : Dev nD) (t : Fin cfg0.N) (xo : S1024x2048.Idx → EReal)
    (hxo : ∀ y : S1024x2048.Idx, xo y = partR m c (t.val % 8) (t.val / 8 * 1024 + (y 0).val) (y 1).val) (y : S1024x2048.Idx) :
    tileStep (BitVec.ofNat 32 ((grid0.coords t) 1).val) (iblk m c 0 t) (iblk m c 1 t) (iblk m c 2 t) (iblk m c 3 t) xo y
      = partR m c (t.val % 8 + 1) (t.val / 8 * 1024 + (y 0).val) (y 1).val := by
  have hk : t.val % 8 + 1 ≤ 8 := by have := Nat.mod_lt t.val (by decide : 0 < 8); omega
  obtain ⟨-, -, -, -, -, -, -, -, -, -, -, -, ec⟩ := idx_facts t
  have hy : y = ix2 (⟨(y 0).val, (y 0).isLt⟩ : Fin 1024) (⟨(y 1).val, (y 1).isLt⟩ : Fin 2048) :=
    funext fun a => by match a with | ⟨0, _⟩ => rfl | ⟨1, _⟩ => rfl
  have h1 := point_step m c (t.val % 8) hk (tok t ⟨(y 0).val, (y 0).isLt⟩) (BitVec.ofNat 32 ((grid0.coords t) 1).val)
    (congrArg (BitVec.ofNat 32) ec) (iblk m c 0 t) (iblk m c 1 t) (iblk m c 2 t) (iblk m c 3 t) xo
    ⟨(y 0).val, (y 0).isLt⟩ ⟨(y 1).val, (y 1).isLt⟩
    (fun kk => (iblk0_apply m c t _ kk).trans (V_tokens m c _ kk))
    (fun r' kk => (iblk1_apply m c t r' kk).trans (V_gu m c (ex t) r' kk))
    (fun i => (iblk2_apply m c t _ i).trans (V_dn m c (ex t) _ i))
    (fun e' => (iblk3_apply m c t _ e').trans (V_table m c _ e'))
    (by rw [← hy, hxo y]; exact partR_eq m c (t.val % 8) (Nat.le_of_succ_le hk) (tok t ⟨(y 0).val, (y 0).isLt⟩) ⟨(y 1).val, (y 1).isLt⟩)
  rw [← hy] at h1
  exact h1.trans (partR_eq m c (t.val % 8 + 1) hk (tok t ⟨(y 0).val, (y 0).isLt⟩) ⟨(y 1).val, (y 1).isLt⟩).symm

/-! ## After every grid point -/

theorem after_A (c : Dev nD) (t : Fin cfg0.N) (h0 : t.val % 8 = 0) :
    outsAt0 m c t.val t.isLt = fun y => partR m c (t.val % 8 + 1) (t.val / 8 * 1024 + (y 0).val) (y 1).val := by
  refine (outsAt0_A m c t h0).trans ((out_A c (grid0.coords t) (ms0_0 t) (hs0_0 t) (ms0_1 t) (hs0_1 t) (ms0_2 t) (hs0_2 t)
    (ms0_3 t) (hs0_3 t) (ms0_4 t) (hs0_4 t) ((hcond0_0 t).mpr h0) (iblk m c 0 t) (iblk m c 1 t) (iblk m c 2 t) (iblk m c 3 t)).trans
    (funext fun y => ?_))
  exact tile_after m c t (fun _ => 0) (fun y' => by rw [h0]; exact (partR_zero m c _ _).symm) y

theorem after_B (c : Dev nD) (t : Fin cfg0.N) (h0 : ¬t.val % 8 = 0) (hlt : t.val - 1 < cfg0.N)
    (ih : outsAt0 m c (t.val - 1) hlt
      = fun y => partR m c ((t.val - 1) % 8 + 1) ((t.val - 1) / 8 * 1024 + (y 0).val) (y 1).val) :
    outsAt0 m c t.val t.isLt = fun y => partR m c (t.val % 8 + 1) (t.val / 8 * 1024 + (y 0).val) (y 1).val := by
  refine (outsAt0_B m c t h0).trans ((out_B c (grid0.coords t) (ms0_0 t) (hs0_0 t) (ms0_1 t) (hs0_1 t) (ms0_2 t) (hs0_2 t)
    (ms0_3 t) (hs0_3 t) (ms0_4 t) (hs0_4 t) (fun h => h0 ((hcond0_0 t).mp h)) (iblk m c 0 t) (iblk m c 1 t) (iblk m c 2 t) (iblk m c 3 t)
    (outsAt0 m c (t.val - 1) (Nat.lt_of_le_of_lt (Nat.sub_le _ _) t.isLt))).trans (funext fun y => ?_))
  refine tile_after m c t _ (fun y' => ?_) y
  have e1 : (t.val - 1) % 8 + 1 = t.val % 8 := by omega
  have e2 : (t.val - 1) / 8 = t.val / 8 := by omega
  rw [← e1, ← e2]
  exact congrFun ih y'

/-- After grid point n the output tile holds, at (p, f), the running sum through the point's expert for the tile's token p. -/
theorem outsAt_eq (c : Dev nD) : ∀ (n : ℕ) (t : Fin cfg0.N), t.val = n →
    outsAt0 m c t.val t.isLt = fun y => partR m c (t.val % 8 + 1) (t.val / 8 * 1024 + (y 0).val) (y 1).val := by
  intro n
  induction n with
  | zero => intro t ht; exact after_A m c t (by omega)
  | succ n ih =>
    intro t ht
    by_cases h0 : t.val % 8 = 0
    · exact after_A m c t h0
    · have hlt : t.val - 1 < cfg0.N := Nat.lt_of_le_of_lt (Nat.sub_le _ _) t.isLt
      exact after_B m c t h0 hlt (ih ⟨t.val - 1, hlt⟩ (by show t.val - 1 = n; omega))

/-! ## The result array -/

/-- The region's result array: at (r, f) the eight experts' weighted outputs for token r and feature f, summed in order. -/
def result17 (c : Dev nD) : S2048x2048.Idx → EReal := fun j => partR m c 8 (j 0).val (j 1).val

/-- The tile written back after a tile's last expert is the result's block there. -/
theorem flushed_eq (c : Dev nD) (t : Fin cfg0.N) (hf : (cfg0.win 4).flush t = true) :
    (dats m 0 c).flushed 4 t = ((cfg0.win 4).blk t).view.read (Elt Ideal) (result17 m c) := by
  have h7 : t.val % 8 = 7 := (flush0_4 t).mp hf
  obtain ⟨-, -, -, -, -, -, -, -, -, -, e0, e1, -⟩ := idx_facts t
  show (cfg0.win 4).cut (grid0.coords t) ((dats m 0 c).after 4 t) = _
  rw [after0_4, outsAt_eq m c t.val t rfl]
  funext y
  show partR m c (t.val % 8 + 1) (t.val / 8 * 1024 + (y 0).val) (y 1).val
    = partR m c 8 ((((cfg0.win 4).blk t).view.emb y) 0).val ((((cfg0.win 4).blk t).view.emb y) 1).val
  have a0 : ((((cfg0.win 4).blk t).view.emb y) 0).val = t.val / 8 * 1024 + (y 0).val := by
    show win0_4.index t (0 : Fin 2) * 1024 + 1 * (y 0).val = _; rw [e0]; omega
  have a1 : ((((cfg0.win 4).blk t).view.emb y) 1).val = (y 1).val := by
    show win0_4.index t (1 : Fin 2) * 2048 + 1 * (y 1).val = _; rw [e1]; omega
  rw [a0, a1, h7]

/-- An index of the result array is in point t's output block iff each coordinate is in the block's range on its axis. -/
theorem mem_blk (t : Fin cfg0.N) (i : S2048x2048.Idx) :
    i ∈ ((cfg0.win 4).blk t).view.set ↔ ∀ a : Fin 2, win0_4.index t a * S1024x2048.size a ≤ (i a).val
      ∧ (i a).val < win0_4.index t a * S1024x2048.size a + S1024x2048.size a := by
  show i ∈ ((View.whole main_v17).slice (win0_4.rect t)).set ↔ _
  rw [View.set_slice_whole, Rect.mem_set_unit]
  exact Iff.rfl

/-- Every entry of the result is in the block written back after its tile's last expert. -/
theorem covered (i : S2048x2048.Idx) :
    ∃ t : Fin cfg0.N, (cfg0.win 4).flush t = true ∧ i ∈ ((cfg0.win 4).blk t).view.set := by
  have hi0 : (i 0).val < 2048 := (i 0).isLt
  have hi1 : (i 1).val < 2048 := (i 1).isLt
  have hN : cfg0.N = 16 := N_0
  have hlt : (i 0).val / 1024 * 8 + 7 < cfg0.N := by omega
  obtain ⟨-, -, -, -, -, -, -, -, -, -, e0, e1, -⟩ := idx_facts ⟨(i 0).val / 1024 * 8 + 7, hlt⟩
  refine ⟨⟨(i 0).val / 1024 * 8 + 7, hlt⟩, (flush0_4 _).mpr (by show ((i 0).val / 1024 * 8 + 7) % 8 = 7; omega), ?_⟩
  rw [mem_blk]
  intro a
  match a with
  | ⟨0, _⟩ =>
    show win0_4.index ⟨(i 0).val / 1024 * 8 + 7, hlt⟩ (0 : Fin 2) * 1024 ≤ (i 0).val
      ∧ (i 0).val < win0_4.index ⟨(i 0).val / 1024 * 8 + 7, hlt⟩ (0 : Fin 2) * 1024 + 1024
    rw [e0]
    show ((i 0).val / 1024 * 8 + 7) / 8 * 1024 ≤ (i 0).val ∧ (i 0).val < ((i 0).val / 1024 * 8 + 7) / 8 * 1024 + 1024
    omega
  | ⟨1, _⟩ =>
    show win0_4.index ⟨(i 0).val / 1024 * 8 + 7, hlt⟩ (1 : Fin 2) * 2048 ≤ (i 1).val
      ∧ (i 1).val < win0_4.index ⟨(i 0).val / 1024 * 8 + 7, hlt⟩ (1 : Fin 2) * 2048 + 2048
    rw [e1]
    omega

/-- So the region's result array ends at the layer's values. -/
theorem final (c : Dev nD) : (dats m 0 c).arrAt 4 cfg0.N = result17 m c :=
  (dats m 0 c).arrAt_eq_of_cover 4 (result17 m c) (flushed_eq m c) covered

/-- The program's result: the region's array, reshaped to [1, 2048, 2048] by the one host operation after the region. -/
theorem tail_eq (c : Dev nD) :
    Pipeline.afterTail₀ cfgs (dats m) 0 (V0 m) [hostOps1] c main_v18
      = shapeCast S1x2048x2048 (result17 m c) shapeCasts_S2048x2048_S1x2048x2048 := by
  have hw : Pipeline.withArrays (cfgs 0).spec c (V0 m c) (fun w => (dats m 0 c).arrAt w (cfgs 0).N) (Proc.devRef .tc main_v17)
      = result17 m c :=
    (Pipeline.withArrays_arr spec0 launch0.win.arr_inj c _ _ 4).trans (final m c)
  unfold Pipeline.afterTail₀
  show StableHlo.after hostOps1 _ (Proc.devRef .tc main_v18) = _
  after_results
  exact (show _ = shapeCast S1x2048x2048 (Pipeline.withArrays (cfgs 0).spec c (V0 m c)
      (fun w => (dats m 0 c).arrAt w (cfgs 0).N) (Proc.devRef .tc main_v17)) shapeCasts_S2048x2048_S1x2048x2048 from rfl).trans
    (congrArg (fun A => shapeCast S1x2048x2048 A shapeCasts_S2048x2048_S1x2048x2048) hw)

/-- Reshaped, the result array is the layer of the argument arrays. -/
theorem layer_eq (c : Dev nD) :
    shapeCast S1x2048x2048 (result17 m c) shapeCasts_S2048x2048_S1x2048x2048
      = Cert.Moe.layer ((m ((c : Thread nD τ).loc main_arg0)) : S1x2048x2048.Idx → EReal) ((m ((c : Thread nD τ).loc main_arg1)) : S1x2048x2.Idx → BitVec 32) ((m ((c : Thread nD τ).loc main_arg2)) : S1x2048x2.Idx → EReal) ((m ((c : Thread nD τ).loc main_arg3)) : S8x2816x2048.Idx → EReal) ((m ((c : Thread nD τ).loc main_arg4)) : S8x2048x1408.Idx → EReal) := by
  funext j
  refine (shapeCast_addUnit_apply ![2048, 2048] (result17 m c) shapeCasts_S2048x2048_S1x2048x2048 j).trans ?_
  have h1 : (j 1).val < 2048 := (j 1).isLt
  have h2 : (j 2).val < 2048 := (j 2).isLt
  show partR m c 8 (j 1).val (j 2).val = _
  refine (partR_eq m c 8 le_rfl ⟨(j 1).val, h1⟩ ⟨(j 2).val, h2⟩).trans ?_
  rfl

/-- The kernel program's run, read: the result at the layer of the arguments, the arguments unchanged. -/
theorem run : θ_run defs (onTc (τ := τ) (main (F := Ideal))) ⟨m, fun _ => 0, ρ⟩ (fun r => ∀ c : Dev nD,
      r.2.mem ((c.tc : Thread nD τ).loc main_v18) = Cert.Moe.layer ((m ((c : Thread nD τ).loc main_arg0)) : S1x2048x2048.Idx → EReal) ((m ((c : Thread nD τ).loc main_arg1)) : S1x2048x2.Idx → BitVec 32) ((m ((c : Thread nD τ).loc main_arg2)) : S1x2048x2.Idx → EReal) ((m ((c : Thread nD τ).loc main_arg3)) : S8x2816x2048.Idx → EReal) ((m ((c : Thread nD τ).loc main_arg4)) : S8x2048x1408.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v18 (Pipeline.mem_restRefs_of main_v18 (by decide) (by decide))).trans ((tail_eq m c).trans (layer_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.MoeRun

end
-- ==== Proof.RefLayer.lean ====
/-
  The reference program's result, read stage by stage at an index, is the mixture-of-experts layer Cert.Moe.layer.

  The reference treats its eight experts one after another with the same operations. For expert e and a token t:
  * its routing weight is a sum over the token's two routing slots of weight times (slot index = e), started from the
    zero constant: Cert.Moe.route;
  * slice [e] of the stacked gate/up matrices, flattened and transposed, is contracted with the token's feature row:
    entry (t, r) of that product is Cert.Moe.proj at row r;
  * the first 1408 columns (gate) go through x * (1 / (1 + exp (-x))), written out with host operations, and are
    multiplied by the last 1408 columns (up): Cert.Moe.act, since logistic x is by definition 1 / (1 + exp (-x));
  * slice [e] of the stacked down matrices, flattened and transposed, is contracted with the hidden units:
    Cert.Moe.expert;
  * the routing weight, broadcast along the feature axis, times that output is added to the previous experts' sum
    (the zero array before expert 0): one more step of Cert.Moe.mix.
  Every lemma is stated at explicit coordinates (token t, feature f, row r); the index functions composed by the
  reshapes, transposes, slices and broadcasts are identified with the coordinates by arithmetic on the row-major
  offsets (t * 2048 + k) / 2048 % 2048 = t and the like. No algebraic law is used: both sides are the same sums in
  the same order.
-/
import proofs.«100520_j25288767439422_1_alg».proof.Proof.RefReadP
import proofs.«100520_j25288767439422_1_alg».proof.Proof.MoeSpec

noncomputable section

namespace Cert.ReferenceIdeal.RefValue

open Cert.ReferenceIdeal Cert.ReferenceIdeal.Gen Cert.ReferenceIdeal.ReadP Idealize.ShloMosaic Idealize.ShloMosaic.ValueIdx

/-! ### Expert 0 -/

/-- The routing weight of token t for expert 0: the two slots' weights where the slot's index is 0, summed from zero. -/
theorem route0 (x1 : (⟨S1x2048x2, .i32⟩ : BufTy).Contents (Elt Ideal)) (x2 : (⟨S1x2048x2, .f32⟩ : BufTy).Contents (Elt Ideal)) (t : Fin 2048) :
    val_main_v8 (F := Ideal) x1 x2 (ix1 t)
      = Cert.Moe.route (fun k => x2 (ix3 (0 : Fin 1) t k)) (fun k => x1 (ix3 (0 : Fin 1) t k)) (BitVec.ofNat 32 0) := by
  rw [val_main_v8_apply]
  unfold Cert.Moe.route Cert.Moe.hot
  refine congrArg₂ (· + ·) ?_ (Finset.sum_congr rfl fun k _ => ?_)
  · rw [val_main_cst_0_apply]; exact Ideal.ofBits_zero_f32
  · have ht := t.isLt
    have hk := k.isLt
    -- slot k of token t in the flattened [2048, 2] table is entry (0, t, k) of the argument
    have e1 : idx_main_v1 (idx_main_v8 (ix1 t) k) = ix3 (0 : Fin 1) t k := funext fun a => Fin.ext (by
      match a with
      | ⟨0, _⟩ => rfl
      | ⟨1, _⟩ => show (t.val * 2 + k.val) / 2 % 2048 = t.val; omega
      | ⟨2, _⟩ => show (t.val * 2 + k.val) % 2 = k.val; omega)
    have e2 : idx_main_v2 (idx_main_v8 (ix1 t) k) = ix3 (0 : Fin 1) t k := e1
    rw [val_main_v7_apply, val_main_v6_apply, val_main_v5_apply, val_main_v2_apply, val_main_v1_apply, val_main_v4_apply,
      val_main_c_apply, e1, e2]
    rfl

/-- Row r of expert 0's gate/up matrix against token t's features. -/
theorem proj0 (x0 : (⟨S1x2048x2048, .f32⟩ : BufTy).Contents (Elt Ideal)) (x3 : (⟨S8x2816x2048, .f32⟩ : BufTy).Contents (Elt Ideal)) (t : Fin 2048) (r : Fin 2816) :
    val_main_v12 (F := Ideal) x0 x3 (ix2 t r)
      = Cert.Moe.proj (fun k => x0 (ix3 (0 : Fin 1) t k)) (fun r k => x3 (ix3 (0 : Fin 8) r k)) r := by
  rw [val_main_v12_apply]
  unfold Cert.Moe.proj
  refine Finset.sum_congr rfl fun k _ => ?_
  have ht := t.isLt
  have hr := r.isLt
  have hk := k.isLt
  have e0 : idx_main_v0 (lidx_main_v12 (ix2 t r) k) = ix3 (0 : Fin 1) t k := funext fun a => Fin.ext (by
    match a with
    | ⟨0, _⟩ => rfl
    | ⟨1, _⟩ => show (t.val * 2048 + k.val) / 2048 % 2048 = t.val; omega
    | ⟨2, _⟩ => show (t.val * 2048 + k.val) % 2048 = k.val; omega)
  -- the transposed, flattened slice [0] of the stacked matrices at (k, r) is entry (0, r, k)
  have e3 : idx_main_v9 (idx_main_v10 (idx_main_v11 (ridx_main_v12 (ix2 t r) k))) = ix3 (0 : Fin 8) r k :=
    funext fun a => Fin.ext (by
      match a with
      | ⟨0, _⟩ => rfl
      | ⟨1, _⟩ => show (r.val * 2048 + k.val) / 2048 % 2816 = r.val; omega
      | ⟨2, _⟩ => show (r.val * 2048 + k.val) % 2048 = k.val; omega)
  rw [val_main_v0_apply, val_main_v11_apply, val_main_v10_apply, val_main_v9_apply, e0, e3]

/-- Expert 0's output for token t at output feature f. -/
theorem expert0 (x0 : (⟨S1x2048x2048, .f32⟩ : BufTy).Contents (Elt Ideal)) (x3 : (⟨S8x2816x2048, .f32⟩ : BufTy).Contents (Elt Ideal)) (x4 : (⟨S8x2048x1408, .f32⟩ : BufTy).Contents (Elt Ideal)) (t f : Fin 2048) :
    val_main_v20 (F := Ideal) x0 x3 x4 (ix2 t f)
      = Cert.Moe.expert (fun k => x0 (ix3 (0 : Fin 1) t k)) (fun r k => x3 (ix3 (0 : Fin 8) r k))
          (fun i => x4 (ix3 (0 : Fin 8) f i)) := by
  rw [val_main_v20_apply]
  unfold Cert.Moe.expert
  refine Finset.sum_congr rfl fun i _ => ?_
  have hf := f.isLt
  have hi := i.isLt
  -- hidden unit i reads the projection at rows i (gate) and 1408 + i (up)
  have eg : idx_main_v13 (lidx_main_v20 (ix2 t f) i) = ix2 t (Cert.Moe.gateRow i) := funext fun a => Fin.ext (by
    match a with
    | ⟨0, _⟩ => rfl
    | ⟨1, _⟩ => rfl)
  have eu : idx_main_v14 (lidx_main_v20 (ix2 t f) i) = ix2 t (Cert.Moe.upRow i) := funext fun a => Fin.ext (by
    match a with
    | ⟨0, _⟩ => rfl
    | ⟨1, _⟩ => rfl)
  -- the transposed, flattened slice [0] of the stacked down matrices at (i, f) is entry (0, f, i)
  have ed : idx_main_v17 (idx_main_v18 (idx_main_v19 (ridx_main_v20 (ix2 t f) i))) = ix3 (0 : Fin 8) f i :=
    funext fun a => Fin.ext (by
      match a with
      | ⟨0, _⟩ => rfl
      | ⟨1, _⟩ => show (f.val * 1408 + i.val) / 1408 % 2048 = f.val; omega
      | ⟨2, _⟩ => show (f.val * 1408 + i.val) % 1408 = i.val; omega)
  have one : FloatOps.ofBits (F := Ideal) .f32 0x3F800000#32 = (1 : EReal) := IdealRules.sign_bit.ideal_onePat .f32
  rw [val_main_v16_apply, val_main_v15_apply, val_main_call0_v5_apply, val_main_call0_v4_apply, val_main_call0_cst_0_apply,
    val_main_call0_v3_apply, val_main_call0_v2_apply, val_main_call0_cst_apply, val_main_call0_v1_apply, val_main_call0_v0_apply,
    val_main_v13_apply, val_main_v14_apply, eg, eu, proj0, proj0,
    val_main_v19_apply, val_main_v18_apply, val_main_v17_apply, ed, one]
  rfl

/-- After expert 0: the first 1 experts' weighted outputs, summed in order from zero. -/
theorem step0 (x0 : (⟨S1x2048x2048, .f32⟩ : BufTy).Contents (Elt Ideal)) (x1 : (⟨S1x2048x2, .i32⟩ : BufTy).Contents (Elt Ideal)) (x2 : (⟨S1x2048x2, .f32⟩ : BufTy).Contents (Elt Ideal)) (x3 : (⟨S8x2816x2048, .f32⟩ : BufTy).Contents (Elt Ideal)) (x4 : (⟨S8x2048x1408, .f32⟩ : BufTy).Contents (Elt Ideal)) (t f : Fin 2048) :
    val_main_v24 (F := Ideal) x0 x1 x2 x3 x4 (ix2 t f)
      = Cert.Moe.mix (fun k => x0 (ix3 (0 : Fin 1) t k)) (fun k => x2 (ix3 (0 : Fin 1) t k))
          (fun k => x1 (ix3 (0 : Fin 1) t k)) (fun e r k => x3 (ix3 e r k)) (fun e i => x4 (ix3 e f i)) 1 (by omega) := by
  have ew : idx_main_v21 (idx_main_v22 (ix2 t f)) = ix1 t := funext fun a => Fin.ext (by
    match a with
    | ⟨0, _⟩ => rfl)
  rw [Cert.Moe.mix, val_main_v24_apply, val_main_v23_apply, val_main_v22_apply, val_main_v21_apply, ew, route0, expert0,
    val_main_v3_apply, val_main_cst_apply, Cert.Moe.mix]
  exact congrArg (· + _) Ideal.ofBits_zero_f32

/-! ### Expert 1 -/

/-- The routing weight of token t for expert 1: the two slots' weights where the slot's index is 1, summed from zero. -/
theorem route1 (x1 : (⟨S1x2048x2, .i32⟩ : BufTy).Contents (Elt Ideal)) (x2 : (⟨S1x2048x2, .f32⟩ : BufTy).Contents (Elt Ideal)) (t : Fin 2048) :
    val_main_v29 (F := Ideal) x1 x2 (ix1 t)
      = Cert.Moe.route (fun k => x2 (ix3 (0 : Fin 1) t k)) (fun k => x1 (ix3 (0 : Fin 1) t k)) (BitVec.ofNat 32 1) := by
  rw [val_main_v29_apply]
  unfold Cert.Moe.route Cert.Moe.hot
  refine congrArg₂ (· + ·) ?_ (Finset.sum_congr rfl fun k _ => ?_)
  · rw [val_main_cst_2_apply]; exact Ideal.ofBits_zero_f32
  · have ht := t.isLt
    have hk := k.isLt
    -- slot k of token t in the flattened [2048, 2] table is entry (0, t, k) of the argument
    have e1 : idx_main_v1 (idx_main_v29 (ix1 t) k) = ix3 (0 : Fin 1) t k := funext fun a => Fin.ext (by
      match a with
      | ⟨0, _⟩ => rfl
      | ⟨1, _⟩ => show (t.val * 2 + k.val) / 2 % 2048 = t.val; omega
      | ⟨2, _⟩ => show (t.val * 2 + k.val) % 2 = k.val; omega)
    have e2 : idx_main_v2 (idx_main_v29 (ix1 t) k) = ix3 (0 : Fin 1) t k := e1
    rw [val_main_v28_apply, val_main_v27_apply, val_main_v26_apply, val_main_v2_apply, val_main_v1_apply, val_main_v25_apply,
      val_main_c_1_apply, e1, e2]
    rfl

/-- Row r of expert 1's gate/up matrix against token t's features. -/
theorem proj1 (x0 : (⟨S1x2048x2048, .f32⟩ : BufTy).Contents (Elt Ideal)) (x3 : (⟨S8x2816x2048, .f32⟩ : BufTy).Contents (Elt Ideal)) (t : Fin 2048) (r : Fin 2816) :
    val_main_v33 (F := Ideal) x0 x3 (ix2 t r)
      = Cert.Moe.proj (fun k => x0 (ix3 (0 : Fin 1) t k)) (fun r k => x3 (ix3 (1 : Fin 8) r k)) r := by
  rw [val_main_v33_apply]
  unfold Cert.Moe.proj
  refine Finset.sum_congr rfl fun k _ => ?_
  have ht := t.isLt
  have hr := r.isLt
  have hk := k.isLt
  have e0 : idx_main_v0 (lidx_main_v33 (ix2 t r) k) = ix3 (0 : Fin 1) t k := funext fun a => Fin.ext (by
    match a with
    | ⟨0, _⟩ => rfl
    | ⟨1, _⟩ => show (t.val * 2048 + k.val) / 2048 % 2048 = t.val; omega
    | ⟨2, _⟩ => show (t.val * 2048 + k.val) % 2048 = k.val; omega)
  -- the transposed, flattened slice [1] of the stacked matrices at (k, r) is entry (1, r, k)
  have e3 : idx_main_v30 (idx_main_v31 (idx_main_v32 (ridx_main_v33 (ix2 t r) k))) = ix3 (1 : Fin 8) r k :=
    funext fun a => Fin.ext (by
      match a with
      | ⟨0, _⟩ => rfl
      | ⟨1, _⟩ => show (r.val * 2048 + k.val) / 2048 % 2816 = r.val; omega
      | ⟨2, _⟩ => show (r.val * 2048 + k.val) % 2048 = k.val; omega)
  rw [val_main_v0_apply, val_main_v32_apply, val_main_v31_apply, val_main_v30_apply, e0, e3]

/-- Expert 1's output for token t at output feature f. -/
theorem expert1 (x0 : (⟨S1x2048x2048, .f32⟩ : BufTy).Contents (Elt Ideal)) (x3 : (⟨S8x2816x2048, .f32⟩ : BufTy).Contents (Elt Ideal)) (x4 : (⟨S8x2048x1408, .f32⟩ : BufTy).Contents (Elt Ideal)) (t f : Fin 2048) :
    val_main_v41 (F := Ideal) x0 x3 x4 (ix2 t f)
      = Cert.Moe.expert (fun k => x0 (ix3 (0 : Fin 1) t k)) (fun r k => x3 (ix3 (1 : Fin 8) r k))
          (fun i => x4 (ix3 (1 : Fin 8) f i)) := by
  rw [val_main_v41_apply]
  unfold Cert.Moe.expert
  refine Finset.sum_congr rfl fun i _ => ?_
  have hf := f.isLt
  have hi := i.isLt
  -- hidden unit i reads the projection at rows i (gate) and 1408 + i (up)
  have eg : idx_main_v34 (lidx_main_v41 (ix2 t f) i) = ix2 t (Cert.Moe.gateRow i) := funext fun a => Fin.ext (by
    match a with
    | ⟨0, _⟩ => rfl
    | ⟨1, _⟩ => rfl)
  have eu : idx_main_v35 (lidx_main_v41 (ix2 t f) i) = ix2 t (Cert.Moe.upRow i) := funext fun a => Fin.ext (by
    match a with
    | ⟨0, _⟩ => rfl
    | ⟨1, _⟩ => rfl)
  -- the transposed, flattened slice [1] of the stacked down matrices at (i, f) is entry (1, f, i)
  have ed : idx_main_v38 (idx_main_v39 (idx_main_v40 (ridx_main_v41 (ix2 t f) i))) = ix3 (1 : Fin 8) f i :=
    funext fun a => Fin.ext (by
      match a with
      | ⟨0, _⟩ => rfl
      | ⟨1, _⟩ => show (f.val * 1408 + i.val) / 1408 % 2048 = f.val; omega
      | ⟨2, _⟩ => show (f.val * 1408 + i.val) % 1408 = i.val; omega)
  have one : FloatOps.ofBits (F := Ideal) .f32 0x3F800000#32 = (1 : EReal) := IdealRules.sign_bit.ideal_onePat .f32
  rw [val_main_v37_apply, val_main_v36_apply, val_main_call1_v5_apply, val_main_call1_v4_apply, val_main_call1_cst_0_apply,
    val_main_call1_v3_apply, val_main_call1_v2_apply, val_main_call1_cst_apply, val_main_call1_v1_apply, val_main_call1_v0_apply,
    val_main_v34_apply, val_main_v35_apply, eg, eu, proj1, proj1,
    val_main_v40_apply, val_main_v39_apply, val_main_v38_apply, ed, one]
  rfl

/-- After expert 1: the first 2 experts' weighted outputs, summed in order from zero. -/
theorem step1 (x0 : (⟨S1x2048x2048, .f32⟩ : BufTy).Contents (Elt Ideal)) (x1 : (⟨S1x2048x2, .i32⟩ : BufTy).Contents (Elt Ideal)) (x2 : (⟨S1x2048x2, .f32⟩ : BufTy).Contents (Elt Ideal)) (x3 : (⟨S8x2816x2048, .f32⟩ : BufTy).Contents (Elt Ideal)) (x4 : (⟨S8x2048x1408, .f32⟩ : BufTy).Contents (Elt Ideal)) (t f : Fin 2048) :
    val_main_v45 (F := Ideal) x0 x1 x2 x3 x4 (ix2 t f)
      = Cert.Moe.mix (fun k => x0 (ix3 (0 : Fin 1) t k)) (fun k => x2 (ix3 (0 : Fin 1) t k))
          (fun k => x1 (ix3 (0 : Fin 1) t k)) (fun e r k => x3 (ix3 e r k)) (fun e i => x4 (ix3 e f i)) 2 (by omega) := by
  have ew : idx_main_v42 (idx_main_v43 (ix2 t f)) = ix1 t := funext fun a => Fin.ext (by
    match a with
    | ⟨0, _⟩ => rfl)
  rw [Cert.Moe.mix, val_main_v45_apply, val_main_v44_apply, val_main_v43_apply, val_main_v42_apply, ew, route1, expert1,
    step0]
  rfl

/-! ### Expert 2 -/

/-- The routing weight of token t for expert 2: the two slots' weights where the slot's index is 2, summed from zero. -/
theorem route2 (x1 : (⟨S1x2048x2, .i32⟩ : BufTy).Contents (Elt Ideal)) (x2 : (⟨S1x2048x2, .f32⟩ : BufTy).Contents (Elt Ideal)) (t : Fin 2048) :
    val_main_v50 (F := Ideal) x1 x2 (ix1 t)
      = Cert.Moe.route (fun k => x2 (ix3 (0 : Fin 1) t k)) (fun k => x1 (ix3 (0 : Fin 1) t k)) (BitVec.ofNat 32 2) := by
  rw [val_main_v50_apply]
  unfold Cert.Moe.route Cert.Moe.hot
  refine congrArg₂ (· + ·) ?_ (Finset.sum_congr rfl fun k _ => ?_)
  · rw [val_main_cst_4_apply]; exact Ideal.ofBits_zero_f32
  · have ht := t.isLt
    have hk := k.isLt
    -- slot k of token t in the flattened [2048, 2] table is entry (0, t, k) of the argument
    have e1 : idx_main_v1 (idx_main_v50 (ix1 t) k) = ix3 (0 : Fin 1) t k := funext fun a => Fin.ext (by
      match a with
      | ⟨0, _⟩ => rfl
      | ⟨1, _⟩ => show (t.val * 2 + k.val) / 2 % 2048 = t.val; omega
      | ⟨2, _⟩ => show (t.val * 2 + k.val) % 2 = k.val; omega)
    have e2 : idx_main_v2 (idx_main_v50 (ix1 t) k) = ix3 (0 : Fin 1) t k := e1
    rw [val_main_v49_apply, val_main_v48_apply, val_main_v47_apply, val_main_v2_apply, val_main_v1_apply, val_main_v46_apply,
      val_main_c_3_apply, e1, e2]
    rfl

/-- Row r of expert 2's gate/up matrix against token t's features. -/
theorem proj2 (x0 : (⟨S1x2048x2048, .f32⟩ : BufTy).Contents (Elt Ideal)) (x3 : (⟨S8x2816x2048, .f32⟩ : BufTy).Contents (Elt Ideal)) (t : Fin 2048) (r : Fin 2816) :
    val_main_v54 (F := Ideal) x0 x3 (ix2 t r)
      = Cert.Moe.proj (fun k => x0 (ix3 (0 : Fin 1) t k)) (fun r k => x3 (ix3 (2 : Fin 8) r k)) r := by
  rw [val_main_v54_apply]
  unfold Cert.Moe.proj
  refine Finset.sum_congr rfl fun k _ => ?_
  have ht := t.isLt
  have hr := r.isLt
  have hk := k.isLt
  have e0 : idx_main_v0 (lidx_main_v54 (ix2 t r) k) = ix3 (0 : Fin 1) t k := funext fun a => Fin.ext (by
    match a with
    | ⟨0, _⟩ => rfl
    | ⟨1, _⟩ => show (t.val * 2048 + k.val) / 2048 % 2048 = t.val; omega
    | ⟨2, _⟩ => show (t.val * 2048 + k.val) % 2048 = k.val; omega)
  -- the transposed, flattened slice [2] of the stacked matrices at (k, r) is entry (2, r, k)
  have e3 : idx_main_v51 (idx_main_v52 (idx_main_v53 (ridx_main_v54 (ix2 t r) k))) = ix3 (2 : Fin 8) r k :=
    funext fun a => Fin.ext (by
      match a with
      | ⟨0, _⟩ => rfl
      | ⟨1, _⟩ => show (r.val * 2048 + k.val) / 2048 % 2816 = r.val; omega
      | ⟨2, _⟩ => show (r.val * 2048 + k.val) % 2048 = k.val; omega)
  rw [val_main_v0_apply, val_main_v53_apply, val_main_v52_apply, val_main_v51_apply, e0, e3]

/-- Expert 2's output for token t at output feature f. -/
theorem expert2 (x0 : (⟨S1x2048x2048, .f32⟩ : BufTy).Contents (Elt Ideal)) (x3 : (⟨S8x2816x2048, .f32⟩ : BufTy).Contents (Elt Ideal)) (x4 : (⟨S8x2048x1408, .f32⟩ : BufTy).Contents (Elt Ideal)) (t f : Fin 2048) :
    val_main_v62 (F := Ideal) x0 x3 x4 (ix2 t f)
      = Cert.Moe.expert (fun k => x0 (ix3 (0 : Fin 1) t k)) (fun r k => x3 (ix3 (2 : Fin 8) r k))
          (fun i => x4 (ix3 (2 : Fin 8) f i)) := by
  rw [val_main_v62_apply]
  unfold Cert.Moe.expert
  refine Finset.sum_congr rfl fun i _ => ?_
  have hf := f.isLt
  have hi := i.isLt
  -- hidden unit i reads the projection at rows i (gate) and 1408 + i (up)
  have eg : idx_main_v55 (lidx_main_v62 (ix2 t f) i) = ix2 t (Cert.Moe.gateRow i) := funext fun a => Fin.ext (by
    match a with
    | ⟨0, _⟩ => rfl
    | ⟨1, _⟩ => rfl)
  have eu : idx_main_v56 (lidx_main_v62 (ix2 t f) i) = ix2 t (Cert.Moe.upRow i) := funext fun a => Fin.ext (by
    match a with
    | ⟨0, _⟩ => rfl
    | ⟨1, _⟩ => rfl)
  -- the transposed, flattened slice [2] of the stacked down matrices at (i, f) is entry (2, f, i)
  have ed : idx_main_v59 (idx_main_v60 (idx_main_v61 (ridx_main_v62 (ix2 t f) i))) = ix3 (2 : Fin 8) f i :=
    funext fun a => Fin.ext (by
      match a with
      | ⟨0, _⟩ => rfl
      | ⟨1, _⟩ => show (f.val * 1408 + i.val) / 1408 % 2048 = f.val; omega
      | ⟨2, _⟩ => show (f.val * 1408 + i.val) % 1408 = i.val; omega)
  have one : FloatOps.ofBits (F := Ideal) .f32 0x3F800000#32 = (1 : EReal) := IdealRules.sign_bit.ideal_onePat .f32
  rw [val_main_v58_apply, val_main_v57_apply, val_main_call2_v5_apply, val_main_call2_v4_apply, val_main_call2_cst_0_apply,
    val_main_call2_v3_apply, val_main_call2_v2_apply, val_main_call2_cst_apply, val_main_call2_v1_apply, val_main_call2_v0_apply,
    val_main_v55_apply, val_main_v56_apply, eg, eu, proj2, proj2,
    val_main_v61_apply, val_main_v60_apply, val_main_v59_apply, ed, one]
  rfl

/-- After expert 2: the first 3 experts' weighted outputs, summed in order from zero. -/
theorem step2 (x0 : (⟨S1x2048x2048, .f32⟩ : BufTy).Contents (Elt Ideal)) (x1 : (⟨S1x2048x2, .i32⟩ : BufTy).Contents (Elt Ideal)) (x2 : (⟨S1x2048x2, .f32⟩ : BufTy).Contents (Elt Ideal)) (x3 : (⟨S8x2816x2048, .f32⟩ : BufTy).Contents (Elt Ideal)) (x4 : (⟨S8x2048x1408, .f32⟩ : BufTy).Contents (Elt Ideal)) (t f : Fin 2048) :
    val_main_v66 (F := Ideal) x0 x1 x2 x3 x4 (ix2 t f)
      = Cert.Moe.mix (fun k => x0 (ix3 (0 : Fin 1) t k)) (fun k => x2 (ix3 (0 : Fin 1) t k))
          (fun k => x1 (ix3 (0 : Fin 1) t k)) (fun e r k => x3 (ix3 e r k)) (fun e i => x4 (ix3 e f i)) 3 (by omega) := by
  have ew : idx_main_v63 (idx_main_v64 (ix2 t f)) = ix1 t := funext fun a => Fin.ext (by
    match a with
    | ⟨0, _⟩ => rfl)
  rw [Cert.Moe.mix, val_main_v66_apply, val_main_v65_apply, val_main_v64_apply, val_main_v63_apply, ew, route2, expert2,
    step1]
  rfl

/-! ### Expert 3 -/

/-- The routing weight of token t for expert 3: the two slots' weights where the slot's index is 3, summed from zero. -/
theorem route3 (x1 : (⟨S1x2048x2, .i32⟩ : BufTy).Contents (Elt Ideal)) (x2 : (⟨S1x2048x2, .f32⟩ : BufTy).Contents (Elt Ideal)) (t : Fin 2048) :
    val_main_v71 (F := Ideal) x1 x2 (ix1 t)
      = Cert.Moe.route (fun k => x2 (ix3 (0 : Fin 1) t k)) (fun k => x1 (ix3 (0 : Fin 1) t k)) (BitVec.ofNat 32 3) := by
  rw [val_main_v71_apply]
  unfold Cert.Moe.route Cert.Moe.hot
  refine congrArg₂ (· + ·) ?_ (Finset.sum_congr rfl fun k _ => ?_)
  · rw [val_main_cst_6_apply]; exact Ideal.ofBits_zero_f32
  · have ht := t.isLt
    have hk := k.isLt
    -- slot k of token t in the flattened [2048, 2] table is entry (0, t, k) of the argument
    have e1 : idx_main_v1 (idx_main_v71 (ix1 t) k) = ix3 (0 : Fin 1) t k := funext fun a => Fin.ext (by
      match a with
      | ⟨0, _⟩ => rfl
      | ⟨1, _⟩ => show (t.val * 2 + k.val) / 2 % 2048 = t.val; omega
      | ⟨2, _⟩ => show (t.val * 2 + k.val) % 2 = k.val; omega)
    have e2 : idx_main_v2 (idx_main_v71 (ix1 t) k) = ix3 (0 : Fin 1) t k := e1
    rw [val_main_v70_apply, val_main_v69_apply, val_main_v68_apply, val_main_v2_apply, val_main_v1_apply, val_main_v67_apply,
      val_main_c_5_apply, e1, e2]
    rfl

/-- Row r of expert 3's gate/up matrix against token t's features. -/
theorem proj3 (x0 : (⟨S1x2048x2048, .f32⟩ : BufTy).Contents (Elt Ideal)) (x3 : (⟨S8x2816x2048, .f32⟩ : BufTy).Contents (Elt Ideal)) (t : Fin 2048) (r : Fin 2816) :
    val_main_v75 (F := Ideal) x0 x3 (ix2 t r)
      = Cert.Moe.proj (fun k => x0 (ix3 (0 : Fin 1) t k)) (fun r k => x3 (ix3 (3 : Fin 8) r k)) r := by
  rw [val_main_v75_apply]
  unfold Cert.Moe.proj
  refine Finset.sum_congr rfl fun k _ => ?_
  have ht := t.isLt
  have hr := r.isLt
  have hk := k.isLt
  have e0 : idx_main_v0 (lidx_main_v75 (ix2 t r) k) = ix3 (0 : Fin 1) t k := funext fun a => Fin.ext (by
    match a with
    | ⟨0, _⟩ => rfl
    | ⟨1, _⟩ => show (t.val * 2048 + k.val) / 2048 % 2048 = t.val; omega
    | ⟨2, _⟩ => show (t.val * 2048 + k.val) % 2048 = k.val; omega)
  -- the transposed, flattened slice [3] of the stacked matrices at (k, r) is entry (3, r, k)
  have e3 : idx_main_v72 (idx_main_v73 (idx_main_v74 (ridx_main_v75 (ix2 t r) k))) = ix3 (3 : Fin 8) r k :=
    funext fun a => Fin.ext (by
      match a with
      | ⟨0, _⟩ => rfl
      | ⟨1, _⟩ => show (r.val * 2048 + k.val) / 2048 % 2816 = r.val; omega
      | ⟨2, _⟩ => show (r.val * 2048 + k.val) % 2048 = k.val; omega)
  rw [val_main_v0_apply, val_main_v74_apply, val_main_v73_apply, val_main_v72_apply, e0, e3]

/-- Expert 3's output for token t at output feature f. -/
theorem expert3 (x0 : (⟨S1x2048x2048, .f32⟩ : BufTy).Contents (Elt Ideal)) (x3 : (⟨S8x2816x2048, .f32⟩ : BufTy).Contents (Elt Ideal)) (x4 : (⟨S8x2048x1408, .f32⟩ : BufTy).Contents (Elt Ideal)) (t f : Fin 2048) :
    val_main_v83 (F := Ideal) x0 x3 x4 (ix2 t f)
      = Cert.Moe.expert (fun k => x0 (ix3 (0 : Fin 1) t k)) (fun r k => x3 (ix3 (3 : Fin 8) r k))
          (fun i => x4 (ix3 (3 : Fin 8) f i)) := by
  rw [val_main_v83_apply]
  unfold Cert.Moe.expert
  refine Finset.sum_congr rfl fun i _ => ?_
  have hf := f.isLt
  have hi := i.isLt
  -- hidden unit i reads the projection at rows i (gate) and 1408 + i (up)
  have eg : idx_main_v76 (lidx_main_v83 (ix2 t f) i) = ix2 t (Cert.Moe.gateRow i) := funext fun a => Fin.ext (by
    match a with
    | ⟨0, _⟩ => rfl
    | ⟨1, _⟩ => rfl)
  have eu : idx_main_v77 (lidx_main_v83 (ix2 t f) i) = ix2 t (Cert.Moe.upRow i) := funext fun a => Fin.ext (by
    match a with
    | ⟨0, _⟩ => rfl
    | ⟨1, _⟩ => rfl)
  -- the transposed, flattened slice [3] of the stacked down matrices at (i, f) is entry (3, f, i)
  have ed : idx_main_v80 (idx_main_v81 (idx_main_v82 (ridx_main_v83 (ix2 t f) i))) = ix3 (3 : Fin 8) f i :=
    funext fun a => Fin.ext (by
      match a with
      | ⟨0, _⟩ => rfl
      | ⟨1, _⟩ => show (f.val * 1408 + i.val) / 1408 % 2048 = f.val; omega
      | ⟨2, _⟩ => show (f.val * 1408 + i.val) % 1408 = i.val; omega)
  have one : FloatOps.ofBits (F := Ideal) .f32 0x3F800000#32 = (1 : EReal) := IdealRules.sign_bit.ideal_onePat .f32
  rw [val_main_v79_apply, val_main_v78_apply, val_main_call3_v5_apply, val_main_call3_v4_apply, val_main_call3_cst_0_apply,
    val_main_call3_v3_apply, val_main_call3_v2_apply, val_main_call3_cst_apply, val_main_call3_v1_apply, val_main_call3_v0_apply,
    val_main_v76_apply, val_main_v77_apply, eg, eu, proj3, proj3,
    val_main_v82_apply, val_main_v81_apply, val_main_v80_apply, ed, one]
  rfl

/-- After expert 3: the first 4 experts' weighted outputs, summed in order from zero. -/
theorem step3 (x0 : (⟨S1x2048x2048, .f32⟩ : BufTy).Contents (Elt Ideal)) (x1 : (⟨S1x2048x2, .i32⟩ : BufTy).Contents (Elt Ideal)) (x2 : (⟨S1x2048x2, .f32⟩ : BufTy).Contents (Elt Ideal)) (x3 : (⟨S8x2816x2048, .f32⟩ : BufTy).Contents (Elt Ideal)) (x4 : (⟨S8x2048x1408, .f32⟩ : BufTy).Contents (Elt Ideal)) (t f : Fin 2048) :
    val_main_v87 (F := Ideal) x0 x1 x2 x3 x4 (ix2 t f)
      = Cert.Moe.mix (fun k => x0 (ix3 (0 : Fin 1) t k)) (fun k => x2 (ix3 (0 : Fin 1) t k))
          (fun k => x1 (ix3 (0 : Fin 1) t k)) (fun e r k => x3 (ix3 e r k)) (fun e i => x4 (ix3 e f i)) 4 (by omega) := by
  have ew : idx_main_v84 (idx_main_v85 (ix2 t f)) = ix1 t := funext fun a => Fin.ext (by
    match a with
    | ⟨0, _⟩ => rfl)
  rw [Cert.Moe.mix, val_main_v87_apply, val_main_v86_apply, val_main_v85_apply, val_main_v84_apply, ew, route3, expert3,
    step2]
  rfl

/-! ### Expert 4 -/

/-- The routing weight of token t for expert 4: the two slots' weights where the slot's index is 4, summed from zero. -/
theorem route4 (x1 : (⟨S1x2048x2, .i32⟩ : BufTy).Contents (Elt Ideal)) (x2 : (⟨S1x2048x2, .f32⟩ : BufTy).Contents (Elt Ideal)) (t : Fin 2048) :
    val_main_v92 (F := Ideal) x1 x2 (ix1 t)
      = Cert.Moe.route (fun k => x2 (ix3 (0 : Fin 1) t k)) (fun k => x1 (ix3 (0 : Fin 1) t k)) (BitVec.ofNat 32 4) := by
  rw [val_main_v92_apply]
  unfold Cert.Moe.route Cert.Moe.hot
  refine congrArg₂ (· + ·) ?_ (Finset.sum_congr rfl fun k _ => ?_)
  · rw [val_main_cst_8_apply]; exact Ideal.ofBits_zero_f32
  · have ht := t.isLt
    have hk := k.isLt
    -- slot k of token t in the flattened [2048, 2] table is entry (0, t, k) of the argument
    have e1 : idx_main_v1 (idx_main_v92 (ix1 t) k) = ix3 (0 : Fin 1) t k := funext fun a => Fin.ext (by
      match a with
      | ⟨0, _⟩ => rfl
      | ⟨1, _⟩ => show (t.val * 2 + k.val) / 2 % 2048 = t.val; omega
      | ⟨2, _⟩ => show (t.val * 2 + k.val) % 2 = k.val; omega)
    have e2 : idx_main_v2 (idx_main_v92 (ix1 t) k) = ix3 (0 : Fin 1) t k := e1
    rw [val_main_v91_apply, val_main_v90_apply, val_main_v89_apply, val_main_v2_apply, val_main_v1_apply, val_main_v88_apply,
      val_main_c_7_apply, e1, e2]
    rfl

/-- Row r of expert 4's gate/up matrix against token t's features. -/
theorem proj4 (x0 : (⟨S1x2048x2048, .f32⟩ : BufTy).Contents (Elt Ideal)) (x3 : (⟨S8x2816x2048, .f32⟩ : BufTy).Contents (Elt Ideal)) (t : Fin 2048) (r : Fin 2816) :
    val_main_v96 (F := Ideal) x0 x3 (ix2 t r)
      = Cert.Moe.proj (fun k => x0 (ix3 (0 : Fin 1) t k)) (fun r k => x3 (ix3 (4 : Fin 8) r k)) r := by
  rw [val_main_v96_apply]
  unfold Cert.Moe.proj
  refine Finset.sum_congr rfl fun k _ => ?_
  have ht := t.isLt
  have hr := r.isLt
  have hk := k.isLt
  have e0 : idx_main_v0 (lidx_main_v96 (ix2 t r) k) = ix3 (0 : Fin 1) t k := funext fun a => Fin.ext (by
    match a with
    | ⟨0, _⟩ => rfl
    | ⟨1, _⟩ => show (t.val * 2048 + k.val) / 2048 % 2048 = t.val; omega
    | ⟨2, _⟩ => show (t.val * 2048 + k.val) % 2048 = k.val; omega)
  -- the transposed, flattened slice [4] of the stacked matrices at (k, r) is entry (4, r, k)
  have e3 : idx_main_v93 (idx_main_v94 (idx_main_v95 (ridx_main_v96 (ix2 t r) k))) = ix3 (4 : Fin 8) r k :=
    funext fun a => Fin.ext (by
      match a with
      | ⟨0, _⟩ => rfl
      | ⟨1, _⟩ => show (r.val * 2048 + k.val) / 2048 % 2816 = r.val; omega
      | ⟨2, _⟩ => show (r.val * 2048 + k.val) % 2048 = k.val; omega)
  rw [val_main_v0_apply, val_main_v95_apply, val_main_v94_apply, val_main_v93_apply, e0, e3]

/-- Expert 4's output for token t at output feature f. -/
theorem expert4 (x0 : (⟨S1x2048x2048, .f32⟩ : BufTy).Contents (Elt Ideal)) (x3 : (⟨S8x2816x2048, .f32⟩ : BufTy).Contents (Elt Ideal)) (x4 : (⟨S8x2048x1408, .f32⟩ : BufTy).Contents (Elt Ideal)) (t f : Fin 2048) :
    val_main_v104 (F := Ideal) x0 x3 x4 (ix2 t f)
      = Cert.Moe.expert (fun k => x0 (ix3 (0 : Fin 1) t k)) (fun r k => x3 (ix3 (4 : Fin 8) r k))
          (fun i => x4 (ix3 (4 : Fin 8) f i)) := by
  rw [val_main_v104_apply]
  unfold Cert.Moe.expert
  refine Finset.sum_congr rfl fun i _ => ?_
  have hf := f.isLt
  have hi := i.isLt
  -- hidden unit i reads the projection at rows i (gate) and 1408 + i (up)
  have eg : idx_main_v97 (lidx_main_v104 (ix2 t f) i) = ix2 t (Cert.Moe.gateRow i) := funext fun a => Fin.ext (by
    match a with
    | ⟨0, _⟩ => rfl
    | ⟨1, _⟩ => rfl)
  have eu : idx_main_v98 (lidx_main_v104 (ix2 t f) i) = ix2 t (Cert.Moe.upRow i) := funext fun a => Fin.ext (by
    match a with
    | ⟨0, _⟩ => rfl
    | ⟨1, _⟩ => rfl)
  -- the transposed, flattened slice [4] of the stacked down matrices at (i, f) is entry (4, f, i)
  have ed : idx_main_v101 (idx_main_v102 (idx_main_v103 (ridx_main_v104 (ix2 t f) i))) = ix3 (4 : Fin 8) f i :=
    funext fun a => Fin.ext (by
      match a with
      | ⟨0, _⟩ => rfl
      | ⟨1, _⟩ => show (f.val * 1408 + i.val) / 1408 % 2048 = f.val; omega
      | ⟨2, _⟩ => show (f.val * 1408 + i.val) % 1408 = i.val; omega)
  have one : FloatOps.ofBits (F := Ideal) .f32 0x3F800000#32 = (1 : EReal) := IdealRules.sign_bit.ideal_onePat .f32
  rw [val_main_v100_apply, val_main_v99_apply, val_main_call4_v5_apply, val_main_call4_v4_apply, val_main_call4_cst_0_apply,
    val_main_call4_v3_apply, val_main_call4_v2_apply, val_main_call4_cst_apply, val_main_call4_v1_apply, val_main_call4_v0_apply,
    val_main_v97_apply, val_main_v98_apply, eg, eu, proj4, proj4,
    val_main_v103_apply, val_main_v102_apply, val_main_v101_apply, ed, one]
  rfl

/-- After expert 4: the first 5 experts' weighted outputs, summed in order from zero. -/
theorem step4 (x0 : (⟨S1x2048x2048, .f32⟩ : BufTy).Contents (Elt Ideal)) (x1 : (⟨S1x2048x2, .i32⟩ : BufTy).Contents (Elt Ideal)) (x2 : (⟨S1x2048x2, .f32⟩ : BufTy).Contents (Elt Ideal)) (x3 : (⟨S8x2816x2048, .f32⟩ : BufTy).Contents (Elt Ideal)) (x4 : (⟨S8x2048x1408, .f32⟩ : BufTy).Contents (Elt Ideal)) (t f : Fin 2048) :
    val_main_v108 (F := Ideal) x0 x1 x2 x3 x4 (ix2 t f)
      = Cert.Moe.mix (fun k => x0 (ix3 (0 : Fin 1) t k)) (fun k => x2 (ix3 (0 : Fin 1) t k))
          (fun k => x1 (ix3 (0 : Fin 1) t k)) (fun e r k => x3 (ix3 e r k)) (fun e i => x4 (ix3 e f i)) 5 (by omega) := by
  have ew : idx_main_v105 (idx_main_v106 (ix2 t f)) = ix1 t := funext fun a => Fin.ext (by
    match a with
    | ⟨0, _⟩ => rfl)
  rw [Cert.Moe.mix, val_main_v108_apply, val_main_v107_apply, val_main_v106_apply, val_main_v105_apply, ew, route4, expert4,
    step3]
  rfl

/-! ### Expert 5 -/

/-- The routing weight of token t for expert 5: the two slots' weights where the slot's index is 5, summed from zero. -/
theorem route5 (x1 : (⟨S1x2048x2, .i32⟩ : BufTy).Contents (Elt Ideal)) (x2 : (⟨S1x2048x2, .f32⟩ : BufTy).Contents (Elt Ideal)) (t : Fin 2048) :
    val_main_v113 (F := Ideal) x1 x2 (ix1 t)
      = Cert.Moe.route (fun k => x2 (ix3 (0 : Fin 1) t k)) (fun k => x1 (ix3 (0 : Fin 1) t k)) (BitVec.ofNat 32 5) := by
  rw [val_main_v113_apply]
  unfold Cert.Moe.route Cert.Moe.hot
  refine congrArg₂ (· + ·) ?_ (Finset.sum_congr rfl fun k _ => ?_)
  · rw [val_main_cst_10_apply]; exact Ideal.ofBits_zero_f32
  · have ht := t.isLt
    have hk := k.isLt
    -- slot k of token t in the flattened [2048, 2] table is entry (0, t, k) of the argument
    have e1 : idx_main_v1 (idx_main_v113 (ix1 t) k) = ix3 (0 : Fin 1) t k := funext fun a => Fin.ext (by
      match a with
      | ⟨0, _⟩ => rfl
      | ⟨1, _⟩ => show (t.val * 2 + k.val) / 2 % 2048 = t.val; omega
      | ⟨2, _⟩ => show (t.val * 2 + k.val) % 2 = k.val; omega)
    have e2 : idx_main_v2 (idx_main_v113 (ix1 t) k) = ix3 (0 : Fin 1) t k := e1
    rw [val_main_v112_apply, val_main_v111_apply, val_main_v110_apply, val_main_v2_apply, val_main_v1_apply, val_main_v109_apply,
      val_main_c_9_apply, e1, e2]
    rfl

/-- Row r of expert 5's gate/up matrix against token t's features. -/
theorem proj5 (x0 : (⟨S1x2048x2048, .f32⟩ : BufTy).Contents (Elt Ideal)) (x3 : (⟨S8x2816x2048, .f32⟩ : BufTy).Contents (Elt Ideal)) (t : Fin 2048) (r : Fin 2816) :
    val_main_v117 (F := Ideal) x0 x3 (ix2 t r)
      = Cert.Moe.proj (fun k => x0 (ix3 (0 : Fin 1) t k)) (fun r k => x3 (ix3 (5 : Fin 8) r k)) r := by
  rw [val_main_v117_apply]
  unfold Cert.Moe.proj
  refine Finset.sum_congr rfl fun k _ => ?_
  have ht := t.isLt
  have hr := r.isLt
  have hk := k.isLt
  have e0 : idx_main_v0 (lidx_main_v117 (ix2 t r) k) = ix3 (0 : Fin 1) t k := funext fun a => Fin.ext (by
    match a with
    | ⟨0, _⟩ => rfl
    | ⟨1, _⟩ => show (t.val * 2048 + k.val) / 2048 % 2048 = t.val; omega
    | ⟨2, _⟩ => show (t.val * 2048 + k.val) % 2048 = k.val; omega)
  -- the transposed, flattened slice [5] of the stacked matrices at (k, r) is entry (5, r, k)
  have e3 : idx_main_v114 (idx_main_v115 (idx_main_v116 (ridx_main_v117 (ix2 t r) k))) = ix3 (5 : Fin 8) r k :=
    funext fun a => Fin.ext (by
      match a with
      | ⟨0, _⟩ => rfl
      | ⟨1, _⟩ => show (r.val * 2048 + k.val) / 2048 % 2816 = r.val; omega
      | ⟨2, _⟩ => show (r.val * 2048 + k.val) % 2048 = k.val; omega)
  rw [val_main_v0_apply, val_main_v116_apply, val_main_v115_apply, val_main_v114_apply, e0, e3]

/-- Expert 5's output for token t at output feature f. -/
theorem expert5 (x0 : (⟨S1x2048x2048, .f32⟩ : BufTy).Contents (Elt Ideal)) (x3 : (⟨S8x2816x2048, .f32⟩ : BufTy).Contents (Elt Ideal)) (x4 : (⟨S8x2048x1408, .f32⟩ : BufTy).Contents (Elt Ideal)) (t f : Fin 2048) :
    val_main_v125 (F := Ideal) x0 x3 x4 (ix2 t f)
      = Cert.Moe.expert (fun k => x0 (ix3 (0 : Fin 1) t k)) (fun r k => x3 (ix3 (5 : Fin 8) r k))
          (fun i => x4 (ix3 (5 : Fin 8) f i)) := by
  rw [val_main_v125_apply]
  unfold Cert.Moe.expert
  refine Finset.sum_congr rfl fun i _ => ?_
  have hf := f.isLt
  have hi := i.isLt
  -- hidden unit i reads the projection at rows i (gate) and 1408 + i (up)
  have eg : idx_main_v118 (lidx_main_v125 (ix2 t f) i) = ix2 t (Cert.Moe.gateRow i) := funext fun a => Fin.ext (by
    match a with
    | ⟨0, _⟩ => rfl
    | ⟨1, _⟩ => rfl)
  have eu : idx_main_v119 (lidx_main_v125 (ix2 t f) i) = ix2 t (Cert.Moe.upRow i) := funext fun a => Fin.ext (by
    match a with
    | ⟨0, _⟩ => rfl
    | ⟨1, _⟩ => rfl)
  -- the transposed, flattened slice [5] of the stacked down matrices at (i, f) is entry (5, f, i)
  have ed : idx_main_v122 (idx_main_v123 (idx_main_v124 (ridx_main_v125 (ix2 t f) i))) = ix3 (5 : Fin 8) f i :=
    funext fun a => Fin.ext (by
      match a with
      | ⟨0, _⟩ => rfl
      | ⟨1, _⟩ => show (f.val * 1408 + i.val) / 1408 % 2048 = f.val; omega
      | ⟨2, _⟩ => show (f.val * 1408 + i.val) % 1408 = i.val; omega)
  have one : FloatOps.ofBits (F := Ideal) .f32 0x3F800000#32 = (1 : EReal) := IdealRules.sign_bit.ideal_onePat .f32
  rw [val_main_v121_apply, val_main_v120_apply, val_main_call5_v5_apply, val_main_call5_v4_apply, val_main_call5_cst_0_apply,
    val_main_call5_v3_apply, val_main_call5_v2_apply, val_main_call5_cst_apply, val_main_call5_v1_apply, val_main_call5_v0_apply,
    val_main_v118_apply, val_main_v119_apply, eg, eu, proj5, proj5,
    val_main_v124_apply, val_main_v123_apply, val_main_v122_apply, ed, one]
  rfl

/-- After expert 5: the first 6 experts' weighted outputs, summed in order from zero. -/
theorem step5 (x0 : (⟨S1x2048x2048, .f32⟩ : BufTy).Contents (Elt Ideal)) (x1 : (⟨S1x2048x2, .i32⟩ : BufTy).Contents (Elt Ideal)) (x2 : (⟨S1x2048x2, .f32⟩ : BufTy).Contents (Elt Ideal)) (x3 : (⟨S8x2816x2048, .f32⟩ : BufTy).Contents (Elt Ideal)) (x4 : (⟨S8x2048x1408, .f32⟩ : BufTy).Contents (Elt Ideal)) (t f : Fin 2048) :
    val_main_v129 (F := Ideal) x0 x1 x2 x3 x4 (ix2 t f)
      = Cert.Moe.mix (fun k => x0 (ix3 (0 : Fin 1) t k)) (fun k => x2 (ix3 (0 : Fin 1) t k))
          (fun k => x1 (ix3 (0 : Fin 1) t k)) (fun e r k => x3 (ix3 e r k)) (fun e i => x4 (ix3 e f i)) 6 (by omega) := by
  have ew : idx_main_v126 (idx_main_v127 (ix2 t f)) = ix1 t := funext fun a => Fin.ext (by
    match a with
    | ⟨0, _⟩ => rfl)
  rw [Cert.Moe.mix, val_main_v129_apply, val_main_v128_apply, val_main_v127_apply, val_main_v126_apply, ew, route5, expert5,
    step4]
  rfl

/-! ### Expert 6 -/

/-- The routing weight of token t for expert 6: the two slots' weights where the slot's index is 6, summed from zero. -/
theorem route6 (x1 : (⟨S1x2048x2, .i32⟩ : BufTy).Contents (Elt Ideal)) (x2 : (⟨S1x2048x2, .f32⟩ : BufTy).Contents (Elt Ideal)) (t : Fin 2048) :
    val_main_v134 (F := Ideal) x1 x2 (ix1 t)
      = Cert.Moe.route (fun k => x2 (ix3 (0 : Fin 1) t k)) (fun k => x1 (ix3 (0 : Fin 1) t k)) (BitVec.ofNat 32 6) := by
  rw [val_main_v134_apply]
  unfold Cert.Moe.route Cert.Moe.hot
  refine congrArg₂ (· + ·) ?_ (Finset.sum_congr rfl fun k _ => ?_)
  · rw [val_main_cst_12_apply]; exact Ideal.ofBits_zero_f32
  · have ht := t.isLt
    have hk := k.isLt
    -- slot k of token t in the flattened [2048, 2] table is entry (0, t, k) of the argument
    have e1 : idx_main_v1 (idx_main_v134 (ix1 t) k) = ix3 (0 : Fin 1) t k := funext fun a => Fin.ext (by
      match a with
      | ⟨0, _⟩ => rfl
      | ⟨1, _⟩ => show (t.val * 2 + k.val) / 2 % 2048 = t.val; omega
      | ⟨2, _⟩ => show (t.val * 2 + k.val) % 2 = k.val; omega)
    have e2 : idx_main_v2 (idx_main_v134 (ix1 t) k) = ix3 (0 : Fin 1) t k := e1
    rw [val_main_v133_apply, val_main_v132_apply, val_main_v131_apply, val_main_v2_apply, val_main_v1_apply, val_main_v130_apply,
      val_main_c_11_apply, e1, e2]
    rfl

/-- Row r of expert 6's gate/up matrix against token t's features. -/
theorem proj6 (x0 : (⟨S1x2048x2048, .f32⟩ : BufTy).Contents (Elt Ideal)) (x3 : (⟨S8x2816x2048, .f32⟩ : BufTy).Contents (Elt Ideal)) (t : Fin 2048) (r : Fin 2816) :
    val_main_v138 (F := Ideal) x0 x3 (ix2 t r)
      = Cert.Moe.proj (fun k => x0 (ix3 (0 : Fin 1) t k)) (fun r k => x3 (ix3 (6 : Fin 8) r k)) r := by
  rw [val_main_v138_apply]
  unfold Cert.Moe.proj
  refine Finset.sum_congr rfl fun k _ => ?_
  have ht := t.isLt
  have hr := r.isLt
  have hk := k.isLt
  have e0 : idx_main_v0 (lidx_main_v138 (ix2 t r) k) = ix3 (0 : Fin 1) t k := funext fun a => Fin.ext (by
    match a with
    | ⟨0, _⟩ => rfl
    | ⟨1, _⟩ => show (t.val * 2048 + k.val) / 2048 % 2048 = t.val; omega
    | ⟨2, _⟩ => show (t.val * 2048 + k.val) % 2048 = k.val; omega)
  -- the transposed, flattened slice [6] of the stacked matrices at (k, r) is entry (6, r, k)
  have e3 : idx_main_v135 (idx_main_v136 (idx_main_v137 (ridx_main_v138 (ix2 t r) k))) = ix3 (6 : Fin 8) r k :=
    funext fun a => Fin.ext (by
      match a with
      | ⟨0, _⟩ => rfl
      | ⟨1, _⟩ => show (r.val * 2048 + k.val) / 2048 % 2816 = r.val; omega
      | ⟨2, _⟩ => show (r.val * 2048 + k.val) % 2048 = k.val; omega)
  rw [val_main_v0_apply, val_main_v137_apply, val_main_v136_apply, val_main_v135_apply, e0, e3]

/-- Expert 6's output for token t at output feature f. -/
theorem expert6 (x0 : (⟨S1x2048x2048, .f32⟩ : BufTy).Contents (Elt Ideal)) (x3 : (⟨S8x2816x2048, .f32⟩ : BufTy).Contents (Elt Ideal)) (x4 : (⟨S8x2048x1408, .f32⟩ : BufTy).Contents (Elt Ideal)) (t f : Fin 2048) :
    val_main_v146 (F := Ideal) x0 x3 x4 (ix2 t f)
      = Cert.Moe.expert (fun k => x0 (ix3 (0 : Fin 1) t k)) (fun r k => x3 (ix3 (6 : Fin 8) r k))
          (fun i => x4 (ix3 (6 : Fin 8) f i)) := by
  rw [val_main_v146_apply]
  unfold Cert.Moe.expert
  refine Finset.sum_congr rfl fun i _ => ?_
  have hf := f.isLt
  have hi := i.isLt
  -- hidden unit i reads the projection at rows i (gate) and 1408 + i (up)
  have eg : idx_main_v139 (lidx_main_v146 (ix2 t f) i) = ix2 t (Cert.Moe.gateRow i) := funext fun a => Fin.ext (by
    match a with
    | ⟨0, _⟩ => rfl
    | ⟨1, _⟩ => rfl)
  have eu : idx_main_v140 (lidx_main_v146 (ix2 t f) i) = ix2 t (Cert.Moe.upRow i) := funext fun a => Fin.ext (by
    match a with
    | ⟨0, _⟩ => rfl
    | ⟨1, _⟩ => rfl)
  -- the transposed, flattened slice [6] of the stacked down matrices at (i, f) is entry (6, f, i)
  have ed : idx_main_v143 (idx_main_v144 (idx_main_v145 (ridx_main_v146 (ix2 t f) i))) = ix3 (6 : Fin 8) f i :=
    funext fun a => Fin.ext (by
      match a with
      | ⟨0, _⟩ => rfl
      | ⟨1, _⟩ => show (f.val * 1408 + i.val) / 1408 % 2048 = f.val; omega
      | ⟨2, _⟩ => show (f.val * 1408 + i.val) % 1408 = i.val; omega)
  have one : FloatOps.ofBits (F := Ideal) .f32 0x3F800000#32 = (1 : EReal) := IdealRules.sign_bit.ideal_onePat .f32
  rw [val_main_v142_apply, val_main_v141_apply, val_main_call6_v5_apply, val_main_call6_v4_apply, val_main_call6_cst_0_apply,
    val_main_call6_v3_apply, val_main_call6_v2_apply, val_main_call6_cst_apply, val_main_call6_v1_apply, val_main_call6_v0_apply,
    val_main_v139_apply, val_main_v140_apply, eg, eu, proj6, proj6,
    val_main_v145_apply, val_main_v144_apply, val_main_v143_apply, ed, one]
  rfl

/-- After expert 6: the first 7 experts' weighted outputs, summed in order from zero. -/
theorem step6 (x0 : (⟨S1x2048x2048, .f32⟩ : BufTy).Contents (Elt Ideal)) (x1 : (⟨S1x2048x2, .i32⟩ : BufTy).Contents (Elt Ideal)) (x2 : (⟨S1x2048x2, .f32⟩ : BufTy).Contents (Elt Ideal)) (x3 : (⟨S8x2816x2048, .f32⟩ : BufTy).Contents (Elt Ideal)) (x4 : (⟨S8x2048x1408, .f32⟩ : BufTy).Contents (Elt Ideal)) (t f : Fin 2048) :
    val_main_v150 (F := Ideal) x0 x1 x2 x3 x4 (ix2 t f)
      = Cert.Moe.mix (fun k => x0 (ix3 (0 : Fin 1) t k)) (fun k => x2 (ix3 (0 : Fin 1) t k))
          (fun k => x1 (ix3 (0 : Fin 1) t k)) (fun e r k => x3 (ix3 e r k)) (fun e i => x4 (ix3 e f i)) 7 (by omega) := by
  have ew : idx_main_v147 (idx_main_v148 (ix2 t f)) = ix1 t := funext fun a => Fin.ext (by
    match a with
    | ⟨0, _⟩ => rfl)
  rw [Cert.Moe.mix, val_main_v150_apply, val_main_v149_apply, val_main_v148_apply, val_main_v147_apply, ew, route6, expert6,
    step5]
  rfl

/-! ### Expert 7 -/

/-- The routing weight of token t for expert 7: the two slots' weights where the slot's index is 7, summed from zero. -/
theorem route7 (x1 : (⟨S1x2048x2, .i32⟩ : BufTy).Contents (Elt Ideal)) (x2 : (⟨S1x2048x2, .f32⟩ : BufTy).Contents (Elt Ideal)) (t : Fin 2048) :
    val_main_v155 (F := Ideal) x1 x2 (ix1 t)
      = Cert.Moe.route (fun k => x2 (ix3 (0 : Fin 1) t k)) (fun k => x1 (ix3 (0 : Fin 1) t k)) (BitVec.ofNat 32 7) := by
  rw [val_main_v155_apply]
  unfold Cert.Moe.route Cert.Moe.hot
  refine congrArg₂ (· + ·) ?_ (Finset.sum_congr rfl fun k _ => ?_)
  · rw [val_main_cst_14_apply]; exact Ideal.ofBits_zero_f32
  · have ht := t.isLt
    have hk := k.isLt
    -- slot k of token t in the flattened [2048, 2] table is entry (0, t, k) of the argument
    have e1 : idx_main_v1 (idx_main_v155 (ix1 t) k) = ix3 (0 : Fin 1) t k := funext fun a => Fin.ext (by
      match a with
      | ⟨0, _⟩ => rfl
      | ⟨1, _⟩ => show (t.val * 2 + k.val) / 2 % 2048 = t.val; omega
      | ⟨2, _⟩ => show (t.val * 2 + k.val) % 2 = k.val; omega)
    have e2 : idx_main_v2 (idx_main_v155 (ix1 t) k) = ix3 (0 : Fin 1) t k := e1
    rw [val_main_v154_apply, val_main_v153_apply, val_main_v152_apply, val_main_v2_apply, val_main_v1_apply, val_main_v151_apply,
      val_main_c_13_apply, e1, e2]
    rfl

/-- Row r of expert 7's gate/up matrix against token t's features. -/
theorem proj7 (x0 : (⟨S1x2048x2048, .f32⟩ : BufTy).Contents (Elt Ideal)) (x3 : (⟨S8x2816x2048, .f32⟩ : BufTy).Contents (Elt Ideal)) (t : Fin 2048) (r : Fin 2816) :
    val_main_v159 (F := Ideal) x0 x3 (ix2 t r)
      = Cert.Moe.proj (fun k => x0 (ix3 (0 : Fin 1) t k)) (fun r k => x3 (ix3 (7 : Fin 8) r k)) r := by
  rw [val_main_v159_apply]
  unfold Cert.Moe.proj
  refine Finset.sum_congr rfl fun k _ => ?_
  have ht := t.isLt
  have hr := r.isLt
  have hk := k.isLt
  have e0 : idx_main_v0 (lidx_main_v159 (ix2 t r) k) = ix3 (0 : Fin 1) t k := funext fun a => Fin.ext (by
    match a with
    | ⟨0, _⟩ => rfl
    | ⟨1, _⟩ => show (t.val * 2048 + k.val) / 2048 % 2048 = t.val; omega
    | ⟨2, _⟩ => show (t.val * 2048 + k.val) % 2048 = k.val; omega)
  -- the transposed, flattened slice [7] of the stacked matrices at (k, r) is entry (7, r, k)
  have e3 : idx_main_v156 (idx_main_v157 (idx_main_v158 (ridx_main_v159 (ix2 t r) k))) = ix3 (7 : Fin 8) r k :=
    funext fun a => Fin.ext (by
      match a with
      | ⟨0, _⟩ => rfl
      | ⟨1, _⟩ => show (r.val * 2048 + k.val) / 2048 % 2816 = r.val; omega
      | ⟨2, _⟩ => show (r.val * 2048 + k.val) % 2048 = k.val; omega)
  rw [val_main_v0_apply, val_main_v158_apply, val_main_v157_apply, val_main_v156_apply, e0, e3]

/-- Expert 7's output for token t at output feature f. -/
theorem expert7 (x0 : (⟨S1x2048x2048, .f32⟩ : BufTy).Contents (Elt Ideal)) (x3 : (⟨S8x2816x2048, .f32⟩ : BufTy).Contents (Elt Ideal)) (x4 : (⟨S8x2048x1408, .f32⟩ : BufTy).Contents (Elt Ideal)) (t f : Fin 2048) :
    val_main_v167 (F := Ideal) x0 x3 x4 (ix2 t f)
      = Cert.Moe.expert (fun k => x0 (ix3 (0 : Fin 1) t k)) (fun r k => x3 (ix3 (7 : Fin 8) r k))
          (fun i => x4 (ix3 (7 : Fin 8) f i)) := by
  rw [val_main_v167_apply]
  unfold Cert.Moe.expert
  refine Finset.sum_congr rfl fun i _ => ?_
  have hf := f.isLt
  have hi := i.isLt
  -- hidden unit i reads the projection at rows i (gate) and 1408 + i (up)
  have eg : idx_main_v160 (lidx_main_v167 (ix2 t f) i) = ix2 t (Cert.Moe.gateRow i) := funext fun a => Fin.ext (by
    match a with
    | ⟨0, _⟩ => rfl
    | ⟨1, _⟩ => rfl)
  have eu : idx_main_v161 (lidx_main_v167 (ix2 t f) i) = ix2 t (Cert.Moe.upRow i) := funext fun a => Fin.ext (by
    match a with
    | ⟨0, _⟩ => rfl
    | ⟨1, _⟩ => rfl)
  -- the transposed, flattened slice [7] of the stacked down matrices at (i, f) is entry (7, f, i)
  have ed : idx_main_v164 (idx_main_v165 (idx_main_v166 (ridx_main_v167 (ix2 t f) i))) = ix3 (7 : Fin 8) f i :=
    funext fun a => Fin.ext (by
      match a with
      | ⟨0, _⟩ => rfl
      | ⟨1, _⟩ => show (f.val * 1408 + i.val) / 1408 % 2048 = f.val; omega
      | ⟨2, _⟩ => show (f.val * 1408 + i.val) % 1408 = i.val; omega)
  have one : FloatOps.ofBits (F := Ideal) .f32 0x3F800000#32 = (1 : EReal) := IdealRules.sign_bit.ideal_onePat .f32
  rw [val_main_v163_apply, val_main_v162_apply, val_main_call7_v5_apply, val_main_call7_v4_apply, val_main_call7_cst_0_apply,
    val_main_call7_v3_apply, val_main_call7_v2_apply, val_main_call7_cst_apply, val_main_call7_v1_apply, val_main_call7_v0_apply,
    val_main_v160_apply, val_main_v161_apply, eg, eu, proj7, proj7,
    val_main_v166_apply, val_main_v165_apply, val_main_v164_apply, ed, one]
  rfl

/-- After expert 7: the first 8 experts' weighted outputs, summed in order from zero. -/
theorem step7 (x0 : (⟨S1x2048x2048, .f32⟩ : BufTy).Contents (Elt Ideal)) (x1 : (⟨S1x2048x2, .i32⟩ : BufTy).Contents (Elt Ideal)) (x2 : (⟨S1x2048x2, .f32⟩ : BufTy).Contents (Elt Ideal)) (x3 : (⟨S8x2816x2048, .f32⟩ : BufTy).Contents (Elt Ideal)) (x4 : (⟨S8x2048x1408, .f32⟩ : BufTy).Contents (Elt Ideal)) (t f : Fin 2048) :
    val_main_v171 (F := Ideal) x0 x1 x2 x3 x4 (ix2 t f)
      = Cert.Moe.mix (fun k => x0 (ix3 (0 : Fin 1) t k)) (fun k => x2 (ix3 (0 : Fin 1) t k))
          (fun k => x1 (ix3 (0 : Fin 1) t k)) (fun e r k => x3 (ix3 e r k)) (fun e i => x4 (ix3 e f i)) 8 (by omega) := by
  have ew : idx_main_v168 (idx_main_v169 (ix2 t f)) = ix1 t := funext fun a => Fin.ext (by
    match a with
    | ⟨0, _⟩ => rfl)
  rw [Cert.Moe.mix, val_main_v171_apply, val_main_v170_apply, val_main_v169_apply, val_main_v168_apply, ew, route7, expert7,
    step6]
  rfl

/-! ### The layer -/

/-- The reference's result is the mixture-of-experts layer: entry (0, t, f) of the reshaped last stage is the
    eight experts' weighted outputs for token t at feature f, summed in order from zero. -/
theorem result_eq (x0 : (⟨S1x2048x2048, .f32⟩ : BufTy).Contents (Elt Ideal)) (x1 : (⟨S1x2048x2, .i32⟩ : BufTy).Contents (Elt Ideal)) (x2 : (⟨S1x2048x2, .f32⟩ : BufTy).Contents (Elt Ideal)) (x3 : (⟨S8x2816x2048, .f32⟩ : BufTy).Contents (Elt Ideal)) (x4 : (⟨S8x2048x1408, .f32⟩ : BufTy).Contents (Elt Ideal)) :
    Cert.ReferenceIdeal.ReadP.val_main_v172 (F := Ideal) x0 x1 x2 x3 x4 = Cert.Moe.layer x0 x1 x2 x3 x4 := by
  funext j
  obtain ⟨a, t, f, rfl⟩ : ∃ (a : Fin 1) (t f : Fin 2048), j = ix3 a t f := ⟨j 0, j 1, j 2, eq_ix3 j⟩
  have ha := a.isLt
  have ht := t.isLt
  have hf := f.isLt
  -- the leading axis has extent one, so entry (a, t, f) of the [1, 2048, 2048] result is entry (t, f) of the last stage
  have ej : idx_main_v172 (ix3 a t f) = ix2 t f := funext fun b => Fin.ext (by
    match b with
    | ⟨0, _⟩ => show ((a.val * 2048 + t.val) * 2048 + f.val) / 2048 = t.val; omega
    | ⟨1, _⟩ => show ((a.val * 2048 + t.val) * 2048 + f.val) % 2048 = f.val; omega)
  rw [val_main_v172_apply, ej, step7]
  rfl

end Cert.ReferenceIdeal.RefValue

end
-- ==== Proof.RefRun.lean ====
/-
  The reference program's run, read: its result is the layer of the argument arrays.

  The run's result term (every host operation of the reference composed) is, stage by stage, the last stage of the
  index-reading lemmas, which is the layer (the eight experts unrolled in the reference, folded in the specification).
-/
import proofs.«100520_j25288767439422_1_alg».proof.Proof.RefRunP
import proofs.«100520_j25288767439422_1_alg».proof.Proof.RefLayer

noncomputable section

namespace Cert.ReferenceIdeal.RefRun

open Cert.ReferenceIdeal Cert.ReferenceIdeal.Gen Idealize.ShloMosaic Idealize.ShloMosaic.TcCoe Idealize.SL.Sem

/-- The composed result term is the last stage. -/
theorem res_eq (m : (ℓ : Loc nD τ sig) → Buf (Elt Ideal) ℓ) (c : Dev nD) :
    Cert.ReferenceIdeal.ValueP.res_main_v172 (F := Ideal) m c
      = Cert.ReferenceIdeal.ReadP.val_main_v172 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  unfold Cert.ReferenceIdeal.ValueP.res_main_v172; rfl

/-- Every weakly fair execution of the reference terminates with its result at the layer of the arguments, the arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v172)
        = Cert.Moe.layer (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨(h c).1.trans ((res_eq m c).trans (Cert.ReferenceIdeal.RefValue.result_eq _ _ _ _ _)), (h c).2⟩)
    (Cert.ReferenceIdeal.ValueP.run (F := Ideal) m ρ)

end Cert.ReferenceIdeal.RefRun

end
-- ==== Proof.lean ====
/-
  A mixture-of-experts feed-forward layer: a kernel that visits (token tile, expert) grid points and accumulates each
  tile's output over the eight experts in place, against a reference that loops over the experts on whole arrays.

  Both programs compute, for every token and output feature, the sum over the experts 0, 1, ..., 7 (in that order, from
  zero) of the token's routing weight for the expert times the expert's SwiGLU output (MoeSpec.lean: `Cert.Moe.layer`). On the
  extended reals the two are the same function of the argument arrays:
    * the kernel keeps a routing table (token by expert) computed before the call and, at expert e, multiplies the
      table's row by a 0/1 mask at e and sums the eight products: that is the row's entry at e, which is the reference's
      routing weight for e (no finiteness is needed: a product with 0 is 0 on the extended reals);
    * the kernel's matrix products contract the same axes, in one piece, as the reference's; its logistic is the
      reference's 1 / (1 + exp (-x)); a change of float format is the identity;
    * the kernel adds the experts to a zeroed tile in grid order, the reference adds them to a zero array in loop order.
  The kernel's result is read off the generated frame run (MoeChunk, MoeTile, MoeCases: one grid point's tile; MoeHost: the
  arrays the host operations before the call leave; MoeRun: the induction over the grid and the write-back), the
  reference's off its run (RefLayer, RefRun). The ideal pass rewrote nothing, so `preserves` is `True`.
-/
import proofs.«100520_j25288767439422_1_alg».proof.Defs
import proofs.«100520_j25288767439422_1_alg».proof.Proof.Gen.Kernel
import proofs.«100520_j25288767439422_1_alg».proof.Proof.Gen.Kernel.Skeleton
import proofs.«100520_j25288767439422_1_alg».proof.Proof.Gen.Kernel.Launch
import proofs.«100520_j25288767439422_1_alg».proof.Proof.Gen.Kernel.Points
import proofs.«100520_j25288767439422_1_alg».proof.Proof.Gen.Kernel.Frame
import proofs.«100520_j25288767439422_1_alg».proof.Proof.Gen.KernelIdeal
import proofs.«100520_j25288767439422_1_alg».proof.Proof.Gen.KernelIdeal.Skeleton
import proofs.«100520_j25288767439422_1_alg».proof.Proof.Gen.KernelIdeal.Launch
import proofs.«100520_j25288767439422_1_alg».proof.Proof.Gen.KernelIdeal.Points
import proofs.«100520_j25288767439422_1_alg».proof.Proof.Gen.KernelIdeal.Frame
import proofs.«100520_j25288767439422_1_alg».proof.Proof.Gen.ReferenceIdeal
import proofs.«100520_j25288767439422_1_alg».proof.Proof.Gen.Pre_finite_inputs
import proofs.«100520_j25288767439422_1_alg».proof.Proof.MoeRun
import proofs.«100520_j25288767439422_1_alg».proof.Proof.RefRun
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefRun.run m ρ)

/-- From memories that agree on the arguments both programs end with the layer of those arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Moe.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.MoeRun.run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
